-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S4x2048x2048 .f32) (main_arg1 : FVec F S8192x2048 .f32) (main_arg2 : FVec F S2048x8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  main_v13
-- ==== Kernel.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S2048 : Shape := ⟨1, ![2048]⟩
abbrev S2048x1 : Shape := ⟨2, ![2048, 1]⟩
abbrev S1x2048 : Shape := ⟨2, ![1, 2048]⟩
abbrev S8192x8192 : Shape := ⟨2, ![8192, 8192]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩
abbrev S256x8192 : Shape := ⟨2, ![256, 8192]⟩
abbrev S512x8192 : Shape := ⟨2, ![512, 8192]⟩
abbrev S1x512 : Shape := ⟨2, ![1, 512]⟩
abbrev S256x512 : Shape := ⟨2, ![256, 512]⟩

abbrev nBuf : Space → Nat
  | .hbm => 55
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S2048x8192, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .bf16⟩
  | .hbm, ⟨27, _⟩ => ⟨S1x8192, .f32⟩
  | .hbm, ⟨28, _⟩ => ⟨S2048x8192, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x8192, .f32⟩
  | .hbm, ⟨40, _⟩ => ⟨S2048x8192, .f32⟩
  | .hbm, ⟨41, _⟩ => ⟨S2048x8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048x8192, .f32⟩
  | .hbm, ⟨46, _⟩ => ⟨S2048x8192, .f32⟩
  | .hbm, ⟨47, _⟩ => ⟨S_, .f32⟩
  | .hbm, ⟨48, _⟩ => ⟨S2048x8192, .f32⟩
  | .hbm, ⟨49, _⟩ => ⟨S2048x8192, .f32⟩
  | .hbm, ⟨50, _⟩ => ⟨S2048x8192, .bf16⟩
  | .hbm, ⟨51, _⟩ => ⟨S1x2048, .f32⟩
  | .hbm, ⟨52, _⟩ => ⟨S8192x8192, .bf16⟩
  | .hbm, ⟨53, _⟩ => ⟨S8192x2048, .f32⟩
  | .hbm, ⟨54, _⟩ => ⟨S4x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S256x2048, .bf16⟩
  | .local _ .vmem, ⟨7, _⟩ => ⟨S256x2048, .bf16⟩
  | .local _ .vmem, ⟨8, _⟩ => ⟨S256x8192, .bf16⟩
  | .local _ .vmem, ⟨9, _⟩ => ⟨S256x8192, .bf16⟩
  | .local _ .vmem, ⟨10, _⟩ => ⟨S512x8192, .bf16⟩
  | .local _ .vmem, ⟨11, _⟩ => ⟨S512x8192, .bf16⟩
  | .local _ .vmem, ⟨12, _⟩ => ⟨S1x512, .f32⟩
  | .local _ .vmem, ⟨13, _⟩ => ⟨S1x512, .f32⟩
  | .local _ .vmem, ⟨14, _⟩ => ⟨S256x512, .f32⟩
  | .local _ .vmem, ⟨15, _⟩ => ⟨S256x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_call0_cst_1 : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_cst_2 : Ref sig .tc := ⟨.hbm, 18, rfl⟩
abbrev main_call0_cst_3 : Ref sig .tc := ⟨.hbm, 19, rfl⟩
abbrev main_call0_call2_v0 : Ref sig .tc := ⟨.hbm, 20, rfl⟩
abbrev main_call0_call2_v1 : Ref sig .tc := ⟨.hbm, 21, rfl⟩
abbrev main_call0_call2_v2 : Ref sig .tc := ⟨.hbm, 22, rfl⟩
abbrev main_call0_call2_v3 : Ref sig .tc := ⟨.hbm, 23, rfl⟩
abbrev main_call0_call2_v4 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_cst_4 : Ref sig .tc := ⟨.hbm, 29, rfl⟩
abbrev main_call0_v14 : Ref sig .tc := ⟨.hbm, 30, rfl⟩
abbrev main_call0_v15 : Ref sig .tc := ⟨.hbm, 31, rfl⟩
abbrev main_call0_cst_5 : Ref sig .tc := ⟨.hbm, 32, rfl⟩
abbrev main_call0_v16 : Ref sig .tc := ⟨.hbm, 33, rfl⟩
abbrev main_call0_v17 : Ref sig .tc := ⟨.hbm, 34, rfl⟩
abbrev main_call0_cst_6 : Ref sig .tc := ⟨.hbm, 35, rfl⟩
abbrev main_call0_call3_v0 : Ref sig .tc := ⟨.hbm, 36, rfl⟩
abbrev main_call0_call3_v1 : Ref sig .tc := ⟨.hbm, 37, rfl⟩
abbrev main_call0_v18 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_call0_cst_7 : Ref sig .tc := ⟨.hbm, 42, rfl⟩
abbrev main_call0_cst_8 : Ref sig .tc := ⟨.hbm, 43, rfl⟩
abbrev main_call0_call5_v0 : Ref sig .tc := ⟨.hbm, 44, rfl⟩
abbrev main_call0_call5_v1 : Ref sig .tc := ⟨.hbm, 45, rfl⟩
abbrev main_call0_call5_v2 : Ref sig .tc := ⟨.hbm, 46, rfl⟩
abbrev main_call0_call5_v3 : Ref sig .tc := ⟨.hbm, 47, rfl⟩
abbrev main_call0_call5_v4 : Ref sig .tc := ⟨.hbm, 48, rfl⟩
abbrev main_call0_v22 : Ref sig .tc := ⟨.hbm, 49, rfl⟩
abbrev main_call0_v23 : Ref sig .tc := ⟨.hbm, 50, rfl⟩
abbrev main_call0_v24 : Ref sig .tc := ⟨.hbm, 51, rfl⟩
abbrev main_call0_v25 : Ref sig .tc := ⟨.hbm, 52, rfl⟩
abbrev main_call0_v26 : Ref sig .tc := ⟨.hbm, 53, rfl⟩
abbrev main_v0 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x2048_S8192x2048 : S4x2048x2048.ShapeCasts S8192x2048
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  bitsLt_bf16_f32 : FTy.bits .bf16 < FTy.bits .f32
  transposes_S8192x1_S1x8192_1_0 : S8192x1.Transposes [1, 0] S1x8192
  reducesTo_S2048x8192_S2048_d1 : S2048x8192.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x8192_0_1 : S2048x1.BroadcastsInDim S2048x8192 (![0, 1] : Fin 2 → Fin S2048x8192.rank)
  bcast_S_S2048x8192 : S_.BroadcastsInDim S2048x8192 (![] : Fin 0 → Fin S2048x8192.rank)
  transposes_S2048x1_S1x2048_1_0 : S2048x1.Transposes [1, 0] S1x2048
  shapeCasts_S8192x2048_S4x2048x2048 : S8192x2048.ShapeCasts S4x2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  packedbf16_S256x2048_S256x2048_0_0 : (Rect.unit (s := S256x2048) ![0, 0] S256x2048.size inb_S256x2048_S256x2048_0_0).PackedRows (EltTy.packing .bf16)
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  reduces_S256x8192_S256 : S256x8192.Reduces [1] S256
  broadcasts_S256x1_S256x8192 : S256x1.Broadcasts S256x8192
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  dot_S256x2048_S2048x2048_S256x2048_1_1_0_0_n_n_wf : DotDims.WF S256x2048 S2048x2048 S256x2048 [1] [1] [0] [0] [] []
  dot_S256x8192_S512x8192_S256x512_1_1_0_0_n_n_wf : DotDims.WF S256x8192 S512x8192 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x2048.size a
  hwx0_1 : ∀ i : grid0.Coords, EltTy.bits .bf16 = 32 ∨ (Rect.block (s := S8192x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S8192x8192.size a
  hwx0_3 : ∀ i : grid0.Coords, EltTy.bits .bf16 = 32 ∨ (Rect.block (s := S8192x8192) S256x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .bf16 = 32 ∨ (Rect.block (s := S8192x8192) S256x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x8192.size a ≤ S2048x8192.size a
  hwx1_1 : ∀ i : grid1.Coords, EltTy.bits .bf16 = 32 ∨ (Rect.block (s := S2048x8192) S512x8192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S8192x2048.size a
  hwx1_3 : ∀ i : grid1.Coords, EltTy.bits .f32 = 32 ∨ (Rect.block (s := S8192x2048) S256x512.size (cc1_transform_3 i) (hinb1_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x8192_S512x8192_S256x512_1_1_0_0_n_n : DotDims S256x8192 S512x8192 S256x512 where
  lhsContracting := [1]
  rhsContracting := [1]
  lhsNonContracting := [0]
  rhsNonContracting := [0]
  lhsBatch := []
  rhsBatch := []
  wf := dot_S256x8192_S512x8192_S256x512_1_1_0_0_n_n_wf

abbrev win0_0 : Pipeline.Window sig grid0 :=
  Pipeline.Window.ofSpec (Memref.whole main_call0_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v11) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v12) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v25) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v25) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v23) S512x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v24) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v26) S256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩
abbrev S4x2048 : Shape := ⟨2, ![4, 2048]⟩
abbrev S4x2048x1 : Shape := ⟨3, ![4, 2048, 1]⟩
abbrev S8192 : Shape := ⟨1, ![8192]⟩
abbrev S8192x1 : Shape := ⟨2, ![8192, 1]⟩
abbrev S1x8192 : Shape := ⟨2, ![1, 8192]⟩
abbrev S4x2048x8192 : Shape := ⟨3, ![4, 2048, 8192]⟩
abbrev S1x1x8192 : Shape := ⟨3, ![1, 1, 8192]⟩
abbrev S2048 : Shape := ⟨1, ![2048]⟩
abbrev S2048x1 : Shape := ⟨2, ![2048, 1]⟩
abbrev S1x2048 : Shape := ⟨2, ![1, 2048]⟩
abbrev S1x1x2048 : Shape := ⟨3, ![1, 1, 2048]⟩

abbrev nBuf : Space → Nat
  | .hbm => 138
  | .vmem => 0
  | .smem => 0
  | _ => 0

abbrev hbmTy0_0 (i : Nat) : BufTy := match i % 128 with
  | 0 => ⟨S4x2048x2048, .f32⟩
  | 1 => ⟨S8192x2048, .f32⟩
  | 2 => ⟨S2048x8192, .f32⟩
  | 3 => ⟨S4x2048x2048, .f32⟩
  | 4 => ⟨S_, .f32⟩
  | 5 => ⟨S4x2048, .f32⟩
  | 6 => ⟨S4x2048x1, .f32⟩
  | 7 => ⟨S_, .f32⟩
  | 8 => ⟨S_, .f32⟩
  | 9 => ⟨S4x2048x1, .f32⟩
  | 10 => ⟨S4x2048x1, .f32⟩
  | 11 => ⟨S_, .f32⟩
  | 12 => ⟨S4x2048x1, .f32⟩
  | 13 => ⟨S4x2048x1, .f32⟩
  | 14 => ⟨S4x2048x2048, .f32⟩
  | 15 => ⟨S4x2048x2048, .f32⟩
  | 16 => ⟨S4x2048x2048, .f32⟩
  | 17 => ⟨S_, .i32⟩
  | 18 => ⟨S_, .i32⟩
  | 19 => ⟨S_, .f32⟩
  | 20 => ⟨S4x2048x2048, .f32⟩
  | 21 => ⟨S4x2048x2048, .f32⟩
  | 22 => ⟨S_, .f32⟩
  | 23 => ⟨S4x2048x2048, .f32⟩
  | 24 => ⟨S4x2048x2048, .f32⟩
  | 25 => ⟨S4x2048x2048, .f32⟩
  | 26 => ⟨S4x2048x2048, .f32⟩
  | 27 => ⟨S4x2048x2048, .f32⟩
  | 28 => ⟨S4x2048x2048, .f32⟩
  | 29 => ⟨S8192x2048, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S_, .f32⟩
  | 37 => ⟨S_, .f32⟩
  | 38 => ⟨S8192x1, .f32⟩
  | 39 => ⟨S8192x1, .f32⟩
  | 40 => ⟨S8192x2048, .f32⟩
  | 41 => ⟨S8192x2048, .f32⟩
  | 42 => ⟨S8192x2048, .f32⟩
  | 43 => ⟨S_, .i32⟩
  | 44 => ⟨S_, .i32⟩
  | 45 => ⟨S_, .f32⟩
  | 46 => ⟨S8192x2048, .f32⟩
  | 47 => ⟨S8192x2048, .f32⟩
  | 48 => ⟨S_, .f32⟩
  | 49 => ⟨S8192x2048, .f32⟩
  | 50 => ⟨S8192x2048, .f32⟩
  | 51 => ⟨S8192x2048, .f32⟩
  | 52 => ⟨S8192x2048, .f32⟩
  | 53 => ⟨S8192x2048, .f32⟩
  | 54 => ⟨S8192x2048, .f32⟩
  | 55 => ⟨S8192x2048, .f32⟩
  | 56 => ⟨S8192x2048, .f32⟩
  | 57 => ⟨S1x8192, .f32⟩
  | 58 => ⟨S4x2048x8192, .f32⟩
  | 59 => ⟨S1x1x8192, .f32⟩
  | 60 => ⟨S4x2048x8192, .f32⟩
  | 61 => ⟨S4x2048x8192, .f32⟩
  | 62 => ⟨S_, .f32⟩
  | 63 => ⟨S4x2048x8192, .f32⟩
  | 64 => ⟨S4x2048x8192, .f32⟩
  | 65 => ⟨S_, .f32⟩
  | 66 => ⟨S4x2048x8192, .f32⟩
  | 67 => ⟨S4x2048x8192, .f32⟩
  | 68 => ⟨S4x2048x8192, .f32⟩
  | 69 => ⟨S4x2048x8192, .f32⟩
  | 70 => ⟨S4x2048x8192, .f32⟩
  | 71 => ⟨S_, .f32⟩
  | 72 => ⟨S4x2048x8192, .f32⟩
  | 73 => ⟨S4x2048x8192, .f32⟩
  | 74 => ⟨S4x2048x8192, .f32⟩
  | 75 => ⟨S_, .f32⟩
  | 76 => ⟨S4x2048x8192, .f32⟩
  | 77 => ⟨S4x2048x8192, .f32⟩
  | 78 => ⟨S4x2048x8192, .f32⟩
  | 79 => ⟨S4x2048x8192, .f32⟩
  | 80 => ⟨S_, .f32⟩
  | 81 => ⟨S4x2048, .f32⟩
  | 82 => ⟨S4x2048x1, .f32⟩
  | 83 => ⟨S_, .f32⟩
  | 84 => ⟨S_, .f32⟩
  | 85 => ⟨S4x2048x1, .f32⟩
  | 86 => ⟨S4x2048x1, .f32⟩
  | 87 => ⟨S_, .f32⟩
  | 88 => ⟨S4x2048x1, .f32⟩
  | 89 => ⟨S4x2048x1, .f32⟩
  | 90 => ⟨S4x2048x8192, .f32⟩
  | 91 => ⟨S4x2048x8192, .f32⟩
  | 92 => ⟨S4x2048x8192, .f32⟩
  | 93 => ⟨S_, .i32⟩
  | 94 => ⟨S_, .i32⟩
  | 95 => ⟨S_, .f32⟩
  | 96 => ⟨S4x2048x8192, .f32⟩
  | 97 => ⟨S4x2048x8192, .f32⟩
  | 98 => ⟨S_, .f32⟩
  | 99 => ⟨S4x2048x8192, .f32⟩
  | 100 => ⟨S4x2048x8192, .f32⟩
  | 101 => ⟨S4x2048x8192, .f32⟩
  | 102 => ⟨S4x2048x8192, .f32⟩
  | 103 => ⟨S4x2048x8192, .f32⟩
  | 104 => ⟨S4x2048x8192, .f32⟩
  | 105 => ⟨S2048x8192, .f32⟩
  | 106 => ⟨S_, .f32⟩
  | 107 => ⟨S2048, .f32⟩
  | 108 => ⟨S2048x1, .f32⟩
  | 109 => ⟨S_, .f32⟩
  | 110 => ⟨S2048x1, .f32⟩
  | 111 => ⟨S2048x1, .f32⟩
  | 112 => ⟨S_, .f32⟩
  | 113 => ⟨S_, .f32⟩
  | 114 => ⟨S2048x1, .f32⟩
  | 115 => ⟨S2048x1, .f32⟩
  | 116 => ⟨S2048x8192, .f32⟩
  | 117 => ⟨S2048x8192, .f32⟩
  | 118 => ⟨S2048x8192, .f32⟩
  | 119 => ⟨S_, .i32⟩
  | 120 => ⟨S_, .i32⟩
  | 121 => ⟨S_, .f32⟩
  | 122 => ⟨S2048x8192, .f32⟩
  | 123 => ⟨S2048x8192, .f32⟩
  | 124 => ⟨S_, .f32⟩
  | 125 => ⟨S2048x8192, .f32⟩
  | 126 => ⟨S2048x8192, .f32⟩
  | 127 => ⟨S2048x8192, .f32⟩
  | _ => ⟨S4x2048x2048, .f32⟩

abbrev hbmTy0_1 (i : Nat) : BufTy := match i % 128 with
  | 0 => ⟨S2048x8192, .f32⟩
  | 1 => ⟨S2048x8192, .f32⟩
  | 2 => ⟨S2048x8192, .f32⟩
  | 3 => ⟨S2048x8192, .f32⟩
  | 4 => ⟨S2048x8192, .f32⟩
  | 5 => ⟨S1x2048, .f32⟩
  | 6 => ⟨S4x2048x2048, .f32⟩
  | 7 => ⟨S1x1x2048, .f32⟩
  | 8 => ⟨S4x2048x2048, .f32⟩
  | 9 => ⟨S4x2048x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_c_2 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_call3_v0 : Ref sig .tc := ⟨.hbm, 37, rfl⟩
abbrev main_call3_v1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_c_7 : Ref sig .tc := ⟨.hbm, 44, rfl⟩
abbrev main_call5_v0 : Ref sig .tc := ⟨.hbm, 45, rfl⟩
abbrev main_call5_v1 : Ref sig .tc := ⟨.hbm, 46, rfl⟩
abbrev main_call5_v2 : Ref sig .tc := ⟨.hbm, 47, rfl⟩
abbrev main_call5_v3 : Ref sig .tc := ⟨.hbm, 48, rfl⟩
abbrev main_call5_v4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_v36 : Ref sig .tc := ⟨.hbm, 64, rfl⟩
abbrev main_cst_9 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_11 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_12 : Ref sig .tc := ⟨.hbm, 80, rfl⟩
abbrev main_v49 : Ref sig .tc := ⟨.hbm, 81, rfl⟩
abbrev main_v50 : Ref sig .tc := ⟨.hbm, 82, rfl⟩
abbrev main_cst_13 : Ref sig .tc := ⟨.hbm, 83, rfl⟩
abbrev main_call6_v0 : Ref sig .tc := ⟨.hbm, 84, rfl⟩
abbrev main_call6_v1 : Ref sig .tc := ⟨.hbm, 85, rfl⟩
abbrev main_v51 : Ref sig .tc := ⟨.hbm, 86, rfl⟩
abbrev main_cst_14 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_15 : Ref sig .tc := ⟨.hbm, 93, rfl⟩
abbrev main_c_16 : Ref sig .tc := ⟨.hbm, 94, rfl⟩
abbrev main_call8_v0 : Ref sig .tc := ⟨.hbm, 95, rfl⟩
abbrev main_call8_v1 : Ref sig .tc := ⟨.hbm, 96, rfl⟩
abbrev main_call8_v2 : Ref sig .tc := ⟨.hbm, 97, rfl⟩
abbrev main_call8_v3 : Ref sig .tc := ⟨.hbm, 98, rfl⟩
abbrev main_call8_v4 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_17 : Ref sig .tc := ⟨.hbm, 106, rfl⟩
abbrev main_v63 : Ref sig .tc := ⟨.hbm, 107, rfl⟩
abbrev main_v64 : Ref sig .tc := ⟨.hbm, 108, rfl⟩
abbrev main_cst_18 : Ref sig .tc := ⟨.hbm, 109, rfl⟩
abbrev main_v65 : Ref sig .tc := ⟨.hbm, 110, rfl⟩
abbrev main_v66 : Ref sig .tc := ⟨.hbm, 111, rfl⟩
abbrev main_cst_19 : Ref sig .tc := ⟨.hbm, 112, rfl⟩
abbrev main_call9_v0 : Ref sig .tc := ⟨.hbm, 113, rfl⟩
abbrev main_call9_v1 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_c_20 : Ref sig .tc := ⟨.hbm, 119, rfl⟩
abbrev main_c_21 : Ref sig .tc := ⟨.hbm, 120, rfl⟩
abbrev main_call11_v0 : Ref sig .tc := ⟨.hbm, 121, rfl⟩
abbrev main_call11_v1 : Ref sig .tc := ⟨.hbm, 122, rfl⟩
abbrev main_call11_v2 : Ref sig .tc := ⟨.hbm, 123, rfl⟩
abbrev main_call11_v3 : Ref sig .tc := ⟨.hbm, 124, rfl⟩
abbrev main_call11_v4 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S8192x2048_S8192_d1 : S8192x2048.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  transposes_S8192x1_S1x8192_1_0 : S8192x1.Transposes [1, 0] S1x8192
  bcast_S1x8192_S1x1x8192_1_2 : S1x8192.BroadcastsInDim S1x1x8192 (![1, 2] : Fin 2 → Fin S1x1x8192.rank)
  bcast_S1x1x8192_S4x2048x8192_0_1_2 : S1x1x8192.BroadcastsInDim S4x2048x8192 (![0, 1, 2] : Fin 3 → Fin S4x2048x8192.rank)
  bcast_S_S4x2048x8192 : S_.BroadcastsInDim S4x2048x8192 (![] : Fin 0 → Fin S4x2048x8192.rank)
  reducesTo_S4x2048x8192_S4x2048_d2 : S4x2048x8192.ReducesTo [2] S4x2048
  bcast_S4x2048x1_S4x2048x8192_0_1_2 : S4x2048x1.BroadcastsInDim S4x2048x8192 (![0, 1, 2] : Fin 3 → Fin S4x2048x8192.rank)
  reducesTo_S2048x8192_S2048_d1 : S2048x8192.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x8192_0_1 : S2048x1.BroadcastsInDim S2048x8192 (![0, 1] : Fin 2 → Fin S2048x8192.rank)
  bcast_S_S2048x8192 : S_.BroadcastsInDim S2048x8192 (![] : Fin 0 → Fin S2048x8192.rank)
  transposes_S2048x1_S1x2048_1_0 : S2048x1.Transposes [1, 0] S1x2048
  bcast_S1x2048_S1x1x2048_1_2 : S1x2048.BroadcastsInDim S1x1x2048 (![1, 2] : Fin 2 → Fin S1x1x2048.rank)
  bcast_S1x1x2048_S4x2048x2048_0_1_2 : S1x1x2048.BroadcastsInDim S4x2048x2048 (![0, 1, 2] : Fin 3 → Fin S4x2048x2048.rank)
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.KRun.lean ====
/-
  The idealized kernel's run with its result named.  @main is a stretch of host operations (the weights made ternary,
  the activations flattened to rows), the two kernel regions, and one reshape.  Every weakly fair execution terminates
  without a fault; at the end the result array holds what the last reshape leaves of the second region's output, and
  the three argument arrays hold what they held at launch.  The contents at each boundary are the fold `W0 … W4`
  of the frame module this one imports; only the final reading differs from the frame: it keeps the result array too.
-/
import proofs.«169359_j2439541424639_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents `W4`, the arguments as launched. -/
theorem run_out : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.KRun

end
-- ==== Proof.Spec.lean ====
/-
  The function both programs compute, over the extended reals, index by index.

  A row `r` of activations is quantized to the grid of step `1/s`, `s = 127 / max(ε, maxₖ |rₖ|)`:
  `q(x) = clamp(round(x·s), -128, 127) / s`.  A weight row `w` is made ternary against its mean magnitude
  `σ = max(ε, (0 + Σₖ |wₖ|) / n)`: `t(w) = clamp(round(w / σ), -1, 1)`.  One layer sends the rows `A` and the weight rows `W`
  to `(Σₖ q(A r)ₖ · t(W n)ₖ) · σₙ`; the network is two layers with the tanh form of GELU in between.
  Rows are indexed by `Fin 8192` (batch and sequence position flattened), features by `Fin 2048`, hidden units by `Fin 8192`.
-/
import Idealize.ShloMosaic.PureOps.Ideal
import Idealize.ShloMosaic.PureOps.Ideal.Laws

noncomputable section

namespace BitMlp

open Idealize.ShloMosaic

/-- A binary32 pattern read as the extended real it denotes. -/
abbrev lit (w : BitVec 32) : EReal := Ideal.ofBits .f32 w

/-- Magnitude on the extended reals. -/
def absE (a : EReal) : EReal := max a (-a)

/-- The largest magnitude of a row, folded from `-∞`. -/
def amax {K : ℕ} (r : Fin K → EReal) : EReal :=
  (Finset.univ : Finset (Fin K)).fold max (lit 0xFF800000#32) (fun k => absE (r k))

/-- The activation step's reciprocal: `127 / max(ε, a)`. -/
def qstep (a : EReal) : EReal := Ideal.div (lit 0x42FE0000#32) (max (lit 0x3727C5AC#32) a)

/-- Round to the nearest integer (ties to even), clamp to `[lo, hi]`. -/
def rclamp (lo hi z : EReal) : EReal := min hi (max lo (Ideal.liftRound Ideal.roundHalfEven z))

/-- An activation quantized with step reciprocal `s`. -/
def quant (s x : EReal) : EReal := Ideal.div (rclamp (lit 0xC3000000#32) (lit 0x42FE0000#32) (x * s)) s

/-- A row quantized against its own largest magnitude. -/
def actq {K : ℕ} (r : Fin K → EReal) (k : Fin K) : EReal := quant (qstep (amax r)) (r k)

/-- A weight row's mean magnitude, floored at `ε`; `n` is the row length as a binary32 pattern. -/
def wstep {K : ℕ} (n : BitVec 32) (r : Fin K → EReal) : EReal :=
  max (lit 0x3727C5AC#32) (Ideal.div (lit 0x00000000#32 + ∑ k, absE (r k)) (lit n))

/-- A weight made ternary against the scale `σ`. -/
def tern (σ w : EReal) : EReal := rclamp (lit 0xBF800000#32) (lit 0x3F800000#32) (Ideal.div w σ)

/-- The tanh form of GELU: `(½·o) · (1 + tanh(c · (o + a·((o·o)·o))))`. -/
def gelu (o : EReal) : EReal :=
  (lit 0x3F000000#32 * o) * (lit 0x3F800000#32 + Ideal.tanh (lit 0x3F4C422A#32 * (o + lit 0x3D372713#32 * ((o * o) * o))))

/-- One quantized linear layer: rows `A`, ternary weight rows `Wq`, column scales `S`. -/
def lin {M K N : ℕ} (A : Fin M → Fin K → EReal) (Wq : Fin N → Fin K → EReal) (S : Fin N → EReal)
    (r : Fin M) (n : Fin N) : EReal :=
  (∑ k, actq (A r) k * Wq n k) * S n

/-- The first layer's ternary weights and scales from the raw weights (rows of length 2048). -/
def s1 (W1 : Fin 8192 → Fin 2048 → EReal) (h : Fin 8192) : EReal := wstep 0x45000000#32 (W1 h)
def w1q (W1 : Fin 8192 → Fin 2048 → EReal) (h : Fin 8192) (d : Fin 2048) : EReal := tern (s1 W1 h) (W1 h d)
/-- The second layer's (rows of length 8192). -/
def s2 (W2 : Fin 2048 → Fin 8192 → EReal) (n : Fin 2048) : EReal := wstep 0x46000000#32 (W2 n)
def w2q (W2 : Fin 2048 → Fin 8192 → EReal) (n : Fin 2048) (h : Fin 8192) : EReal := tern (s2 W2 n) (W2 n h)

/-- The hidden activations. -/
def hidden (X : Fin 8192 → Fin 2048 → EReal) (W1 : Fin 8192 → Fin 2048 → EReal) (r : Fin 8192) (h : Fin 8192) : EReal :=
  gelu (lin X (w1q W1) (s1 W1) r h)

/-- The network's output. -/
def mlp (X : Fin 8192 → Fin 2048 → EReal) (W1 : Fin 8192 → Fin 2048 → EReal) (W2 : Fin 2048 → Fin 8192 → EReal)
    (r : Fin 8192) (n : Fin 2048) : EReal :=
  lin (hidden X W1) (w2q W2) (s2 W2) r n

end BitMlp

end
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.LibRowMax.lean ====
/-
  A maximum taken along the last axis, read at an index, at the ideal values.

  The largest entry of each row of an a × b block, as a kernel's lane reduction computes it, is at row p the fold of
  max, from the value the accumulator's pattern denotes, over the entries (p, k); and the host's reduce with a maximum
  body over the last axis of an a × b × c array is at (p, q) the fold of max, from the initial value, over the entries
  (p, q, k). (The companions for sums are in the file of row operations this one imports.)
-/
import Idealize.ShloMosaic.Lib.ValueIdx
import Idealize.ShloMosaic.PureOps.Ideal.Laws
import Idealize.ShloMosaic.PureOps.Reduce
import proofs.«169359_j2439541424639_1_alg».proof.Proof.LibRowOps

noncomputable section

namespace Cert.LibRowMax

open Idealize.ShloMosaic Idealize.ShloMosaic.ValueIdx

/-- The index a reduction over the last of three axes lifts (p, q) and the position k to is (p, q, k). -/
theorem lift_last {a b c : ℕ} (h : (⟨3, ![a, b, c]⟩ : Shape).Reduces [2] ⟨2, ![a, b]⟩) (p : Fin a) (q : Fin b) (k : Fin c) :
    h.lift (ix2 p q) k = ix3 p q k := by
  funext d
  apply Fin.ext
  show h.liftVal (ix2 p q) k.val d = (ix3 p q k d).val
  match d with
  | ⟨0, _⟩ => simp [Shape.Reduces.liftVal]
  | ⟨1, _⟩ => simp [Shape.Reduces.liftVal]
  | ⟨2, _⟩ => simp [Shape.Reduces.liftVal]

/-- A kernel's lane maximum of an a × b block, at row p: the fold of max over the row's entries. -/
theorem multiReduction_maximumf_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) fun k => src (ix2 p k) :=
  (Ideal.multiReduction_maximumf_single src acc h hφ hacc (ix1 p)).trans
    (congrArg (fun f : Fin b → EReal => Finset.univ.fold max (Ideal.ofBits φ acc) f)
      (funext fun k => congrArg src (Cert.LibRowOps.lift_row h p k)))

/-- The host's reduce with a maximum body over the last axis of an a × b × c array, at (p, q): the fold of max, from
    the initial value, over the entries (p, q, k). -/
theorem hostReduce_maximumf_last_apply {a b c : ℕ} {φ : FTy} {u : Shape} (x : FVec Ideal ⟨3, ![a, b, c]⟩ φ)
    (init : u.Idx → Ideal φ) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (q : Fin b) :
    Host.reduce FloatOps.maximumf x init h' hu (ix2 p q)
      = (Finset.univ : Finset (Fin c)).fold max (init (Shape.Idx.first hu)) fun k => x (ix3 p q k) :=
  (Host.reduce_eq_fold_single FloatOps.maximumf x init h' h hu (ix2 p q)).trans
    (congrArg (fun f : Fin c → EReal => Finset.univ.fold max (init (Shape.Idx.first hu)) f)
      (funext fun k => congrArg x (lift_last h p q k)))

end Cert.LibRowMax

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRhsT.lean ====
/-
  A matrix product whose right operand is stored transposed, into a zero accumulator, read at an index, at the ideal
  values.

  For an `a × b` left operand and a `c × b` right operand (dimension numbers: contract the left's axis 1 with the
  right's axis 1, no batch axes — `A · Bᵀ`), entry `(p, n)` of the product is `Σ_k A(p, k) · B(n, k)`: the sum of the
  exact products, the zero the accumulator starts from adding nothing.
-/
import Idealize.ShloMosaic.Lib.ValueIdx
import Idealize.ShloMosaic.PureOps.Ideal.Laws
import proofs.«169359_j2439541424639_1_alg».proof.Proof.LibMatmulZero

noncomputable section

namespace Cert.LibMatmulRhsT

open Idealize.ShloMosaic Idealize.ShloMosaic.ValueIdx

variable {a b c : ℕ}

/-- The dimension numbers of an `a × b` by (`c × b`)ᵀ product over the shared axis. -/
abbrev rhsTDims (wf : DotDims.WF ⟨2, ![a, b]⟩ ⟨2, ![c, b]⟩ ⟨2, ![a, c]⟩ [1] [1] [0] [0] [] []) :
    DotDims ⟨2, ![a, b]⟩ ⟨2, ![c, b]⟩ ⟨2, ![a, c]⟩ where
  lhsContracting := [1]
  rhsContracting := [1]
  lhsNonContracting := [0]
  rhsNonContracting := [0]
  lhsBatch := []
  rhsBatch := []
  wf := wf

/-- THE PRODUCT READ AT `(p, n)`, for the record `rhsTDims`. -/
theorem rhsTDims_matmul_apply {φ₁ φ₂ : FTy} (wf : DotDims.WF ⟨2, ![a, b]⟩ ⟨2, ![c, b]⟩ ⟨2, ![a, c]⟩ [1] [1] [0] [0] [] [])
    (A : FVec Ideal ⟨2, ![a, b]⟩ φ₁) (B : FVec Ideal ⟨2, ![c, b]⟩ φ₂) (p : Fin a) (n : Fin c) :
    FloatOps.matmul (rhsTDims wf) none A B (constant ⟨2, ![a, c]⟩ .f32 0x00000000#32) (ix2 p n)
      = ∑ k : Fin b, A (ix2 p k) * B (ix2 n k) := by
  refine Cert.LibMatmulZero.matmul_zero_apply (rhsTDims wf) b rfl rfl A B (ix2 p n) (fun k => ix2 p k) (fun k => ix2 n k) ?_ ?_
  · intro k ax
    match ax with
    | ⟨0, _⟩ =>
      show ((rhsTDims wf).lhsIdx (ix2 p n) ((contrEquiv1 (rhsTDims wf) b rfl rfl).symm k) 0).val = p.val
      unfold DotDims.lhsIdx
      rw [dif_neg (show ¬(0 : Fin 2) ∈ (rhsTDims wf).lhsBatch from List.not_mem_nil),
        dif_pos (show (0 : Fin 2) ∈ (rhsTDims wf).lhsNonContracting from List.mem_singleton.mpr rfl)]
      rfl
    | ⟨1, _⟩ =>
      exact ((rhsTDims wf).lhsIdx_val_of_single rfl (ix2 p n) _).trans (contrEquiv1_symm_val (rhsTDims wf) b rfl rfl k)
  · intro k ax
    match ax with
    | ⟨0, _⟩ =>
      show ((rhsTDims wf).rhsIdx (ix2 p n) ((contrEquiv1 (rhsTDims wf) b rfl rfl).symm k) 0).val = n.val
      unfold DotDims.rhsIdx
      rw [dif_neg (show ¬(0 : Fin 2) ∈ (rhsTDims wf).rhsBatch from List.not_mem_nil),
        dif_pos (show (0 : Fin 2) ∈ (rhsTDims wf).rhsNonContracting from List.mem_singleton.mpr rfl)]
      rfl
    | ⟨1, _⟩ =>
      exact ((rhsTDims wf).rhsIdx_val_of_single rfl (ix2 p n) _).trans (contrEquiv1_symm_val (rhsTDims wf) b rfl rfl k)

/-- THE PRODUCT READ AT `(p, n)`, for any dimension-number record with the six lists of such a product (each
    hypothesis is `rfl` for a record written with those literal fields, whatever proves its `wf`). -/
theorem matmul_rhsT_apply {φ₁ φ₂ : FTy} (d : DotDims ⟨2, ![a, b]⟩ ⟨2, ![c, b]⟩ ⟨2, ![a, c]⟩)
    (hlc : d.lhsContracting = [1]) (hrc : d.rhsContracting = [1]) (hln : d.lhsNonContracting = [0])
    (hrn : d.rhsNonContracting = [0]) (hlb : d.lhsBatch = []) (hrb : d.rhsBatch = [])
    (A : FVec Ideal ⟨2, ![a, b]⟩ φ₁) (B : FVec Ideal ⟨2, ![c, b]⟩ φ₂) (p : Fin a) (n : Fin c) :
    FloatOps.matmul d none A B (constant ⟨2, ![a, c]⟩ .f32 0x00000000#32) (ix2 p n)
      = ∑ k : Fin b, A (ix2 p k) * B (ix2 n k) := by
  obtain ⟨lc, rc, ln, rn, lb, rb, wf⟩ := d
  dsimp only at hlc hrc hln hrn hlb hrb
  subst hlc hrc hln hrn hlb hrb
  exact rhsTDims_matmul_apply wf A B p n

end Cert.LibMatmulRhsT

end
-- ==== Proof.KBody.lean ====
/-
  What the two kernel bodies compute, read at one entry of the output block.

  Both bodies begin alike: the block of rows `x` is quantized row by row — the row's largest magnitude as a lane maximum,
  kept as a column, floored at ε, `127` divided by it, the column repeated along the row; then `x` times that, rounded,
  clamped to `[-128, 127]`, divided by it again.  At `(p, k)` that is `actq` of row `p` at `k`.  The first body multiplies the
  quantized rows by the transposed ternary weight block, scales column `q` by the `q`-th entry of the scale row and applies
  GELU; the second does the same on the hidden block without the GELU.
-/
import proofs.«169359_j2439541424639_1_alg».proof.Proof.Gen.KernelIdeal.Skeleton
import proofs.«169359_j2439541424639_1_alg».proof.Proof.Spec
import proofs.«169359_j2439541424639_1_alg».proof.Proof.LibColumn
import proofs.«169359_j2439541424639_1_alg».proof.Proof.LibRowMax
import proofs.«169359_j2439541424639_1_alg».proof.Proof.LibMatmulRhsT
import Idealize.ShloMosaic.Lib.ValueIdx
import Idealize.ShloMosaic.Lib.ValueLayout
import Idealize.ShloMosaic.Lib.Pipeline.Value

noncomputable section

namespace Cert.KernelIdeal.KBody

open Cert.KernelIdeal Cert.KernelIdeal.Gen Idealize.ShloMosaic Idealize.ShloMosaic.ValueIdx BitMlp

/-- A block of rows quantized as the kernels do it. -/
def quantBlock {a b : ℕ} (x : FVec Ideal ⟨2, ![a, b]⟩ .f32)
    (hred : (⟨2, ![a, b]⟩ : Shape).Reduces [1] ⟨1, ![a]⟩) (hcast : (⟨1, ![a]⟩ : Shape).ShapeCasts ⟨2, ![a, 1]⟩)
    (hbc : (⟨2, ![a, 1]⟩ : Shape).Broadcasts ⟨2, ![a, b]⟩) : FVec Ideal ⟨2, ![a, b]⟩ .f32 :=
  divf (minimumf (broadcast ⟨2, ![a, b]⟩ (Scalar.ofBits .f32 0x42FE0000#32))
          (maximumf (broadcast ⟨2, ![a, b]⟩ (Scalar.ofBits .f32 0xC3000000#32))
            (roundeven (mulf x (broadcastTo ⟨2, ![a, b]⟩
              (divf (broadcast ⟨2, ![a, 1]⟩ (Scalar.ofBits .f32 0x42FE0000#32))
                (maximumf (broadcast ⟨2, ![a, 1]⟩ (Scalar.ofBits .f32 0x3727C5AC#32))
                  (shapeCast ⟨2, ![a, 1]⟩ (multiReduction .maximumf [1] ⟨1, ![a]⟩ (absf x) 0xFF800000#32 hred (.inl rfl) rfl) hcast))) hbc)))))
       (broadcastTo ⟨2, ![a, b]⟩
          (divf (broadcast ⟨2, ![a, 1]⟩ (Scalar.ofBits .f32 0x42FE0000#32))
            (maximumf (broadcast ⟨2, ![a, 1]⟩ (Scalar.ofBits .f32 0x3727C5AC#32))
              (shapeCast ⟨2, ![a, 1]⟩ (multiReduction .maximumf [1] ⟨1, ![a]⟩ (absf x) 0xFF800000#32 hred (.inl rfl) rfl) hcast))) hbc)

/-- The step's reciprocal, as the column the kernel keeps, at row `p`. -/
theorem step_apply {a b : ℕ} (x : FVec Ideal ⟨2, ![a, b]⟩ .f32)
    (hred : (⟨2, ![a, b]⟩ : Shape).Reduces [1] ⟨1, ![a]⟩) (hcast : (⟨1, ![a]⟩ : Shape).ShapeCasts ⟨2, ![a, 1]⟩) (p : Fin a) :
    (divf (broadcast ⟨2, ![a, 1]⟩ (Scalar.ofBits .f32 0x42FE0000#32))
      (maximumf (broadcast ⟨2, ![a, 1]⟩ (Scalar.ofBits .f32 0x3727C5AC#32))
        (shapeCast ⟨2, ![a, 1]⟩ (multiReduction .maximumf [1] ⟨1, ![a]⟩ (absf x) 0xFF800000#32 hred (.inl rfl) rfl) hcast))
        : FVec Ideal ⟨2, ![a, 1]⟩ .f32) (ix2 p (0 : Fin 1))
      = qstep (amax fun k => x (ix2 p k)) := by
  refine congrArg (fun z : EReal => Ideal.div (Ideal.ofBits .f32 0x42FE0000#32) (max (Ideal.ofBits .f32 0x3727C5AC#32) z)) ?_
  exact (Cert.LibColumn.shapeCast_a_a1_apply _ hcast p (0 : Fin 1)).trans
    ((Cert.LibRowMax.multiReduction_maximumf_row_apply (absf x) 0xFF800000#32 hred (.inl rfl) rfl p).trans rfl)

/-- The quantized block at `(p, k)`: row `p` quantized against its own largest magnitude, at `k`. -/
theorem quantBlock_apply {a b : ℕ} (x : FVec Ideal ⟨2, ![a, b]⟩ .f32)
    (hred : (⟨2, ![a, b]⟩ : Shape).Reduces [1] ⟨1, ![a]⟩) (hcast : (⟨1, ![a]⟩ : Shape).ShapeCasts ⟨2, ![a, 1]⟩)
    (hbc : (⟨2, ![a, 1]⟩ : Shape).Broadcasts ⟨2, ![a, b]⟩) (p : Fin a) (k : Fin b) :
    quantBlock x hred hcast hbc (ix2 p k) = actq (fun k => x (ix2 p k)) k := by
  have hs := (Cert.LibColumn.broadcastTo_a1_ab_apply _ hbc p k).trans (step_apply x hred hcast p)
  unfold quantBlock
  refine (congrArg₂ (fun s t : EReal => Ideal.div (min (Ideal.ofBits .f32 0x42FE0000#32) (max (Ideal.ofBits .f32 0xC3000000#32)
    (Ideal.liftRound Ideal.roundHalfEven (x (ix2 p k) * s)))) t) hs hs).trans rfl

/-- A change of float format is the identity at the ideal values. -/
theorem truncf_bf16_apply {s : Shape} (x : FVec Ideal s .f32) (h : FTy.bf16.bits < FTy.f32.bits) (i : s.Idx) :
    truncf .bf16 x h i = x i := rfl

theorem extf_f32_apply {s : Shape} (x : FVec Ideal s .bf16) (h : FTy.bf16.bits < FTy.f32.bits) (i : s.Idx) :
    extf .f32 x h i = x i := rfl

/-- The tanh form of GELU on a block, as the first body computes it from the scaled product `o`. -/
def geluBlock {s : Shape} (o : FVec Ideal s .f32) : FVec Ideal s .f32 :=
  mulf (mulf (broadcast s (Scalar.ofBits .f32 0x3F000000#32)) o)
    (addf (broadcast s (Scalar.ofBits .f32 0x3F800000#32))
      (tanh (mulf (broadcast s (Scalar.ofBits .f32 0x3F4C422A#32))
        (addf o (mulf (broadcast s (Scalar.ofBits .f32 0x3D372713#32)) (mulf (mulf o o) o))))))

theorem geluBlock_apply {s : Shape} (o : FVec Ideal s .f32) (i : s.Idx) : geluBlock o i = gelu (o i) := rfl

/-- The SECOND body's result at `(p, q)`: the quantized row `p` of the hidden block against row `q` of the ternary weight
    block, scaled by entry `q` of the scale row. -/
theorem k1_pay1_apply (v0 : Vec Ideal S256x8192 .bf16) (v20 : Vec Ideal S512x8192 .bf16) (v23 : Vec Ideal S1x512 .f32)
    (p : Fin 256) (q : Fin 512) :
    k1_pay1 (F := Ideal) v0 v20 v23 (ix2 p q)
      = (∑ k : Fin 8192, actq (fun k => v0 (ix2 p k)) k * v20 (ix2 q k)) * v23 (ix2 (0 : Fin 1) q) := by
  have e : k1_pay1 (F := Ideal) v0 v20 v23
      = mulf (matmul dot_S256x8192_S512x8192_S256x512_1_1_0_0_n_n none
          (truncf .bf16 (quantBlock (extf .f32 (shapeCast S256x8192 v0 shapeCasts_S256x8192_S256x8192) bitsLt_bf16_f32)
            reduces_S256x8192_S256 shapeCasts_S256_S256x1 broadcasts_S256x1_S256x8192) bitsLt_bf16_f32)
          (shapeCast S512x8192 v20 shapeCasts_S512x8192_S512x8192) (constant S256x512 .f32 0x00000000#32))
        (broadcastTo S256x512 (shapeCast S1x512 v23 shapeCasts_S1x512_S1x512) broadcasts_S1x512_S256x512) := rfl
  rw [e, mulf_apply]
  refine congrArg₂ (· * ·) ?_ ?_
  · refine (Cert.LibMatmulRhsT.matmul_rhsT_apply _ rfl rfl rfl rfl rfl rfl _ _ p q).trans ?_
    refine Finset.sum_congr rfl fun k _ => ?_
    refine congrArg₂ (· * ·) ?_ ?_
    · refine (truncf_bf16_apply _ _ _).trans ((quantBlock_apply _ _ _ _ p k).trans ?_)
      refine congrArg (fun r : Fin 8192 → EReal => actq r k) (funext fun k' => ?_)
      refine (extf_f32_apply _ _ _).trans ?_
      rw [shapeCast_self]
    · rw [shapeCast_self]
  · refine (broadcastTo_1b_ab_apply _ broadcasts_S1x512_S256x512 p q).trans ?_
    rw [shapeCast_self]

/-- The FIRST body's result at `(p, q)`: GELU of the quantized row `p` of the activation block against row `q` of the
    ternary weight block, scaled by entry `q` of the scale row. -/
theorem k0_pay1_apply (v0 : Vec Ideal S256x2048 .f32) (v19 : Vec Ideal S2048x2048 .bf16) (v22 : Vec Ideal S1x2048 .f32)
    (p : Fin 256) (q : Fin 2048) :
    k0_pay1 (F := Ideal) v0 v19 v22 (ix2 p q)
      = gelu ((∑ k : Fin 2048, actq (fun k => v0 (ix2 p k)) k * v19 (ix2 q k)) * v22 (ix2 (0 : Fin 1) q)) := by
  have e : k0_pay1 (F := Ideal) v0 v19 v22
      = truncf .bf16 (geluBlock (mulf (matmul dot_S256x2048_S2048x2048_S256x2048_1_1_0_0_n_n none
          (truncf .bf16 (quantBlock (shapeCast S256x2048 v0 shapeCasts_S256x2048_S256x2048)
            reduces_S256x2048_S256 shapeCasts_S256_S256x1 broadcasts_S256x1_S256x2048) bitsLt_bf16_f32)
          (shapeCast S2048x2048 v19 shapeCasts_S2048x2048_S2048x2048) (constant S256x2048 .f32 0x00000000#32))
        (broadcastTo S256x2048 (shapeCast S1x2048 v22 shapeCasts_S1x2048_S1x2048) broadcasts_S1x2048_S256x2048))) bitsLt_bf16_f32 := rfl
  rw [e]
  show geluBlock _ (ix2 p q) = _
  rw [geluBlock_apply, mulf_apply]
  refine congrArg gelu (congrArg₂ (· * ·) ?_ ?_)
  · refine (Cert.LibMatmulRhsT.matmul_rhsT_apply _ rfl rfl rfl rfl rfl rfl _ _ p q).trans ?_
    refine Finset.sum_congr rfl fun k _ => ?_
    refine congrArg₂ (· * ·) ?_ ?_
    · refine (truncf_bf16_apply _ _ _).trans ((quantBlock_apply _ _ _ _ p k).trans ?_)
      rw [shapeCast_self]
    · rw [shapeCast_self]
  · refine (broadcastTo_1b_ab_apply _ broadcasts_S1x2048_S256x2048 p q).trans ?_
    rw [shapeCast_self]

end Cert.KernelIdeal.KBody

end
-- ==== Proof.KBlocks0.lean ====
/-
  The first region's output array (the hidden activations) after the region, as ONE function of the three arrays the
  region reads.

  The grid is 4 × 32: point (j, i) takes rows `256·i … 256·i + 255` of the activation rows (all 2048 features), rows
  `2048·j … 2048·j + 2047` of the ternary weights, columns `2048·j …` of the scale row, and writes the 256 × 2048 block at
  (i, j) of the hidden array.  Entry (r, h) therefore depends on row `r` of the activations, row `h` of the weights and
  entry `h` of the scale row only: `gelu((Σₖ q(X r)ₖ · W h k) · S h)`.  The blocks tile the array, so the array ends at
  that function everywhere.
-/
import proofs.«169359_j2439541424639_1_alg».proof.Proof.Gen.KernelIdeal.Frame
import proofs.«169359_j2439541424639_1_alg».proof.Proof.KBody
import Idealize.ShloMosaic.Lib.Pipeline.Value

set_option maxRecDepth 16384

noncomputable section

namespace Cert.KernelIdeal.KBlocks0

open Cert.KernelIdeal Cert.KernelIdeal.Gen Cert.KernelIdeal.KBody
open Idealize.ShloMosaic Idealize.ShloMosaic.TcCoe Idealize.ShloMosaic.ValueIdx Idealize.SL.Sem BitMlp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry (r, n) of the region's output from the arrays it reads. -/
def g0 (X : S8192x2048.Idx → EReal) (W : S8192x2048.Idx → EReal) (S : S1x8192.Idx → EReal) (r : Fin 8192) (h : Fin 8192) : EReal :=
  gelu ((∑ k : Fin 2048, actq (fun k => X (ix2 r k)) k * W (ix2 h k)) * S (ix2 (0 : Fin 1) h))

/-- The output array as one function of the arrays the region reads. -/
def G0 (X : S8192x2048.Idx → EReal) (W : S8192x2048.Idx → EReal) (S : S1x8192.Idx → EReal) : S8192x8192.Idx → EReal :=
  fun i => g0 X W S ⟨(i 0).val, (i 0).isLt⟩ ⟨(i 1).val, (i 1).isLt⟩

/-- The printed index maps over the grid: the activation block moves with the output's row block, the weight block and the
    scale block with its column block; the other block coordinates are zero. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 31 ∧ win0_3.index t (1 : Fin 2) ≤ 3 :=
  (by decide +kernel : ∀ t : Fin grid0.N, _)

/-- Every block of the output is some point's. -/
theorem idx_onto : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-- WHAT POINT `t` WRITES BACK is block `t` of `G0` of the arrays as the region finds them. -/
theorem flushed_eq (c : Dev nD) (t : Fin cfg0.N) :
    (dat0 V c).flushed 3 t = ((cfg0.win 3).blk t).view.read (Elt Ideal)
      (G0 (V c main_call0_v0) (V c main_call0_v11) (V c main_call0_v12)) := by
  show (cfg0.win 3).cut (grid0.coords t) ((dat0 V c).after 3 t) = _
  rw [after0_3]
  unfold out0_3
  rw [View.canon_unit_zero hz]
  simp only [View.ld_unit_zero (S := S256x2048) hz, View.ld_unit_zero (S := S2048x2048) hz, View.ld_unit_zero (S := S1x2048) hz]
  obtain ⟨e0, e1, e2, e3, e4, e5, b0, b1⟩ := idx_facts t
  funext j
  obtain ⟨p, q, rfl⟩ : ∃ (p : Fin 256) (q : Fin 2048), j = ix2 p q := ⟨j 0, j 1, eq_ix2 j⟩
  have hr : win0_3.index t (0 : Fin 2) * 256 + 1 * p.val < 8192 := by have := p.isLt; omega
  have hn : win0_3.index t (1 : Fin 2) * 2048 + 1 * q.val < 8192 := by have := q.isLt; omega
  have hH : ∀ k : Fin 2048, iblk0 V c 0 t (ix2 p k) = V c main_call0_v0 (ix2 (⟨_, hr⟩ : Fin 8192) k) := fun k =>
    congrArg (V c main_call0_v0) (funext fun a => Fin.ext (by
      match a with
      | ⟨0, _⟩ => show win0_0.index t (0 : Fin 2) * 256 + 1 * p.val = win0_3.index t (0 : Fin 2) * 256 + 1 * p.val; omega
      | ⟨1, _⟩ => show win0_0.index t (1 : Fin 2) * 2048 + 1 * k.val = k.val; omega))
  have hW : ∀ k : Fin 2048, iblk0 V c 1 t (ix2 q k) = V c main_call0_v11 (ix2 (⟨_, hn⟩ : Fin 8192) k) := fun k =>
    congrArg (V c main_call0_v11) (funext fun a => Fin.ext (by
      match a with
      | ⟨0, _⟩ => show win0_1.index t (0 : Fin 2) * 2048 + 1 * q.val = win0_3.index t (1 : Fin 2) * 2048 + 1 * q.val; omega
      | ⟨1, _⟩ => show win0_1.index t (1 : Fin 2) * 2048 + 1 * k.val = k.val; omega))
  have hS : iblk0 V c 2 t (ix2 (0 : Fin 1) q) = V c main_call0_v12 (ix2 (0 : Fin 1) (⟨_, hn⟩ : Fin 8192)) :=
    congrArg (V c main_call0_v12) (funext fun a => Fin.ext (by
      match a with
      | ⟨0, _⟩ => show win0_2.index t (0 : Fin 2) * 1 + 1 * 0 = 0; omega
      | ⟨1, _⟩ => show win0_2.index t (1 : Fin 2) * 2048 + 1 * q.val = win0_3.index t (1 : Fin 2) * 2048 + 1 * q.val; omega))
  refine (k0_pay1_apply (iblk0 V c 0 t) (iblk0 V c 1 t) (iblk0 V c 2 t) p q).trans ?_
  show _ = g0 (V c main_call0_v0) (V c main_call0_v11) (V c main_call0_v12) (⟨_, hr⟩ : Fin 8192) (⟨_, hn⟩ : Fin 8192)
  unfold g0
  refine congrArg gelu (congrArg₂ (· * ·) (Finset.sum_congr rfl fun k _ => congrArg₂ (· * ·) ?_ (hW k)) hS)
  exact congrArg (fun r : Fin 2048 → EReal => actq r k) (funext hH)

/-- An index of the array is in point `t`'s block iff each coordinate is in the block's range on its axis. -/
theorem mem_blk (t : Fin cfg0.N) (i : S8192x8192.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_call0_v25).slice (win0_3.rect t)).set ↔ _
  rw [View.set_slice_whole, Rect.mem_set_unit]
  exact Iff.rfl

/-- The blocks tile the array: the point covering entry (r, h) is the one whose block is (r / 256, h / 2048). -/
theorem cover (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 0).val / 256, by omega⟩ ⟨(i 1).val / 2048, by omega⟩
  have q0 : win0_3.index t (0 : Fin 2) = (i 0).val / 256 := congrFun ht 0
  have q1 : win0_3.index t (1 : Fin 2) = (i 1).val / 2048 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

/-- THE ARRAY after the region. -/
theorem final (c : Dev nD) :
    (dat0 V c).arrAt 3 cfg0.N = G0 (V c main_call0_v0) (V c main_call0_v11) (V c main_call0_v12) :=
  (dat0 V c).arrAt_eq_of_cover 3 _ (fun t _ => flushed_eq V c t) cover

end Cert.KernelIdeal.KBlocks0

end
-- ==== Proof.KBlocks1.lean ====
/-
  The second region's output array after the region, as ONE function of the three arrays the region reads.

  The grid is 4 × 32: point (j, i) takes rows `256·i … 256·i + 255` of the hidden array (all 8192 columns), rows
  `512·j … 512·j + 511` of the ternary weights, columns `512·j …` of the scale row, and writes the 256 × 512 block at
  (i, j) of the output.  Entry (r, n) of the output therefore depends on row `r` of the hidden array, row `n` of the weights
  and entry `n` of the scale row only: `(Σₖ q(H r)ₖ · W n k) · S n`.  The blocks tile the array, so the array ends at that
  function everywhere.
-/
import proofs.«169359_j2439541424639_1_alg».proof.Proof.Gen.KernelIdeal.Frame
import proofs.«169359_j2439541424639_1_alg».proof.Proof.KBody
import Idealize.ShloMosaic.Lib.Pipeline.Value

set_option maxRecDepth 16384

noncomputable section

namespace Cert.KernelIdeal.KBlocks1

open Cert.KernelIdeal Cert.KernelIdeal.Gen Cert.KernelIdeal.KBody
open Idealize.ShloMosaic Idealize.ShloMosaic.TcCoe Idealize.ShloMosaic.ValueIdx Idealize.SL.Sem BitMlp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry (r, n) of the region's output from the arrays it reads. -/
def g1 (H : S8192x8192.Idx → EReal) (W : S2048x8192.Idx → EReal) (S : S1x2048.Idx → EReal) (r : Fin 8192) (n : Fin 2048) : EReal :=
  (∑ k : Fin 8192, actq (fun k => H (ix2 r k)) k * W (ix2 n k)) * S (ix2 (0 : Fin 1) n)

/-- The output array as one function of the arrays the region reads. -/
def G1 (H : S8192x8192.Idx → EReal) (W : S2048x8192.Idx → EReal) (S : S1x2048.Idx → EReal) : S8192x2048.Idx → EReal :=
  fun i => g1 H W S ⟨(i 0).val, (i 0).isLt⟩ ⟨(i 1).val, (i 1).isLt⟩

/-- The printed index maps over the grid: the hidden block moves with the output's row block, the weight block and the
    scale block with its column block; the other block coordinates are zero. -/
theorem idx_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 31 ∧ win1_3.index t (1 : Fin 2) ≤ 3 :=
  (by decide +kernel : ∀ t : Fin grid1.N, _)

/-- Every block of the output is some point's. -/
theorem idx_onto : ∀ (q0 : Fin 32) (q1 : Fin 4), ∃ t : Fin cfg1.N, win1_3.index t = ![q0.val, q1.val] :=
  (by decide +kernel : ∀ (q0 : Fin 32) (q1 : Fin 4), ∃ t : Fin grid1.N, win1_3.index t = ![q0.val, q1.val])

/-- WHAT POINT `t` WRITES BACK is block `t` of `G1` of the arrays as the region finds them. -/
theorem flushed_eq (c : Dev nD) (t : Fin cfg1.N) :
    (dat1 V c).flushed 3 t = ((cfg1.win 3).blk t).view.read (Elt Ideal)
      (G1 (V c main_call0_v25) (V c main_call0_v23) (V c main_call0_v24)) := by
  show (cfg1.win 3).cut (grid1.coords t) ((dat1 V c).after 3 t) = _
  rw [after1_3]
  unfold out1_3
  rw [View.canon_unit_zero hz]
  simp only [View.ld_unit_zero (S := S256x8192) hz, View.ld_unit_zero (S := S512x8192) hz, View.ld_unit_zero (S := S1x512) hz]
  obtain ⟨e0, e1, e2, e3, e4, e5, b0, b1⟩ := idx_facts t
  funext j
  obtain ⟨p, q, rfl⟩ : ∃ (p : Fin 256) (q : Fin 512), j = ix2 p q := ⟨j 0, j 1, eq_ix2 j⟩
  have hr : win1_3.index t (0 : Fin 2) * 256 + 1 * p.val < 8192 := by have := p.isLt; omega
  have hn : win1_3.index t (1 : Fin 2) * 512 + 1 * q.val < 2048 := by have := q.isLt; omega
  have hH : ∀ k : Fin 8192, iblk1 V c 0 t (ix2 p k) = V c main_call0_v25 (ix2 (⟨_, hr⟩ : Fin 8192) k) := fun k =>
    congrArg (V c main_call0_v25) (funext fun a => Fin.ext (by
      match a with
      | ⟨0, _⟩ => show win1_0.index t (0 : Fin 2) * 256 + 1 * p.val = win1_3.index t (0 : Fin 2) * 256 + 1 * p.val; omega
      | ⟨1, _⟩ => show win1_0.index t (1 : Fin 2) * 8192 + 1 * k.val = k.val; omega))
  have hW : ∀ k : Fin 8192, iblk1 V c 1 t (ix2 q k) = V c main_call0_v23 (ix2 (⟨_, hn⟩ : Fin 2048) k) := fun k =>
    congrArg (V c main_call0_v23) (funext fun a => Fin.ext (by
      match a with
      | ⟨0, _⟩ => show win1_1.index t (0 : Fin 2) * 512 + 1 * q.val = win1_3.index t (1 : Fin 2) * 512 + 1 * q.val; omega
      | ⟨1, _⟩ => show win1_1.index t (1 : Fin 2) * 8192 + 1 * k.val = k.val; omega))
  have hS : iblk1 V c 2 t (ix2 (0 : Fin 1) q) = V c main_call0_v24 (ix2 (0 : Fin 1) (⟨_, hn⟩ : Fin 2048)) :=
    congrArg (V c main_call0_v24) (funext fun a => Fin.ext (by
      match a with
      | ⟨0, _⟩ => show win1_2.index t (0 : Fin 2) * 1 + 1 * 0 = 0; omega
      | ⟨1, _⟩ => show win1_2.index t (1 : Fin 2) * 512 + 1 * q.val = win1_3.index t (1 : Fin 2) * 512 + 1 * q.val; omega))
  refine (k1_pay1_apply (iblk1 V c 0 t) (iblk1 V c 1 t) (iblk1 V c 2 t) p q).trans ?_
  show _ = g1 (V c main_call0_v25) (V c main_call0_v23) (V c main_call0_v24) (⟨_, hr⟩ : Fin 8192) (⟨_, hn⟩ : Fin 2048)
  unfold g1
  refine congrArg₂ (· * ·) (Finset.sum_congr rfl fun k _ => congrArg₂ (· * ·) ?_ (hW k)) hS
  exact congrArg (fun r : Fin 8192 → EReal => actq r k) (funext hH)

/-- An index of the array is in point `t`'s block iff each coordinate is in the block's range on its axis. -/
theorem mem_blk (t : Fin cfg1.N) (i : S8192x2048.Idx) :
    i ∈ ((cfg1.win 3).blk t).view.set ↔ ∀ a : Fin 2, win1_3.index t a * S256x512.size a ≤ (i a).val ∧ (i a).val < win1_3.index t a * S256x512.size a + S256x512.size a := by
  show i ∈ ((View.whole main_call0_v26).slice (win1_3.rect t)).set ↔ _
  rw [View.set_slice_whole, Rect.mem_set_unit]
  exact Iff.rfl

/-- The blocks tile the array: the point covering entry (r, n) is the one whose block is (r / 256, n / 512). -/
theorem cover (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  obtain ⟨t, ht⟩ := idx_onto ⟨(i 0).val / 256, by omega⟩ ⟨(i 1).val / 512, by omega⟩
  have q0 : win1_3.index t (0 : Fin 2) = (i 0).val / 256 := congrFun ht 0
  have q1 : win1_3.index t (1 : Fin 2) = (i 1).val / 512 := congrFun ht 1
  refine ⟨t, flush1_3 t, ?_⟩
  rw [mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 512 ≤ (i 1).val ∧ (i 1).val < win1_3.index t (1 : Fin 2) * 512 + 512; omega

/-- THE ARRAY after the region. -/
theorem final (c : Dev nD) :
    (dat1 V c).arrAt 3 cfg1.N = G1 (V c main_call0_v25) (V c main_call0_v23) (V c main_call0_v24) :=
  (dat1 V c).arrAt_eq_of_cover 3 _ (fun t _ => flushed_eq V c t) cover

end Cert.KernelIdeal.KBlocks1

end
-- ==== Proof.LibMergeRows.lean ====
/-
  Two leading axes merged into one, and split again, read at an index; and one slab repeated along a new leading
  extent.

  A rank-3 array `[a, b, c]` reshaped to the matrix `[m, c]` (`m = a · b`) keeps the row-major order, so row
  `p · b + q` of the matrix is the array's row `(p, q)`; the reshape back reads the matrix the same way. A `[1, b, c]`
  slab broadcast to `[a, b, c]` has, at `(p, k, q)`, the slab's entry `(k, q)`. The three lemmas take the index by
  coordinates (`ix2`, `ix3`), so that they apply to a printed operation by unification.
-/
import Idealize.ShloMosaic.Lib.ValueIdx
import Idealize.ShloMosaic.Lib.Pipeline.Value

namespace Cert.LibMergeRows

open Idealize.ShloMosaic Idealize.ShloMosaic.ValueIdx

variable {α : Type}

/-- An `[a, b, c]` array cast to `[m, c]` reads, at `(r, e)` with `r = p · b + q`, the operand at `(p, q, e)`. -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (e : Fin c) (r : Fin m)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- An `[m, c]` matrix cast to `[a, b, c]` reads, at `(p, q, e)`, the operand's row `r = p · b + q` at `e`. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_three, Shape.rowMajor_val_two]
    show r.val * c + e.val = (p.val * b + q.val) * c + e.val
    rw [hr])

/-- A `[1, b, c]` slab broadcast to `[a, b, c]` reads, at `(p, k, q)`, the slab at `(0, k, q)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (k : Fin b) (q : Fin c) :
    broadcastTo ⟨3, ![a, b, c]⟩ v h (ix3 p k q) = v (ix3 (0 : Fin 1) k q) := by
  refine broadcastTo_apply v h (ix3 p k q) (ix3 (0 : Fin 1) k q) fun ax => ?_
  match ax with
  | ⟨0, _⟩ => rfl
  | ⟨1, _⟩ =>
    show k.val = if b = 1 then 0 else k.val
    split
    · have := k.isLt; omega
    · rfl
  | ⟨2, _⟩ =>
    show q.val = if c = 1 then 0 else q.val
    split
    · have := q.isLt; omega
    · rfl

end Cert.LibMergeRows
-- ==== Proof.Index.lean ====
/-
  How the arrays are read as rows and features.  The activations come as a [4, 2048, 2048] array (batch, position,
  feature); row `b·2048 + s` of the network's input is the feature vector at batch `b`, position `s`.  A weight matrix
  [a, b] is read by its two coordinates.
-/
import Idealize.ShloMosaic.Lib.ValueIdx

noncomputable section

namespace BitMlp

open Idealize.ShloMosaic Idealize.ShloMosaic.ValueIdx

/-- The flattened row of batch `b`, position `s`. -/
def flatRow (b : Fin 4) (s : Fin 2048) : Fin 8192 := ⟨b.val * 2048 + s.val, by omega⟩

/-- A [4, 2048, c] array read by flattened rows. -/
def rowsOf {c : ℕ} (x : (⟨3, ![4, 2048, c]⟩ : Shape).Idx → EReal) (r : Fin 8192) (d : Fin c) : EReal :=
  x (ix3 (⟨r.val / 2048, by omega⟩ : Fin 4) (⟨r.val % 2048, Nat.mod_lt _ (by norm_num)⟩ : Fin 2048) d)

/-- A matrix read by its coordinates. -/
def matOf {a b : ℕ} (w : (⟨2, ![a, b]⟩ : Shape).Idx → EReal) (p : Fin a) (q : Fin b) : EReal := w (ix2 p q)

theorem rowsOf_flatRow {c : ℕ} (x : (⟨3, ![4, 2048, c]⟩ : Shape).Idx → EReal) (b : Fin 4) (s : Fin 2048) :
    rowsOf x (flatRow b s) = fun d => x (ix3 b s d) := by
  funext d
  unfold rowsOf flatRow
  congr 1
  have hb : (b.val * 2048 + s.val) / 2048 = b.val := by omega
  have hs : (b.val * 2048 + s.val) % 2048 = s.val := by omega
  funext a
  match a with
  | ⟨0, _⟩ => exact Fin.ext hb
  | ⟨1, _⟩ => exact Fin.ext hs
  | ⟨2, _⟩ => rfl

end BitMlp

end
-- ==== Proof.KChain.lean ====
/-
  The idealized kernel's result array, read back through @main's boundaries.

  The last host operation reshapes the second region's output [8192, 2048] to [4, 2048, 2048]: entry (b, s, n) is row
  `b·2048 + s`, column `n`.  The second region's output is its function `G1` of the arrays it finds: the hidden array — which
  is what the first region left, its function `G0` of the arrays IT found — and the second layer's ternary weights and scale
  row, which the first region does not touch.
-/
import proofs.«169359_j2439541424639_1_alg».proof.Proof.KRun
import proofs.«169359_j2439541424639_1_alg».proof.Proof.KBlocks0
import proofs.«169359_j2439541424639_1_alg».proof.Proof.KBlocks1
import proofs.«169359_j2439541424639_1_alg».proof.Proof.LibMergeRows
import proofs.«169359_j2439541424639_1_alg».proof.Proof.Index
import Idealize.ShloMosaic.Lib.StableHlo.Run

set_option maxRecDepth 16384

noncomputable section

namespace Cert.KernelIdeal.KChain

open Cert.KernelIdeal Cert.KernelIdeal.Gen
open Idealize.ShloMosaic Idealize.ShloMosaic.TcCoe Idealize.ShloMosaic.ValueIdx Idealize.ShloMosaic.StableHlo Idealize.SL.Sem BitMlp

variable (m : (ℓ : Loc nD τ sig) → Buf (Elt Ideal) ℓ) (ρ : Dev nD → PrngReg)

/-- The result array is the reshape of the second region's output. -/
theorem result_eq (c : Dev nD) :
    (W4 m ρ c (Proc.devRef .tc main_v0) : S4x2048x2048.Idx → EReal)
      = shapeCast S4x2048x2048 (W3 m ρ c (Proc.devRef .tc main_call0_v26) : S8192x2048.Idx → EReal) shapeCasts_S8192x2048_S4x2048x2048 := by
  dsimp only [W4, hostOps2]
  after_results
  rfl

/-- The second region's output array, from the arrays it finds. -/
theorem out_eq (c : Dev nD) :
    (W3 m ρ c (Proc.devRef .tc main_call0_v26) : S8192x2048.Idx → EReal)
      = KBlocks1.G1 (V2 m ρ c main_call0_v25) (V2 m ρ c main_call0_v23) (V2 m ρ c main_call0_v24) :=
  (W3_arr m ρ c 3).trans (KBlocks1.final (V2 m ρ) c)

/-- The hidden array the second region finds is what the first region left. -/
theorem hidden_eq (c : Dev nD) :
    (V2 m ρ c main_call0_v25 : S8192x8192.Idx → EReal)
      = KBlocks0.G0 (V1 m ρ c main_call0_v0) (V1 m ρ c main_call0_v11) (V1 m ρ c main_call0_v12) :=
  (W2_arr m ρ c 3).trans (KBlocks0.final (V1 m ρ) c)

/-- The second layer's ternary weights and scale row pass the first region untouched. -/
theorem w2_eq (c : Dev nD) : V2 m ρ c main_call0_v23 = V1 m ρ c main_call0_v23 := W2_of_ne m ρ c main_call0_v23 (by decide)
theorem s2_eq (c : Dev nD) : V2 m ρ c main_call0_v24 = V1 m ρ c main_call0_v24 := W2_of_ne m ρ c main_call0_v24 (by decide)

/-- The result at (b, s, n), through both regions, over the arrays the FIRST region finds. -/
theorem result_apply (c : Dev nD) (b : Fin 4) (s : Fin 2048) (n : Fin 2048) :
    (W4 m ρ c (Proc.devRef .tc main_v0) : S4x2048x2048.Idx → EReal) (ix3 b s n)
      = KBlocks1.g1 (KBlocks0.G0 (V1 m ρ c main_call0_v0) (V1 m ρ c main_call0_v11) (V1 m ρ c main_call0_v12))
          (V1 m ρ c main_call0_v23) (V1 m ρ c main_call0_v24) (flatRow b s) n := by
  rw [result_eq]
  refine (Cert.LibMergeRows.shapeCast_mc_abc_apply _ _ b s n (flatRow b s) rfl).trans ?_
  rw [out_eq, hidden_eq, w2_eq, s2_eq]
  rfl

end Cert.KernelIdeal.KChain

end
-- ==== Proof.KHost.lean ====
/-
  What the host operations before the first kernel region leave in the buffers the regions read: the activations
  flattened to rows, and for each weight matrix its ternary form and its row of scales, as the specification's
  functions of the argument arrays, index by index.
-/
import proofs.«169359_j2439541424639_1_alg».proof.Proof.Gen.KernelIdeal.Frame
import proofs.«169359_j2439541424639_1_alg».proof.Proof.Spec
import proofs.«169359_j2439541424639_1_alg».proof.Proof.Index
import proofs.«169359_j2439541424639_1_alg».proof.Proof.LibRowOps
import proofs.«169359_j2439541424639_1_alg».proof.Proof.LibMergeRows
import Idealize.ShloMosaic.Lib.ValueLayout
import Idealize.ShloMosaic.Lib.StableHlo.Run

set_option maxRecDepth 16384

noncomputable section

namespace Cert.KernelIdeal.KHost

open Cert.KernelIdeal Cert.KernelIdeal.Gen Cert.KernelIdeal.Facts
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## The two blocks of operations, for any matrix size -/

/-- The column of scales of an `a × b` matrix: `max(ε, (0 + Σₖ |w p k|) / n)` at row `p`, as the operations compute it. -/
def scaleCol {a b : ℕ} (n : BitVec 32) (w : FVec Ideal ⟨2, ![a, b]⟩ .f32)
    (hred : (⟨2, ![a, b]⟩ : Shape).ReducesTo [1] ⟨1, ![a]⟩) (hS : 0 < (⟨0, ![]⟩ : Shape).numel)
    (hcol : (⟨1, ![a]⟩ : Shape).BroadcastsInDim ⟨2, ![a, 1]⟩ (![0] : Fin 1 → Fin 2))
    (hsc : (⟨0, ![]⟩ : Shape).BroadcastsInDim ⟨2, ![a, 1]⟩ (![] : Fin 0 → Fin 2)) : FVec Ideal ⟨2, ![a, 1]⟩ .f32 :=
  maximumf (broadcastInDim ⟨2, ![a, 1]⟩ ![] hsc (id (constant (F := Ideal) ⟨0, ![]⟩ .f32 0x3727C5AC#32)))
    (Host.divf
      (broadcastInDim ⟨2, ![a, 1]⟩ ![0] hcol
        (Host.reduceAdd (Host.absf w) (constant (F := Ideal) ⟨0, ![]⟩ .f32 0x00000000#32) hred hS))
      (broadcastInDim ⟨2, ![a, 1]⟩ ![] hsc (constant (F := Ideal) ⟨0, ![]⟩ .f32 n)))

/-- The ternary form of an `a × b` matrix against a column of scales: `min(1, max(-1, round(w p q / col p)))`. -/
def ternBlock {a b : ℕ} (w : FVec Ideal ⟨2, ![a, b]⟩ .f32) (col : FVec Ideal ⟨2, ![a, 1]⟩ .f32)
    (hbc : (⟨2, ![a, 1]⟩ : Shape).BroadcastsInDim ⟨2, ![a, b]⟩ (![0, 1] : Fin 2 → Fin 2))
    (hsc : (⟨0, ![]⟩ : Shape).BroadcastsInDim ⟨2, ![a, b]⟩ (![] : Fin 0 → Fin 2))
    (hlt : FTy.bits .bf16 < FTy.bits .f32) : FVec Ideal ⟨2, ![a, b]⟩ .bf16 :=
  truncf .bf16
    (minimumf (broadcastInDim ⟨2, ![a, b]⟩ ![] hsc (id (constant (F := Ideal) ⟨0, ![]⟩ .f32 0x3F800000#32)))
      (maximumf (broadcastInDim ⟨2, ![a, b]⟩ ![] hsc (id (constant (F := Ideal) ⟨0, ![]⟩ .f32 0xBF800000#32)))
        (Host.roundeven (Host.divf w (broadcastInDim ⟨2, ![a, b]⟩ ![0, 1] hbc col))))) hlt

/-- The column of scales at row `p` is the specification's scale of that row. -/
theorem scaleCol_apply {a b : ℕ} (n : BitVec 32) (w : FVec Ideal ⟨2, ![a, b]⟩ .f32)
    (hred : (⟨2, ![a, b]⟩ : Shape).ReducesTo [1] ⟨1, ![a]⟩) (hS : 0 < (⟨0, ![]⟩ : Shape).numel)
    (hcol : (⟨1, ![a]⟩ : Shape).BroadcastsInDim ⟨2, ![a, 1]⟩ (![0] : Fin 1 → Fin 2))
    (hsc : (⟨0, ![]⟩ : Shape).BroadcastsInDim ⟨2, ![a, 1]⟩ (![] : Fin 0 → Fin 2)) (p : Fin a) :
    scaleCol n w hred hS hcol hsc (ix2 p (0 : Fin 1)) = BitMlp.wstep n (fun k => w (ix2 p k)) := by
  have hred' : (⟨2, ![a, b]⟩ : Shape).Reduces [1] ⟨1, ![a]⟩ := ⟨hred.1, Nat.one_pos, hred.2⟩
  have e1 : broadcastInDim ⟨2, ![a, 1]⟩ ![] hsc (id (constant (F := Ideal) ⟨0, ![]⟩ .f32 0x3727C5AC#32)) (ix2 p (0 : Fin 1))
      = BitMlp.lit 0x3727C5AC#32 := Cert.LibRowOps.broadcastInDim_scalar_apply hsc _ _
  have e3 : broadcastInDim ⟨2, ![a, 1]⟩ ![] hsc (constant (F := Ideal) ⟨0, ![]⟩ .f32 n) (ix2 p (0 : Fin 1))
      = BitMlp.lit n := Cert.LibRowOps.broadcastInDim_scalar_apply hsc _ _
  have e2 : broadcastInDim ⟨2, ![a, 1]⟩ ![0] hcol
        (Host.reduceAdd (Host.absf w) (constant (F := Ideal) ⟨0, ![]⟩ .f32 0x00000000#32) hred hS) (ix2 p (0 : Fin 1))
      = BitMlp.lit 0x00000000#32 + ∑ k, BitMlp.absE (w (ix2 p k)) :=
    (Cert.LibRowOps.broadcastInDim_a_a1_apply hcol _ p (0 : Fin 1)).trans
      (Cert.LibRowOps.hostReduceAdd_row_apply hred hred' (Host.absf w) (BitMlp.lit 0x00000000#32) p)
  exact congrArg₂ max e1 (congrArg₂ Ideal.div e2 e3)

/-- The ternary block at `(p, q)` is the specification's ternary weight against the column's entry `p`. -/
theorem ternBlock_apply {a b : ℕ} (w : FVec Ideal ⟨2, ![a, b]⟩ .f32) (col : FVec Ideal ⟨2, ![a, 1]⟩ .f32)
    (hbc : (⟨2, ![a, 1]⟩ : Shape).BroadcastsInDim ⟨2, ![a, b]⟩ (![0, 1] : Fin 2 → Fin 2))
    (hsc : (⟨0, ![]⟩ : Shape).BroadcastsInDim ⟨2, ![a, b]⟩ (![] : Fin 0 → Fin 2))
    (hlt : FTy.bits .bf16 < FTy.bits .f32) (p : Fin a) (q : Fin b) :
    ternBlock w col hbc hsc hlt (ix2 p q) = BitMlp.tern (col (ix2 p (0 : Fin 1))) (w (ix2 p q)) := by
  have e1 : broadcastInDim ⟨2, ![a, b]⟩ ![] hsc (id (constant (F := Ideal) ⟨0, ![]⟩ .f32 0x3F800000#32)) (ix2 p q)
      = BitMlp.lit 0x3F800000#32 := Cert.LibRowOps.broadcastInDim_scalar_apply hsc _ _
  have e2 : broadcastInDim ⟨2, ![a, b]⟩ ![] hsc (id (constant (F := Ideal) ⟨0, ![]⟩ .f32 0xBF800000#32)) (ix2 p q)
      = BitMlp.lit 0xBF800000#32 := Cert.LibRowOps.broadcastInDim_scalar_apply hsc _ _
  have e3 : broadcastInDim ⟨2, ![a, b]⟩ ![0, 1] hbc col (ix2 p q) = col (ix2 p (0 : Fin 1)) :=
    Cert.LibRowOps.broadcastInDim_a1_ab_apply hbc col p q
  exact congrArg₂ min e1 (congrArg₂ max e2
    (congrArg (Ideal.liftRound Ideal.roundHalfEven) (congrArg (Ideal.div (w (ix2 p q))) e3)))

/-! ## The buffers after the host operations, as terms of the argument arrays -/

section Terms
variable (c : Dev nD)

/-- The three argument arrays of core `c`. -/
abbrev X : S4x2048x2048.Idx → EReal := m ((c : Thread nD τ).loc main_arg0)
abbrev Wa : S8192x2048.Idx → EReal := m ((c : Thread nD τ).loc main_arg1)
abbrev Wb : S2048x8192.Idx → EReal := m ((c : Thread nD τ).loc main_arg2)

theorem v0_eq : (V1 m ρ c main_call0_v0 : S8192x2048.Idx → EReal)
    = shapeCast S8192x2048 (X m c) shapeCasts_S4x2048x2048_S8192x2048 := by
  dsimp only [Gen.V1, Gen.W1, Gen.hostOps0]; after_results_simp; rfl

theorem v6_eq : (V1 m ρ c main_call0_v6 : S8192x1.Idx → EReal)
    = scaleCol 0x45000000#32 (Wa m c) reducesTo_S8192x2048_S8192_d1 h_S_ bcast_S8192_S8192x1_0 bcast_S_S8192x1 := by
  dsimp only [Gen.V1, Gen.W1, Gen.hostOps0]; after_results_simp; rfl

theorem v11_eq : (V1 m ρ c main_call0_v11 : S8192x2048.Idx → EReal)
    = ternBlock (Wa m c)
        (scaleCol 0x45000000#32 (Wa m c) reducesTo_S8192x2048_S8192_d1 h_S_ bcast_S8192_S8192x1_0 bcast_S_S8192x1)
        bcast_S8192x1_S8192x2048_0_1 bcast_S_S8192x2048 bitsLt_bf16_f32 := by
  dsimp only [Gen.V1, Gen.W1, Gen.hostOps0]; after_results_simp; rfl

theorem v12_eq : (V1 m ρ c main_call0_v12 : S1x8192.Idx → EReal)
    = transpose S1x8192 [1, 0]
        (scaleCol 0x45000000#32 (Wa m c) reducesTo_S8192x2048_S8192_d1 h_S_ bcast_S8192_S8192x1_0 bcast_S_S8192x1)
        transposes_S8192x1_S1x8192_1_0 := by
  dsimp only [Gen.V1, Gen.W1, Gen.hostOps0]; after_results_simp; rfl

theorem v23_eq : (V1 m ρ c main_call0_v23 : S2048x8192.Idx → EReal)
    = ternBlock (Wb m c)
        (scaleCol 0x46000000#32 (Wb m c) reducesTo_S2048x8192_S2048_d1 h_S_ bcast_S2048_S2048x1_0 bcast_S_S2048x1)
        bcast_S2048x1_S2048x8192_0_1 bcast_S_S2048x8192 bitsLt_bf16_f32 := by
  dsimp only [Gen.V1, Gen.W1, Gen.hostOps0]; after_results_simp; rfl

theorem v24_eq : (V1 m ρ c main_call0_v24 : S1x2048.Idx → EReal)
    = transpose S1x2048 [1, 0]
        (scaleCol 0x46000000#32 (Wb m c) reducesTo_S2048x8192_S2048_d1 h_S_ bcast_S2048_S2048x1_0 bcast_S_S2048x1)
        transposes_S2048x1_S1x2048_1_0 := by
  dsimp only [Gen.V1, Gen.W1, Gen.hostOps0]; after_results_simp; rfl

/-! ## The five buffers the regions read, index by index -/

/-- The activations' buffer: row `r` is the feature vector at batch `r / 2048`, position `r % 2048`. -/
theorem rows_apply (r : Fin 8192) (d : Fin 2048) :
    (V1 m ρ c main_call0_v0 : S8192x2048.Idx → EReal) (ix2 r d)
      = BitMlp.rowsOf (m ((c : Thread nD τ).loc main_arg0) : S4x2048x2048.Idx → EReal) r d :=
  (congrFun (v0_eq m ρ c) (ix2 r d)).trans
    (Cert.LibMergeRows.shapeCast_abc_mc_apply (X m c) shapeCasts_S4x2048x2048_S8192x2048
      (⟨r.val / 2048, by omega⟩ : Fin 4) (⟨r.val % 2048, Nat.mod_lt _ (by norm_num)⟩ : Fin 2048) d r
      (Nat.div_add_mod' r.val 2048).symm)

/-- The first layer's ternary weights. -/
theorem w1q_apply (h : Fin 8192) (d : Fin 2048) :
    (V1 m ρ c main_call0_v11 : S8192x2048.Idx → EReal) (ix2 h d)
      = BitMlp.w1q (BitMlp.matOf (m ((c : Thread nD τ).loc main_arg1) : S8192x2048.Idx → EReal)) h d :=
  (congrFun (v11_eq m ρ c) (ix2 h d)).trans
    ((ternBlock_apply (Wa m c) _ bcast_S8192x1_S8192x2048_0_1 bcast_S_S8192x2048 bitsLt_bf16_f32 h d).trans
      (congrArg (fun σ => BitMlp.tern σ (Wa m c (ix2 h d)))
        (scaleCol_apply 0x45000000#32 (Wa m c) reducesTo_S8192x2048_S8192_d1 h_S_ bcast_S8192_S8192x1_0 bcast_S_S8192x1 h)))

/-- The first layer's scales, as a row. -/
theorem s1_apply (h : Fin 8192) :
    (V1 m ρ c main_call0_v12 : S1x8192.Idx → EReal) (ix2 (0 : Fin 1) h)
      = BitMlp.s1 (BitMlp.matOf (m ((c : Thread nD τ).loc main_arg1) : S8192x2048.Idx → EReal)) h :=
  (congrFun (v12_eq m ρ c) (ix2 (0 : Fin 1) h)).trans
    ((transpose_ix2_apply _ transposes_S8192x1_S1x8192_1_0 (0 : Fin 1) h).trans
      (scaleCol_apply 0x45000000#32 (Wa m c) reducesTo_S8192x2048_S8192_d1 h_S_ bcast_S8192_S8192x1_0 bcast_S_S8192x1 h))

/-- The second layer's ternary weights. -/
theorem w2q_apply (n : Fin 2048) (h : Fin 8192) :
    (V1 m ρ c main_call0_v23 : S2048x8192.Idx → EReal) (ix2 n h)
      = BitMlp.w2q (BitMlp.matOf (m ((c : Thread nD τ).loc main_arg2) : S2048x8192.Idx → EReal)) n h :=
  (congrFun (v23_eq m ρ c) (ix2 n h)).trans
    ((ternBlock_apply (Wb m c) _ bcast_S2048x1_S2048x8192_0_1 bcast_S_S2048x8192 bitsLt_bf16_f32 n h).trans
      (congrArg (fun σ => BitMlp.tern σ (Wb m c (ix2 n h)))
        (scaleCol_apply 0x46000000#32 (Wb m c) reducesTo_S2048x8192_S2048_d1 h_S_ bcast_S2048_S2048x1_0 bcast_S_S2048x1 n)))

/-- The second layer's scales, as a row. -/
theorem s2_apply (n : Fin 2048) :
    (V1 m ρ c main_call0_v24 : S1x2048.Idx → EReal) (ix2 (0 : Fin 1) n)
      = BitMlp.s2 (BitMlp.matOf (m ((c : Thread nD τ).loc main_arg2) : S2048x8192.Idx → EReal)) n :=
  (congrFun (v24_eq m ρ c) (ix2 (0 : Fin 1) n)).trans
    ((transpose_ix2_apply _ transposes_S2048x1_S1x2048_1_0 (0 : Fin 1) n).trans
      (scaleCol_apply 0x46000000#32 (Wb m c) reducesTo_S2048x8192_S2048_d1 h_S_ bcast_S2048_S2048x1_0 bcast_S_S2048x1 n))

end Terms

end Cert.KernelIdeal.KHost

end
-- ==== Proof.Out.lean ====
/-
  The network's output as the [4, 2048, 2048] array both programs return: entry (b, s, n) is the network at the flattened
  row of batch `b`, position `s`, and output feature `n`.
-/
import proofs.«169359_j2439541424639_1_alg».proof.Proof.Spec
import proofs.«169359_j2439541424639_1_alg».proof.Proof.Index

noncomputable section

namespace BitMlp

open Idealize.ShloMosaic Idealize.ShloMosaic.ValueIdx

/-- The output array from the three argument arrays. -/
def outArr (x : (⟨3, ![4, 2048, 2048]⟩ : Shape).Idx → EReal) (w1 : (⟨2, ![8192, 2048]⟩ : Shape).Idx → EReal)
    (w2 : (⟨2, ![2048, 8192]⟩ : Shape).Idx → EReal) : (⟨3, ![4, 2048, 2048]⟩ : Shape).Idx → EReal :=
  fun i => mlp (rowsOf x) (matOf w1) (matOf w2) (flatRow ⟨(i 0).val, (i 0).isLt⟩ ⟨(i 1).val, (i 1).isLt⟩) ⟨(i 2).val, (i 2).isLt⟩

theorem outArr_ix3 (x : (⟨3, ![4, 2048, 2048]⟩ : Shape).Idx → EReal) (w1 : (⟨2, ![8192, 2048]⟩ : Shape).Idx → EReal)
    (w2 : (⟨2, ![2048, 8192]⟩ : Shape).Idx → EReal) (b : Fin 4) (s : Fin 2048) (n : Fin 2048) :
    outArr x w1 w2 (ix3 b s n) = mlp (rowsOf x) (matOf w1) (matOf w2) (flatRow b s) n := rfl

end BitMlp

end
-- ==== Proof.KOut.lean ====
/-
  The idealized kernel's result array is the network's output array.

  Read back through @main (the reshape at the end, the second region's blocks, the first region's blocks), the result at
  (b, s, n) is the second region's function of the hidden array, the second ternary weights and the second scale row;
  the hidden array's row is the first region's function of the activation rows, the first ternary weights and the first
  scale row; and the host operations before the regions make those five arrays the rows of the activations and the two
  weight matrices made ternary with their scales.  Put together that is the network at row `b·2048 + s`, feature `n`.
-/
import proofs.«169359_j2439541424639_1_alg».proof.Proof.KChain
import proofs.«169359_j2439541424639_1_alg».proof.Proof.KHost
import proofs.«169359_j2439541424639_1_alg».proof.Proof.Out

set_option maxRecDepth 16384

noncomputable section

namespace Cert.KernelIdeal.KOut

open Cert.KernelIdeal Cert.KernelIdeal.Gen
open Idealize.ShloMosaic Idealize.ShloMosaic.TcCoe Idealize.ShloMosaic.ValueIdx Idealize.SL.Sem BitMlp

variable (m : (ℓ : Loc nD τ sig) → Buf (Elt Ideal) ℓ) (ρ : Dev nD → PrngReg)

/-- The result array after @main is the network's output of the three argument arrays. -/
theorem result_eq_out (c : Dev nD) :
    (W4 m ρ c (Proc.devRef .tc main_v0) : S4x2048x2048.Idx → EReal)
      = outArr (m ((c : Thread nD τ).loc main_arg0)) (m ((c : Thread nD τ).loc main_arg1)) (m ((c : Thread nD τ).loc main_arg2)) := by
  funext i
  obtain ⟨b, s, n, rfl⟩ : ∃ (b : Fin 4) (s : Fin 2048) (n : Fin 2048), i = ix3 b s n := ⟨i 0, i 1, i 2, eq_ix3 i⟩
  rw [outArr_ix3]
  refine (Cert.KernelIdeal.KChain.result_apply m ρ c b s n).trans ?_
  unfold Cert.KernelIdeal.KBlocks1.g1 BitMlp.mlp BitMlp.lin
  refine congrArg₂ (· * ·) (Finset.sum_congr rfl fun k _ => congrArg₂ (· * ·) ?_ (Cert.KernelIdeal.KHost.w2q_apply m ρ c n k))
    (Cert.KernelIdeal.KHost.s2_apply m ρ c n)
  refine congrArg (fun r : Fin 8192 → EReal => actq r k) (funext fun h => ?_)
  show Cert.KernelIdeal.KBlocks0.g0 _ _ _ (flatRow b s) h = _
  unfold Cert.KernelIdeal.KBlocks0.g0 BitMlp.hidden BitMlp.lin
  refine congrArg gelu (congrArg₂ (· * ·) (Finset.sum_congr rfl fun d _ => congrArg₂ (· * ·) ?_ (Cert.KernelIdeal.KHost.w1q_apply m ρ c h d))
    (Cert.KernelIdeal.KHost.s1_apply m ρ c h))
  exact congrArg (fun r : Fin 2048 → EReal => actq r d) (funext fun d' => Cert.KernelIdeal.KHost.rows_apply m ρ c (flatRow b s) d')

/-- THE KERNEL'S RUN: every weakly fair execution terminates, nothing faulting, with the result array at the network's
    output of the argument arrays and the argument arrays unchanged. -/
theorem run : θ_run defs (onTc (τ := τ) (main (F := Ideal))) ⟨m, fun _ => 0, ρ⟩ (fun r => ∀ c : Dev nD,
      r.2.mem ((c.tc : Thread nD τ).loc main_v0)
        = outArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq_out m ρ c), (h c).2⟩) (Cert.KernelIdeal.KRun.run_out m ρ)

end Cert.KernelIdeal.KOut

end
-- ==== Proof.LibAfter.lean ====
/-
  The buffers after two lines of host operations run one after the other are the buffers after the second line
  from what the first line leaves: the fold over a concatenation is the composition of the folds.
-/
import Idealize.ShloMosaic.Lib.StableHlo.Run

noncomputable section

namespace Idealize.ShloMosaic.StableHlo

variable {τ : Topo} {sig : RefSig} {Val : EltTy → Type}

/-- The contents after `l₁ ++ l₂` from `V` are the contents after `l₂` from the contents after `l₁` from `V`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo

end
-- ==== Proof.RefAfter.lean ====
import proofs.«169359_j2439541424639_1_alg».proof.Proof.RefOps
import proofs.«169359_j2439541424639_1_alg».proof.Proof.RefRead
import proofs.«169359_j2439541424639_1_alg».proof.Proof.LibAfter

noncomputable section

namespace Cert.ReferenceIdeal.RefAfter

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! The reference program's operation list is cut into four consecutive segments at the values that several later
operations read: the first layer's output (`main_v34`), the hidden activations (`main_v47`), and the quantized hidden
activations with the second layer's quantized weights and their scale row (`main_v61`, `main_v77`, `main_v78`).
Inside a segment such a value is an atom (the contents of its buffer when the segment starts), so the buffers after a
segment are small terms of those atoms, and each is the corresponding stage of the read-back by unfolding.
The buffers after the whole list are the buffers after the segments composed (`after_append`). -/

/-- The operations up to the first layer's output `main_v34`: quantized activations, ternary first weights, their product and its rescaling. -/
abbrev seg1 : List (HloOp τ sig (Elt F)) :=
  [ unary main_arg0 main_v0 (Host.absf : (⟨S4x2048x2048, .f32⟩ : BufTy).Contents (Elt F) → (⟨S4x2048x2048, .f32⟩ : BufTy).Contents (Elt F)),
    nullary main_cst (constant S_ .f32 0xFF800000#32),
    binary main_v0 main_cst main_v1 ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x3727C5AC#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S4x2048x1, .f32⟩) main_call0_v1) (broadcastInDim S4x2048x1 ![] bcast_S_S4x2048x1),
    TRef.binary (TRef.of (T := ⟨S4x2048x1, .f32⟩) main_call0_v1) (TRef.of (T := ⟨S4x2048x1, .f32⟩) main_v2) (TRef.of (T := ⟨S4x2048x1, .f32⟩) main_v3) maximumf,
    nullary main_cst_1 (constant S_ .f32 0x42FE0000#32),
    unary main_cst_1 main_v4 (broadcastInDim S4x2048x1 ![] bcast_S_S4x2048x1 : (⟨S_, .f32⟩ : BufTy).Contents (Elt F) → (⟨S4x2048x1, .f32⟩ : BufTy).Contents (Elt F)),
    binary main_v4 main_v3 main_v5 (Host.divf : (⟨S4x2048x1, .f32⟩ : BufTy).Contents (Elt F) → (⟨S4x2048x1, .f32⟩ : BufTy).Contents (Elt F) → (⟨S4x2048x1, .f32⟩ : BufTy).Contents (Elt F)),
    unary main_v5 main_v6 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_arg0 main_v6 main_v7 (mulf : (⟨S4x2048x2048, .f32⟩ : BufTy).Contents (Elt F) → (⟨S4x2048x2048, .f32⟩ : BufTy).Contents (Elt F) → (⟨S4x2048x2048, .f32⟩ : BufTy).Contents (Elt F)),
    TRef.unary (TRef.of (T := ⟨S4x2048x2048, .f32⟩) main_v7) (TRef.of (T := ⟨S4x2048x2048, .f32⟩) main_v8) Host.roundeven,
    nullary main_c (constantI S_ 32 4294967168#32),
    nullary main_c_2 (constantI S_ 32 127#32),
    TRef.unary (TRef.of (T := ⟨S_, .i32⟩) main_c) (TRef.of (T := ⟨S_, .f32⟩) main_call2_v0) (sitofp .f32),
    TRef.unary (TRef.of (T := ⟨S_, .f32⟩) main_call2_v0) (TRef.of (T := ⟨S4x2048x2048, .f32⟩) main_call2_v1) (broadcastInDim S4x2048x2048 ![] bcast_S_S4x2048x2048),
    TRef.binary (TRef.of (T := ⟨S4x2048x2048, .f32⟩) main_call2_v1) (TRef.of (T := ⟨S4x2048x2048, .f32⟩) main_v8) (TRef.of (T := ⟨S4x2048x2048, .f32⟩) main_call2_v2) maximumf,
    TRef.unary (TRef.of (T := ⟨S_, .i32⟩) main_c_2) (TRef.of (T := ⟨S_, .f32⟩) main_call2_v3) (sitofp .f32),
    TRef.unary (TRef.of (T := ⟨S_, .f32⟩) main_call2_v3) (TRef.of (T := ⟨S4x2048x2048, .f32⟩) main_call2_v4) (broadcastInDim S4x2048x2048 ![] bcast_S_S4x2048x2048),
    TRef.binary (TRef.of (T := ⟨S4x2048x2048, .f32⟩) main_call2_v4) (TRef.of (T := ⟨S4x2048x2048, .f32⟩) main_call2_v2) (TRef.of (T := ⟨S4x2048x2048, .f32⟩) main_v9) minimumf,
    unary main_v5 main_v10 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v9 main_v10 main_v11 (Host.divf : (⟨S4x2048x2048, .f32⟩ : BufTy).Contents (Elt F) → (⟨S4x2048x2048, .f32⟩ : BufTy).Contents (Elt F) → (⟨S4x2048x2048, .f32⟩ : BufTy).Contents (Elt F)),
    binary main_v11 main_arg0 main_v12 (subf : (⟨S4x2048x2048, .f32⟩ : BufTy).Contents (Elt F) → (⟨S4x2048x2048, .f32⟩ : BufTy).Contents (Elt F) → (⟨S4x2048x2048, .f32⟩ : BufTy).Contents (Elt F)),
    binary main_arg0 main_v12 main_v13 (addf : (⟨S4x2048x2048, .f32⟩ : BufTy).Contents (Elt F) → (⟨S4x2048x2048, .f32⟩ : BufTy).Contents (Elt F) → (⟨S4x2048x2048, .f32⟩ : BufTy).Contents (Elt F)),
    unary main_arg1 main_v14 (Host.absf : (⟨S8192x2048, .f32⟩ : BufTy).Contents (Elt F) → (⟨S8192x2048, .f32⟩ : BufTy).Contents (Elt F)),
    nullary main_cst_3 (constant S_ .f32 0x00000000#32),
    binary main_v14 main_cst_3 main_v15 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    unary main_v15 main_v16 (broadcastInDim S8192x1 ![0] bcast_S8192_S8192x1_0 : (⟨S8192, .f32⟩ : BufTy).Contents (Elt F) → (⟨S8192x1, .f32⟩ : BufTy).Contents (Elt F)),
    nullary main_cst_4 (constant S_ .f32 0x45000000#32),
    unary main_cst_4 main_v17 (broadcastInDim S8192x1 ![] bcast_S_S8192x1 : (⟨S_, .f32⟩ : BufTy).Contents (Elt F) → (⟨S8192x1, .f32⟩ : BufTy).Contents (Elt F)),
    binary main_v16 main_v17 main_v18 (Host.divf : (⟨S8192x1, .f32⟩ : BufTy).Contents (Elt F) → (⟨S8192x1, .f32⟩ : BufTy).Contents (Elt F) → (⟨S8192x1, .f32⟩ : BufTy).Contents (Elt F)),
    nullary main_cst_5 (constant S_ .f32 0x3727C5AC#32),
    TRef.unary (TRef.of (T := ⟨S_, .f32⟩) main_cst_5) (TRef.of (T := ⟨S_, .f32⟩) main_call3_v0) id,
    TRef.unary (TRef.of (T := ⟨S_, .f32⟩) main_call3_v0) (TRef.of (T := ⟨S8192x1, .f32⟩) main_call3_v1) (broadcastInDim S8192x1 ![] bcast_S_S8192x1),
    TRef.binary (TRef.of (T := ⟨S8192x1, .f32⟩) main_call3_v1) (TRef.of (T := ⟨S8192x1, .f32⟩) main_v18) (TRef.of (T := ⟨S8192x1, .f32⟩) main_v19) maximumf,
    unary main_v19 main_v20 (broadcastInDim S8192x2048 ![0, 1] bcast_S8192x1_S8192x2048_0_1 : (⟨S8192x1, .f32⟩ : BufTy).Contents (Elt F) → (⟨S8192x2048, .f32⟩ : BufTy).Contents (Elt F)),
    binary main_arg1 main_v20 main_v21 (Host.divf : (⟨S8192x2048, .f32⟩ : BufTy).Contents (Elt F) → (⟨S8192x2048, .f32⟩ : BufTy).Contents (Elt F) → (⟨S8192x2048, .f32⟩ : BufTy).Contents (Elt F)),
    TRef.unary (TRef.of (T := ⟨S8192x2048, .f32⟩) main_v21) (TRef.of (T := ⟨S8192x2048, .f32⟩) main_v22) Host.roundeven,
    nullary main_c_6 (constantI S_ 32 4294967295#32),
    nullary main_c_7 (constantI S_ 32 1#32),
    TRef.unary (TRef.of (T := ⟨S_, .i32⟩) main_c_6) (TRef.of (T := ⟨S_, .f32⟩) main_call5_v0) (sitofp .f32),
    TRef.unary (TRef.of (T := ⟨S_, .f32⟩) main_call5_v0) (TRef.of (T := ⟨S8192x2048, .f32⟩) main_call5_v1) (broadcastInDim S8192x2048 ![] bcast_S_S8192x2048),
    TRef.binary (TRef.of (T := ⟨S8192x2048, .f32⟩) main_call5_v1) (TRef.of (T := ⟨S8192x2048, .f32⟩) main_v22) (TRef.of (T := ⟨S8192x2048, .f32⟩) main_call5_v2) maximumf,
    TRef.unary (TRef.of (T := ⟨S_, .i32⟩) main_c_7) (TRef.of (T := ⟨S_, .f32⟩) main_call5_v3) (sitofp .f32),
    TRef.unary (TRef.of (T := ⟨S_, .f32⟩) main_call5_v3) (TRef.of (T := ⟨S8192x2048, .f32⟩) main_call5_v4) (broadcastInDim S8192x2048 ![] bcast_S_S8192x2048),
    TRef.binary (TRef.of (T := ⟨S8192x2048, .f32⟩) main_call5_v4) (TRef.of (T := ⟨S8192x2048, .f32⟩) main_call5_v2) (TRef.of (T := ⟨S8192x2048, .f32⟩) main_v23) minimumf,
    unary main_v19 main_v24 (broadcastInDim S8192x2048 ![0, 1] bcast_S8192x1_S8192x2048_0_1 : (⟨S8192x1, .f32⟩ : BufTy).Contents (Elt F) → (⟨S8192x2048, .f32⟩ : BufTy).Contents (Elt F)),
    binary main_v23 main_v24 main_v25 (mulf : (⟨S8192x2048, .f32⟩ : BufTy).Contents (Elt F) → (⟨S8192x2048, .f32⟩ : BufTy).Contents (Elt F) → (⟨S8192x2048, .f32⟩ : BufTy).Contents (Elt F)),
    binary main_v25 main_arg1 main_v26 (subf : (⟨S8192x2048, .f32⟩ : BufTy).Contents (Elt F) → (⟨S8192x2048, .f32⟩ : BufTy).Contents (Elt F) → (⟨S8192x2048, .f32⟩ : BufTy).Contents (Elt F)),
    binary main_arg1 main_v26 main_v27 (addf : (⟨S8192x2048, .f32⟩ : BufTy).Contents (Elt F) → (⟨S8192x2048, .f32⟩ : BufTy).Contents (Elt F) → (⟨S8192x2048, .f32⟩ : BufTy).Contents (Elt F)),
    unary main_v19 main_v28 (broadcastInDim S8192x2048 ![0, 1] bcast_S8192x1_S8192x2048_0_1 : (⟨S8192x1, .f32⟩ : BufTy).Contents (Elt F) → (⟨S8192x2048, .f32⟩ : BufTy).Contents (Elt F)),
    binary main_v27 main_v28 main_v29 (Host.divf : (⟨S8192x2048, .f32⟩ : BufTy).Contents (Elt F) → (⟨S8192x2048, .f32⟩ : BufTy).Contents (Elt F) → (⟨S8192x2048, .f32⟩ : BufTy).Contents (Elt F)),
    unary main_v19 main_v30 ((transpose S1x8192 [1, 0] · transposes_S8192x1_S1x8192_1_0) : (⟨S8192x1, .f32⟩ : BufTy).Contents (Elt F) → (⟨S1x8192, .f32⟩ : BufTy).Contents (Elt F)),
    binary main_v13 main_v29 main_v31 ((fun l r => Host.dotGeneral dot_S4x2048x2048_S8192x2048_S4x2048x8192_2_1_01_0_n_n none l r) : (⟨S4x2048x2048, .f32⟩ : BufTy).Contents (Elt F) → (⟨S8192x2048, .f32⟩ : BufTy).Contents (Elt F) → (⟨S4x2048x8192, .f32⟩ : BufTy).Contents (Elt F)),
    unary main_v30 main_v32 (broadcastInDim S1x1x8192 ![1, 2] bcast_S1x8192_S1x1x8192_1_2 : (⟨S1x8192, .f32⟩ : BufTy).Contents (Elt F) → (⟨S1x1x8192, .f32⟩ : BufTy).Contents (Elt F)),
    unary main_v32 main_v33 (broadcastInDim S4x2048x8192 ![0, 1, 2] bcast_S1x1x8192_S4x2048x8192_0_1_2 : (⟨S1x1x8192, .f32⟩ : BufTy).Contents (Elt F) → (⟨S4x2048x8192, .f32⟩ : BufTy).Contents (Elt F)),
    binary main_v31 main_v33 main_v34 (mulf : (⟨S4x2048x8192, .f32⟩ : BufTy).Contents (Elt F) → (⟨S4x2048x8192, .f32⟩ : BufTy).Contents (Elt F) → (⟨S4x2048x8192, .f32⟩ : BufTy).Contents (Elt F)) ]

/-- The GELU over `main_v34`, ending at the hidden activations `main_v47`. -/
abbrev seg2 : List (HloOp τ sig (Elt F)) :=
  [ nullary main_cst_8 (constant S_ .f32 0x3F000000#32),
    unary main_cst_8 main_v35 (broadcastInDim S4x2048x8192 ![] bcast_S_S4x2048x8192 : (⟨S_, .f32⟩ : BufTy).Contents (Elt F) → (⟨S4x2048x8192, .f32⟩ : BufTy).Contents (Elt F)),
    binary main_v35 main_v34 main_v36 (mulf : (⟨S4x2048x8192, .f32⟩ : BufTy).Contents (Elt F) → (⟨S4x2048x8192, .f32⟩ : BufTy).Contents (Elt F) → (⟨S4x2048x8192, .f32⟩ : BufTy).Contents (Elt F)),
    nullary main_cst_9 (constant S_ .f32 0x3D372713#32),
    unary main_cst_9 main_v37 (broadcastInDim S4x2048x8192 ![] bcast_S_S4x2048x8192 : (⟨S_, .f32⟩ : BufTy).Contents (Elt F) → (⟨S4x2048x8192, .f32⟩ : BufTy).Contents (Elt F)),
    binary main_v37 main_v34 main_v38 (mulf : (⟨S4x2048x8192, .f32⟩ : BufTy).Contents (Elt F) → (⟨S4x2048x8192, .f32⟩ : BufTy).Contents (Elt F) → (⟨S4x2048x8192, .f32⟩ : BufTy).Contents (Elt F)),
    binary main_v38 main_v34 main_v39 (mulf : (⟨S4x2048x8192, .f32⟩ : BufTy).Contents (Elt F) → (⟨S4x2048x8192, .f32⟩ : BufTy).Contents (Elt F) → (⟨S4x2048x8192, .f32⟩ : BufTy).Contents (Elt F)),
    binary main_v39 main_v34 main_v40 (mulf : (⟨S4x2048x8192, .f32⟩ : BufTy).Contents (Elt F) → (⟨S4x2048x8192, .f32⟩ : BufTy).Contents (Elt F) → (⟨S4x2048x8192, .f32⟩ : BufTy).Contents (Elt F)),
    binary main_v34 main_v40 main_v41 (addf : (⟨S4x2048x8192, .f32⟩ : BufTy).Contents (Elt F) → (⟨S4x2048x8192, .f32⟩ : BufTy).Contents (Elt F) → (⟨S4x2048x8192, .f32⟩ : BufTy).Contents (Elt F)),
    nullary main_cst_10 (constant S_ .f32 0x3F4C422A#32),
    unary main_cst_10 main_v42 (broadcastInDim S4x2048x8192 ![] bcast_S_S4x2048x8192 : (⟨S_, .f32⟩ : BufTy).Contents (Elt F) → (⟨S4x2048x8192, .f32⟩ : BufTy).Contents (Elt F)),
    binary main_v42 main_v41 main_v43 (mulf : (⟨S4x2048x8192, .f32⟩ : BufTy).Contents (Elt F) → (⟨S4x2048x8192, .f32⟩ : BufTy).Contents (Elt F) → (⟨S4x2048x8192, .f32⟩ : BufTy).Contents (Elt F)),
    unary main_v43 main_v44 (Host.tanh : (⟨S4x2048x8192, .f32⟩ : BufTy).Contents (Elt F) → (⟨S4x2048x8192, .f32⟩ : BufTy).Contents (Elt F)),
    nullary main_cst_11 (constant S_ .f32 0x3F800000#32),
    unary main_cst_11 main_v45 (broadcastInDim S4x2048x8192 ![] bcast_S_S4x2048x8192 : (⟨S_, .f32⟩ : BufTy).Contents (Elt F) → (⟨S4x2048x8192, .f32⟩ : BufTy).Contents (Elt F)),
    binary main_v45 main_v44 main_v46 (addf : (⟨S4x2048x8192, .f32⟩ : BufTy).Contents (Elt F) → (⟨S4x2048x8192, .f32⟩ : BufTy).Contents (Elt F) → (⟨S4x2048x8192, .f32⟩ : BufTy).Contents (Elt F)),
    binary main_v36 main_v46 main_v47 (mulf : (⟨S4x2048x8192, .f32⟩ : BufTy).Contents (Elt F) → (⟨S4x2048x8192, .f32⟩ : BufTy).Contents (Elt F) → (⟨S4x2048x8192, .f32⟩ : BufTy).Contents (Elt F)) ]

/-- The second quantization over `main_v47` (`main_v61`) and the ternary second weights over `main_arg2` (`main_v77`, scale row `main_v78`). -/
abbrev seg3 : List (HloOp τ sig (Elt F)) :=
  [ unary main_v47 main_v48 (Host.absf : (⟨S4x2048x8192, .f32⟩ : BufTy).Contents (Elt F) → (⟨S4x2048x8192, .f32⟩ : BufTy).Contents (Elt F)),
    nullary main_cst_12 (constant S_ .f32 0xFF800000#32),
    binary main_v48 main_cst_12 main_v49 ((fun x v => Host.reduce FloatOps.maximumf x v reducesTo_S4x2048x8192_S4x2048_d2 h_S_) : (⟨S4x2048x8192, .f32⟩ : BufTy).Contents (Elt F) → (⟨S_, .f32⟩ : BufTy).Contents (Elt F) → (⟨S4x2048, .f32⟩ : BufTy).Contents (Elt F)),
    unary main_v49 main_v50 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_13 (constant S_ .f32 0x3727C5AC#32),
    TRef.unary (TRef.of (T := ⟨S_, .f32⟩) main_cst_13) (TRef.of (T := ⟨S_, .f32⟩) main_call6_v0) id,
    TRef.unary (TRef.of (T := ⟨S_, .f32⟩) main_call6_v0) (TRef.of (T := ⟨S4x2048x1, .f32⟩) main_call6_v1) (broadcastInDim S4x2048x1 ![] bcast_S_S4x2048x1),
    TRef.binary (TRef.of (T := ⟨S4x2048x1, .f32⟩) main_call6_v1) (TRef.of (T := ⟨S4x2048x1, .f32⟩) main_v50) (TRef.of (T := ⟨S4x2048x1, .f32⟩) main_v51) maximumf,
    nullary main_cst_14 (constant S_ .f32 0x42FE0000#32),
    unary main_cst_14 main_v52 (broadcastInDim S4x2048x1 ![] bcast_S_S4x2048x1 : (⟨S_, .f32⟩ : BufTy).Contents (Elt F) → (⟨S4x2048x1, .f32⟩ : BufTy).Contents (Elt F)),
    binary main_v52 main_v51 main_v53 (Host.divf : (⟨S4x2048x1, .f32⟩ : BufTy).Contents (Elt F) → (⟨S4x2048x1, .f32⟩ : BufTy).Contents (Elt F) → (⟨S4x2048x1, .f32⟩ : BufTy).Contents (Elt F)),
    unary main_v53 main_v54 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    binary main_v47 main_v54 main_v55 (mulf : (⟨S4x2048x8192, .f32⟩ : BufTy).Contents (Elt F) → (⟨S4x2048x8192, .f32⟩ : BufTy).Contents (Elt F) → (⟨S4x2048x8192, .f32⟩ : BufTy).Contents (Elt F)),
    TRef.unary (TRef.of (T := ⟨S4x2048x8192, .f32⟩) main_v55) (TRef.of (T := ⟨S4x2048x8192, .f32⟩) main_v56) Host.roundeven,
    nullary main_c_15 (constantI S_ 32 4294967168#32),
    nullary main_c_16 (constantI S_ 32 127#32),
    TRef.unary (TRef.of (T := ⟨S_, .i32⟩) main_c_15) (TRef.of (T := ⟨S_, .f32⟩) main_call8_v0) (sitofp .f32),
    TRef.unary (TRef.of (T := ⟨S_, .f32⟩) main_call8_v0) (TRef.of (T := ⟨S4x2048x8192, .f32⟩) main_call8_v1) (broadcastInDim S4x2048x8192 ![] bcast_S_S4x2048x8192),
    TRef.binary (TRef.of (T := ⟨S4x2048x8192, .f32⟩) main_call8_v1) (TRef.of (T := ⟨S4x2048x8192, .f32⟩) main_v56) (TRef.of (T := ⟨S4x2048x8192, .f32⟩) main_call8_v2) maximumf,
    TRef.unary (TRef.of (T := ⟨S_, .i32⟩) main_c_16) (TRef.of (T := ⟨S_, .f32⟩) main_call8_v3) (sitofp .f32),
    TRef.unary (TRef.of (T := ⟨S_, .f32⟩) main_call8_v3) (TRef.of (T := ⟨S4x2048x8192, .f32⟩) main_call8_v4) (broadcastInDim S4x2048x8192 ![] bcast_S_S4x2048x8192),
    TRef.binary (TRef.of (T := ⟨S4x2048x8192, .f32⟩) main_call8_v4) (TRef.of (T := ⟨S4x2048x8192, .f32⟩) main_call8_v2) (TRef.of (T := ⟨S4x2048x8192, .f32⟩) main_v57) minimumf,
    unary main_v53 main_v58 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    binary main_v57 main_v58 main_v59 (Host.divf : (⟨S4x2048x8192, .f32⟩ : BufTy).Contents (Elt F) → (⟨S4x2048x8192, .f32⟩ : BufTy).Contents (Elt F) → (⟨S4x2048x8192, .f32⟩ : BufTy).Contents (Elt F)),
    binary main_v59 main_v47 main_v60 (subf : (⟨S4x2048x8192, .f32⟩ : BufTy).Contents (Elt F) → (⟨S4x2048x8192, .f32⟩ : BufTy).Contents (Elt F) → (⟨S4x2048x8192, .f32⟩ : BufTy).Contents (Elt F)),
    binary main_v47 main_v60 main_v61 (addf : (⟨S4x2048x8192, .f32⟩ : BufTy).Contents (Elt F) → (⟨S4x2048x8192, .f32⟩ : BufTy).Contents (Elt F) → (⟨S4x2048x8192, .f32⟩ : BufTy).Contents (Elt F)),
    unary main_arg2 main_v62 (Host.absf : (⟨S2048x8192, .f32⟩ : BufTy).Contents (Elt F) → (⟨S2048x8192, .f32⟩ : BufTy).Contents (Elt F)),
    nullary main_cst_17 (constant S_ .f32 0x00000000#32),
    binary main_v62 main_cst_17 main_v63 ((fun x v => Host.reduceAdd x v reducesTo_S2048x8192_S2048_d1 h_S_) : (⟨S2048x8192, .f32⟩ : BufTy).Contents (Elt F) → (⟨S_, .f32⟩ : BufTy).Contents (Elt F) → (⟨S2048, .f32⟩ : BufTy).Contents (Elt F)),
    unary main_v63 main_v64 (broadcastInDim S2048x1 ![0] bcast_S2048_S2048x1_0 : (⟨S2048, .f32⟩ : BufTy).Contents (Elt F) → (⟨S2048x1, .f32⟩ : BufTy).Contents (Elt F)),
    nullary main_cst_18 (constant S_ .f32 0x46000000#32),
    unary main_cst_18 main_v65 (broadcastInDim S2048x1 ![] bcast_S_S2048x1 : (⟨S_, .f32⟩ : BufTy).Contents (Elt F) → (⟨S2048x1, .f32⟩ : BufTy).Contents (Elt F)),
    binary main_v64 main_v65 main_v66 (Host.divf : (⟨S2048x1, .f32⟩ : BufTy).Contents (Elt F) → (⟨S2048x1, .f32⟩ : BufTy).Contents (Elt F) → (⟨S2048x1, .f32⟩ : BufTy).Contents (Elt F)),
    nullary main_cst_19 (constant S_ .f32 0x3727C5AC#32),
    TRef.unary (TRef.of (T := ⟨S_, .f32⟩) main_cst_19) (TRef.of (T := ⟨S_, .f32⟩) main_call9_v0) id,
    TRef.unary (TRef.of (T := ⟨S_, .f32⟩) main_call9_v0) (TRef.of (T := ⟨S2048x1, .f32⟩) main_call9_v1) (broadcastInDim S2048x1 ![] bcast_S_S2048x1),
    TRef.binary (TRef.of (T := ⟨S2048x1, .f32⟩) main_call9_v1) (TRef.of (T := ⟨S2048x1, .f32⟩) main_v66) (TRef.of (T := ⟨S2048x1, .f32⟩) main_v67) maximumf,
    unary main_v67 main_v68 (broadcastInDim S2048x8192 ![0, 1] bcast_S2048x1_S2048x8192_0_1 : (⟨S2048x1, .f32⟩ : BufTy).Contents (Elt F) → (⟨S2048x8192, .f32⟩ : BufTy).Contents (Elt F)),
    binary main_arg2 main_v68 main_v69 (Host.divf : (⟨S2048x8192, .f32⟩ : BufTy).Contents (Elt F) → (⟨S2048x8192, .f32⟩ : BufTy).Contents (Elt F) → (⟨S2048x8192, .f32⟩ : BufTy).Contents (Elt F)),
    TRef.unary (TRef.of (T := ⟨S2048x8192, .f32⟩) main_v69) (TRef.of (T := ⟨S2048x8192, .f32⟩) main_v70) Host.roundeven,
    nullary main_c_20 (constantI S_ 32 4294967295#32),
    nullary main_c_21 (constantI S_ 32 1#32),
    TRef.unary (TRef.of (T := ⟨S_, .i32⟩) main_c_20) (TRef.of (T := ⟨S_, .f32⟩) main_call11_v0) (sitofp .f32),
    TRef.unary (TRef.of (T := ⟨S_, .f32⟩) main_call11_v0) (TRef.of (T := ⟨S2048x8192, .f32⟩) main_call11_v1) (broadcastInDim S2048x8192 ![] bcast_S_S2048x8192),
    TRef.binary (TRef.of (T := ⟨S2048x8192, .f32⟩) main_call11_v1) (TRef.of (T := ⟨S2048x8192, .f32⟩) main_v70) (TRef.of (T := ⟨S2048x8192, .f32⟩) main_call11_v2) maximumf,
    TRef.unary (TRef.of (T := ⟨S_, .i32⟩) main_c_21) (TRef.of (T := ⟨S_, .f32⟩) main_call11_v3) (sitofp .f32),
    TRef.unary (TRef.of (T := ⟨S_, .f32⟩) main_call11_v3) (TRef.of (T := ⟨S2048x8192, .f32⟩) main_call11_v4) (broadcastInDim S2048x8192 ![] bcast_S_S2048x8192),
    TRef.binary (TRef.of (T := ⟨S2048x8192, .f32⟩) main_call11_v4) (TRef.of (T := ⟨S2048x8192, .f32⟩) main_call11_v2) (TRef.of (T := ⟨S2048x8192, .f32⟩) main_v71) minimumf,
    unary main_v67 main_v72 (broadcastInDim S2048x8192 ![0, 1] bcast_S2048x1_S2048x8192_0_1 : (⟨S2048x1, .f32⟩ : BufTy).Contents (Elt F) → (⟨S2048x8192, .f32⟩ : BufTy).Contents (Elt F)),
    binary main_v71 main_v72 main_v73 (mulf : (⟨S2048x8192, .f32⟩ : BufTy).Contents (Elt F) → (⟨S2048x8192, .f32⟩ : BufTy).Contents (Elt F) → (⟨S2048x8192, .f32⟩ : BufTy).Contents (Elt F)),
    binary main_v73 main_arg2 main_v74 (subf : (⟨S2048x8192, .f32⟩ : BufTy).Contents (Elt F) → (⟨S2048x8192, .f32⟩ : BufTy).Contents (Elt F) → (⟨S2048x8192, .f32⟩ : BufTy).Contents (Elt F)),
    binary main_arg2 main_v74 main_v75 (addf : (⟨S2048x8192, .f32⟩ : BufTy).Contents (Elt F) → (⟨S2048x8192, .f32⟩ : BufTy).Contents (Elt F) → (⟨S2048x8192, .f32⟩ : BufTy).Contents (Elt F)),
    unary main_v67 main_v76 (broadcastInDim S2048x8192 ![0, 1] bcast_S2048x1_S2048x8192_0_1 : (⟨S2048x1, .f32⟩ : BufTy).Contents (Elt F) → (⟨S2048x8192, .f32⟩ : BufTy).Contents (Elt F)),
    binary main_v75 main_v76 main_v77 (Host.divf : (⟨S2048x8192, .f32⟩ : BufTy).Contents (Elt F) → (⟨S2048x8192, .f32⟩ : BufTy).Contents (Elt F) → (⟨S2048x8192, .f32⟩ : BufTy).Contents (Elt F)),
    unary main_v67 main_v78 ((transpose S1x2048 [1, 0] · transposes_S2048x1_S1x2048_1_0) : (⟨S2048x1, .f32⟩ : BufTy).Contents (Elt F) → (⟨S1x2048, .f32⟩ : BufTy).Contents (Elt F)) ]

/-- The second product and its rescaling: `main_v79 … main_v82`. -/
abbrev seg4 : List (HloOp τ sig (Elt F)) :=
  [ binary main_v61 main_v77 main_v79 ((fun l r => Host.dotGeneral dot_S4x2048x8192_S2048x8192_S4x2048x2048_2_1_01_0_n_n none l r) : (⟨S4x2048x8192, .f32⟩ : BufTy).Contents (Elt F) → (⟨S2048x8192, .f32⟩ : BufTy).Contents (Elt F) → (⟨S4x2048x2048, .f32⟩ : BufTy).Contents (Elt F)),
    unary main_v78 main_v80 (broadcastInDim S1x1x2048 ![1, 2] bcast_S1x2048_S1x1x2048_1_2 : (⟨S1x2048, .f32⟩ : BufTy).Contents (Elt F) → (⟨S1x1x2048, .f32⟩ : BufTy).Contents (Elt F)),
    unary main_v80 main_v81 (broadcastInDim S4x2048x2048 ![0, 1, 2] bcast_S1x1x2048_S4x2048x2048_0_1_2 : (⟨S1x1x2048, .f32⟩ : BufTy).Contents (Elt F) → (⟨S4x2048x2048, .f32⟩ : BufTy).Contents (Elt F)),
    binary main_v79 main_v81 main_v82 (mulf : (⟨S4x2048x2048, .f32⟩ : BufTy).Contents (Elt F) → (⟨S4x2048x2048, .f32⟩ : BufTy).Contents (Elt F) → (⟨S4x2048x2048, .f32⟩ : BufTy).Contents (Elt F)) ]

/-! A called function's operations move their values between the buffer's own type and the value's type along the
buffer's typing equation; at a literal buffer that equation is by computation and the move is the identity. -/

theorem toBuf_main_cst_0 (v : (⟨S_, .f32⟩ : BufTy).Contents (Elt F)) :
    (TRef.of (sig := sig) (T := ⟨S_, .f32⟩) main_cst_0).toBuf v = v := rfl
theorem ofBuf_main_cst_0 (v : (⟨S_, .f32⟩ : BufTy).Contents (Elt F)) :
    (TRef.of (sig := sig) (T := ⟨S_, .f32⟩) main_cst_0).ofBuf v = v := rfl
theorem toBuf_main_call0_v0 (v : (⟨S_, .f32⟩ : BufTy).Contents (Elt F)) :
    (TRef.of (sig := sig) (T := ⟨S_, .f32⟩) main_call0_v0).toBuf v = v := rfl
theorem ofBuf_main_call0_v0 (v : (⟨S_, .f32⟩ : BufTy).Contents (Elt F)) :
    (TRef.of (sig := sig) (T := ⟨S_, .f32⟩) main_call0_v0).ofBuf v = v := rfl
theorem toBuf_main_call0_v1 (v : (⟨S4x2048x1, .f32⟩ : BufTy).Contents (Elt F)) :
    (TRef.of (sig := sig) (T := ⟨S4x2048x1, .f32⟩) main_call0_v1).toBuf v = v := rfl
theorem ofBuf_main_call0_v1 (v : (⟨S4x2048x1, .f32⟩ : BufTy).Contents (Elt F)) :
    (TRef.of (sig := sig) (T := ⟨S4x2048x1, .f32⟩) main_call0_v1).ofBuf v = v := rfl
theorem toBuf_main_v2 (v : (⟨S4x2048x1, .f32⟩ : BufTy).Contents (Elt F)) :
    (TRef.of (sig := sig) (T := ⟨S4x2048x1, .f32⟩) main_v2).toBuf v = v := rfl
theorem ofBuf_main_v2 (v : (⟨S4x2048x1, .f32⟩ : BufTy).Contents (Elt F)) :
    (TRef.of (sig := sig) (T := ⟨S4x2048x1, .f32⟩) main_v2).ofBuf v = v := rfl
theorem toBuf_main_v3 (v : (⟨S4x2048x1, .f32⟩ : BufTy).Contents (Elt F)) :
    (TRef.of (sig := sig) (T := ⟨S4x2048x1, .f32⟩) main_v3).toBuf v = v := rfl
theorem ofBuf_main_v3 (v : (⟨S4x2048x1, .f32⟩ : BufTy).Contents (Elt F)) :
    (TRef.of (sig := sig) (T := ⟨S4x2048x1, .f32⟩) main_v3).ofBuf v = v := rfl
theorem toBuf_main_v7 (v : (⟨S4x2048x2048, .f32⟩ : BufTy).Contents (Elt F)) :
    (TRef.of (sig := sig) (T := ⟨S4x2048x2048, .f32⟩) main_v7).toBuf v = v := rfl
theorem ofBuf_main_v7 (v : (⟨S4x2048x2048, .f32⟩ : BufTy).Contents (Elt F)) :
    (TRef.of (sig := sig) (T := ⟨S4x2048x2048, .f32⟩) main_v7).ofBuf v = v := rfl
theorem toBuf_main_v8 (v : (⟨S4x2048x2048, .f32⟩ : BufTy).Contents (Elt F)) :
    (TRef.of (sig := sig) (T := ⟨S4x2048x2048, .f32⟩) main_v8).toBuf v = v := rfl
theorem ofBuf_main_v8 (v : (⟨S4x2048x2048, .f32⟩ : BufTy).Contents (Elt F)) :
    (TRef.of (sig := sig) (T := ⟨S4x2048x2048, .f32⟩) main_v8).ofBuf v = v := rfl
theorem toBuf_main_c (v : (⟨S_, .i32⟩ : BufTy).Contents (Elt F)) :
    (TRef.of (sig := sig) (T := ⟨S_, .i32⟩) main_c).toBuf v = v := rfl
theorem ofBuf_main_c (v : (⟨S_, .i32⟩ : BufTy).Contents (Elt F)) :
    (TRef.of (sig := sig) (T := ⟨S_, .i32⟩) main_c).ofBuf v = v := rfl
theorem toBuf_main_call2_v0 (v : (⟨S_, .f32⟩ : BufTy).Contents (Elt F)) :
    (TRef.of (sig := sig) (T := ⟨S_, .f32⟩) main_call2_v0).toBuf v = v := rfl
theorem ofBuf_main_call2_v0 (v : (⟨S_, .f32⟩ : BufTy).Contents (Elt F)) :
    (TRef.of (sig := sig) (T := ⟨S_, .f32⟩) main_call2_v0).ofBuf v = v := rfl
theorem toBuf_main_call2_v1 (v : (⟨S4x2048x2048, .f32⟩ : BufTy).Contents (Elt F)) :
    (TRef.of (sig := sig) (T := ⟨S4x2048x2048, .f32⟩) main_call2_v1).toBuf v = v := rfl
theorem ofBuf_main_call2_v1 (v : (⟨S4x2048x2048, .f32⟩ : BufTy).Contents (Elt F)) :
    (TRef.of (sig := sig) (T := ⟨S4x2048x2048, .f32⟩) main_call2_v1).ofBuf v = v := rfl
theorem toBuf_main_call2_v2 (v : (⟨S4x2048x2048, .f32⟩ : BufTy).Contents (Elt F)) :
    (TRef.of (sig := sig) (T := ⟨S4x2048x2048, .f32⟩) main_call2_v2).toBuf v = v := rfl
theorem ofBuf_main_call2_v2 (v : (⟨S4x2048x2048, .f32⟩ : BufTy).Contents (Elt F)) :
    (TRef.of (sig := sig) (T := ⟨S4x2048x2048, .f32⟩) main_call2_v2).ofBuf v = v := rfl
theorem toBuf_main_c_2 (v : (⟨S_, .i32⟩ : BufTy).Contents (Elt F)) :
    (TRef.of (sig := sig) (T := ⟨S_, .i32⟩) main_c_2).toBuf v = v := rfl
theorem ofBuf_main_c_2 (v : (⟨S_, .i32⟩ : BufTy).Contents (Elt F)) :
    (TRef.of (sig := sig) (T := ⟨S_, .i32⟩) main_c_2).ofBuf v = v := rfl
theorem toBuf_main_call2_v3 (v : (⟨S_, .f32⟩ : BufTy).Contents (Elt F)) :
    (TRef.of (sig := sig) (T := ⟨S_, .f32⟩) main_call2_v3).toBuf v = v := rfl
theorem ofBuf_main_call2_v3 (v : (⟨S_, .f32⟩ : BufTy).Contents (Elt F)) :
    (TRef.of (sig := sig) (T := ⟨S_, .f32⟩) main_call2_v3).ofBuf v = v := rfl
theorem toBuf_main_call2_v4 (v : (⟨S4x2048x2048, .f32⟩ : BufTy).Contents (Elt F)) :
    (TRef.of (sig := sig) (T := ⟨S4x2048x2048, .f32⟩) main_call2_v4).toBuf v = v := rfl
theorem ofBuf_main_call2_v4 (v : (⟨S4x2048x2048, .f32⟩ : BufTy).Contents (Elt F)) :
    (TRef.of (sig := sig) (T := ⟨S4x2048x2048, .f32⟩) main_call2_v4).ofBuf v = v := rfl
theorem toBuf_main_v9 (v : (⟨S4x2048x2048, .f32⟩ : BufTy).Contents (Elt F)) :
    (TRef.of (sig := sig) (T := ⟨S4x2048x2048, .f32⟩) main_v9).toBuf v = v := rfl
theorem ofBuf_main_v9 (v : (⟨S4x2048x2048, .f32⟩ : BufTy).Contents (Elt F)) :
    (TRef.of (sig := sig) (T := ⟨S4x2048x2048, .f32⟩) main_v9).ofBuf v = v := rfl
theorem toBuf_main_cst_5 (v : (⟨S_, .f32⟩ : BufTy).Contents (Elt F)) :
    (TRef.of (sig := sig) (T := ⟨S_, .f32⟩) main_cst_5).toBuf v = v := rfl
theorem ofBuf_main_cst_5 (v : (⟨S_, .f32⟩ : BufTy).Contents (Elt F)) :
    (TRef.of (sig := sig) (T := ⟨S_, .f32⟩) main_cst_5).ofBuf v = v := rfl
theorem toBuf_main_call3_v0 (v : (⟨S_, .f32⟩ : BufTy).Contents (Elt F)) :
    (TRef.of (sig := sig) (T := ⟨S_, .f32⟩) main_call3_v0).toBuf v = v := rfl
theorem ofBuf_main_call3_v0 (v : (⟨S_, .f32⟩ : BufTy).Contents (Elt F)) :
    (TRef.of (sig := sig) (T := ⟨S_, .f32⟩) main_call3_v0).ofBuf v = v := rfl
theorem toBuf_main_call3_v1 (v : (⟨S8192x1, .f32⟩ : BufTy).Contents (Elt F)) :
    (TRef.of (sig := sig) (T := ⟨S8192x1, .f32⟩) main_call3_v1).toBuf v = v := rfl
theorem ofBuf_main_call3_v1 (v : (⟨S8192x1, .f32⟩ : BufTy).Contents (Elt F)) :
    (TRef.of (sig := sig) (T := ⟨S8192x1, .f32⟩) main_call3_v1).ofBuf v = v := rfl
theorem toBuf_main_v18 (v : (⟨S8192x1, .f32⟩ : BufTy).Contents (Elt F)) :
    (TRef.of (sig := sig) (T := ⟨S8192x1, .f32⟩) main_v18).toBuf v = v := rfl
theorem ofBuf_main_v18 (v : (⟨S8192x1, .f32⟩ : BufTy).Contents (Elt F)) :
    (TRef.of (sig := sig) (T := ⟨S8192x1, .f32⟩) main_v18).ofBuf v = v := rfl
theorem toBuf_main_v19 (v : (⟨S8192x1, .f32⟩ : BufTy).Contents (Elt F)) :
    (TRef.of (sig := sig) (T := ⟨S8192x1, .f32⟩) main_v19).toBuf v = v := rfl
theorem ofBuf_main_v19 (v : (⟨S8192x1, .f32⟩ : BufTy).Contents (Elt F)) :
    (TRef.of (sig := sig) (T := ⟨S8192x1, .f32⟩) main_v19).ofBuf v = v := rfl
theorem toBuf_main_v21 (v : (⟨S8192x2048, .f32⟩ : BufTy).Contents (Elt F)) :
    (TRef.of (sig := sig) (T := ⟨S8192x2048, .f32⟩) main_v21).toBuf v = v := rfl
theorem ofBuf_main_v21 (v : (⟨S8192x2048, .f32⟩ : BufTy).Contents (Elt F)) :
    (TRef.of (sig := sig) (T := ⟨S8192x2048, .f32⟩) main_v21).ofBuf v = v := rfl
theorem toBuf_main_v22 (v : (⟨S8192x2048, .f32⟩ : BufTy).Contents (Elt F)) :
    (TRef.of (sig := sig) (T := ⟨S8192x2048, .f32⟩) main_v22).toBuf v = v := rfl
theorem ofBuf_main_v22 (v : (⟨S8192x2048, .f32⟩ : BufTy).Contents (Elt F)) :
    (TRef.of (sig := sig) (T := ⟨S8192x2048, .f32⟩) main_v22).ofBuf v = v := rfl
theorem toBuf_main_c_6 (v : (⟨S_, .i32⟩ : BufTy).Contents (Elt F)) :
    (TRef.of (sig := sig) (T := ⟨S_, .i32⟩) main_c_6).toBuf v = v := rfl
theorem ofBuf_main_c_6 (v : (⟨S_, .i32⟩ : BufTy).Contents (Elt F)) :
    (TRef.of (sig := sig) (T := ⟨S_, .i32⟩) main_c_6).ofBuf v = v := rfl
theorem toBuf_main_call5_v0 (v : (⟨S_, .f32⟩ : BufTy).Contents (Elt F)) :
    (TRef.of (sig := sig) (T := ⟨S_, .f32⟩) main_call5_v0).toBuf v = v := rfl
theorem ofBuf_main_call5_v0 (v : (⟨S_, .f32⟩ : BufTy).Contents (Elt F)) :
    (TRef.of (sig := sig) (T := ⟨S_, .f32⟩) main_call5_v0).ofBuf v = v := rfl
theorem toBuf_main_call5_v1 (v : (⟨S8192x2048, .f32⟩ : BufTy).Contents (Elt F)) :
    (TRef.of (sig := sig) (T := ⟨S8192x2048, .f32⟩) main_call5_v1).toBuf v = v := rfl
theorem ofBuf_main_call5_v1 (v : (⟨S8192x2048, .f32⟩ : BufTy).Contents (Elt F)) :
    (TRef.of (sig := sig) (T := ⟨S8192x2048, .f32⟩) main_call5_v1).ofBuf v = v := rfl
theorem toBuf_main_call5_v2 (v : (⟨S8192x2048, .f32⟩ : BufTy).Contents (Elt F)) :
    (TRef.of (sig := sig) (T := ⟨S8192x2048, .f32⟩) main_call5_v2).toBuf v = v := rfl
theorem ofBuf_main_call5_v2 (v : (⟨S8192x2048, .f32⟩ : BufTy).Contents (Elt F)) :
    (TRef.of (sig := sig) (T := ⟨S8192x2048, .f32⟩) main_call5_v2).ofBuf v = v := rfl
theorem toBuf_main_c_7 (v : (⟨S_, .i32⟩ : BufTy).Contents (Elt F)) :
    (TRef.of (sig := sig) (T := ⟨S_, .i32⟩) main_c_7).toBuf v = v := rfl
theorem ofBuf_main_c_7 (v : (⟨S_, .i32⟩ : BufTy).Contents (Elt F)) :
    (TRef.of (sig := sig) (T := ⟨S_, .i32⟩) main_c_7).ofBuf v = v := rfl
theorem toBuf_main_call5_v3 (v : (⟨S_, .f32⟩ : BufTy).Contents (Elt F)) :
    (TRef.of (sig := sig) (T := ⟨S_, .f32⟩) main_call5_v3).toBuf v = v := rfl
theorem ofBuf_main_call5_v3 (v : (⟨S_, .f32⟩ : BufTy).Contents (Elt F)) :
    (TRef.of (sig := sig) (T := ⟨S_, .f32⟩) main_call5_v3).ofBuf v = v := rfl
theorem toBuf_main_call5_v4 (v : (⟨S8192x2048, .f32⟩ : BufTy).Contents (Elt F)) :
    (TRef.of (sig := sig) (T := ⟨S8192x2048, .f32⟩) main_call5_v4).toBuf v = v := rfl
theorem ofBuf_main_call5_v4 (v : (⟨S8192x2048, .f32⟩ : BufTy).Contents (Elt F)) :
    (TRef.of (sig := sig) (T := ⟨S8192x2048, .f32⟩) main_call5_v4).ofBuf v = v := rfl
theorem toBuf_main_v23 (v : (⟨S8192x2048, .f32⟩ : BufTy).Contents (Elt F)) :
    (TRef.of (sig := sig) (T := ⟨S8192x2048, .f32⟩) main_v23).toBuf v = v := rfl
theorem ofBuf_main_v23 (v : (⟨S8192x2048, .f32⟩ : BufTy).Contents (Elt F)) :
    (TRef.of (sig := sig) (T := ⟨S8192x2048, .f32⟩) main_v23).ofBuf v = v := rfl
theorem toBuf_main_cst_13 (v : (⟨S_, .f32⟩ : BufTy).Contents (Elt F)) :
    (TRef.of (sig := sig) (T := ⟨S_, .f32⟩) main_cst_13).toBuf v = v := rfl
theorem ofBuf_main_cst_13 (v : (⟨S_, .f32⟩ : BufTy).Contents (Elt F)) :
    (TRef.of (sig := sig) (T := ⟨S_, .f32⟩) main_cst_13).ofBuf v = v := rfl
theorem toBuf_main_call6_v0 (v : (⟨S_, .f32⟩ : BufTy).Contents (Elt F)) :
    (TRef.of (sig := sig) (T := ⟨S_, .f32⟩) main_call6_v0).toBuf v = v := rfl
theorem ofBuf_main_call6_v0 (v : (⟨S_, .f32⟩ : BufTy).Contents (Elt F)) :
    (TRef.of (sig := sig) (T := ⟨S_, .f32⟩) main_call6_v0).ofBuf v = v := rfl
theorem toBuf_main_call6_v1 (v : (⟨S4x2048x1, .f32⟩ : BufTy).Contents (Elt F)) :
    (TRef.of (sig := sig) (T := ⟨S4x2048x1, .f32⟩) main_call6_v1).toBuf v = v := rfl
theorem ofBuf_main_call6_v1 (v : (⟨S4x2048x1, .f32⟩ : BufTy).Contents (Elt F)) :
    (TRef.of (sig := sig) (T := ⟨S4x2048x1, .f32⟩) main_call6_v1).ofBuf v = v := rfl
theorem toBuf_main_v50 (v : (⟨S4x2048x1, .f32⟩ : BufTy).Contents (Elt F)) :
    (TRef.of (sig := sig) (T := ⟨S4x2048x1, .f32⟩) main_v50).toBuf v = v := rfl
theorem ofBuf_main_v50 (v : (⟨S4x2048x1, .f32⟩ : BufTy).Contents (Elt F)) :
    (TRef.of (sig := sig) (T := ⟨S4x2048x1, .f32⟩) main_v50).ofBuf v = v := rfl
theorem toBuf_main_v51 (v : (⟨S4x2048x1, .f32⟩ : BufTy).Contents (Elt F)) :
    (TRef.of (sig := sig) (T := ⟨S4x2048x1, .f32⟩) main_v51).toBuf v = v := rfl
theorem ofBuf_main_v51 (v : (⟨S4x2048x1, .f32⟩ : BufTy).Contents (Elt F)) :
    (TRef.of (sig := sig) (T := ⟨S4x2048x1, .f32⟩) main_v51).ofBuf v = v := rfl
theorem toBuf_main_v55 (v : (⟨S4x2048x8192, .f32⟩ : BufTy).Contents (Elt F)) :
    (TRef.of (sig := sig) (T := ⟨S4x2048x8192, .f32⟩) main_v55).toBuf v = v := rfl
theorem ofBuf_main_v55 (v : (⟨S4x2048x8192, .f32⟩ : BufTy).Contents (Elt F)) :
    (TRef.of (sig := sig) (T := ⟨S4x2048x8192, .f32⟩) main_v55).ofBuf v = v := rfl
theorem toBuf_main_v56 (v : (⟨S4x2048x8192, .f32⟩ : BufTy).Contents (Elt F)) :
    (TRef.of (sig := sig) (T := ⟨S4x2048x8192, .f32⟩) main_v56).toBuf v = v := rfl
theorem ofBuf_main_v56 (v : (⟨S4x2048x8192, .f32⟩ : BufTy).Contents (Elt F)) :
    (TRef.of (sig := sig) (T := ⟨S4x2048x8192, .f32⟩) main_v56).ofBuf v = v := rfl
theorem toBuf_main_c_15 (v : (⟨S_, .i32⟩ : BufTy).Contents (Elt F)) :
    (TRef.of (sig := sig) (T := ⟨S_, .i32⟩) main_c_15).toBuf v = v := rfl
theorem ofBuf_main_c_15 (v : (⟨S_, .i32⟩ : BufTy).Contents (Elt F)) :
    (TRef.of (sig := sig) (T := ⟨S_, .i32⟩) main_c_15).ofBuf v = v := rfl
theorem toBuf_main_call8_v0 (v : (⟨S_, .f32⟩ : BufTy).Contents (Elt F)) :
    (TRef.of (sig := sig) (T := ⟨S_, .f32⟩) main_call8_v0).toBuf v = v := rfl
theorem ofBuf_main_call8_v0 (v : (⟨S_, .f32⟩ : BufTy).Contents (Elt F)) :
    (TRef.of (sig := sig) (T := ⟨S_, .f32⟩) main_call8_v0).ofBuf v = v := rfl
theorem toBuf_main_call8_v1 (v : (⟨S4x2048x8192, .f32⟩ : BufTy).Contents (Elt F)) :
    (TRef.of (sig := sig) (T := ⟨S4x2048x8192, .f32⟩) main_call8_v1).toBuf v = v := rfl
theorem ofBuf_main_call8_v1 (v : (⟨S4x2048x8192, .f32⟩ : BufTy).Contents (Elt F)) :
    (TRef.of (sig := sig) (T := ⟨S4x2048x8192, .f32⟩) main_call8_v1).ofBuf v = v := rfl
theorem toBuf_main_call8_v2 (v : (⟨S4x2048x8192, .f32⟩ : BufTy).Contents (Elt F)) :
    (TRef.of (sig := sig) (T := ⟨S4x2048x8192, .f32⟩) main_call8_v2).toBuf v = v := rfl
theorem ofBuf_main_call8_v2 (v : (⟨S4x2048x8192, .f32⟩ : BufTy).Contents (Elt F)) :
    (TRef.of (sig := sig) (T := ⟨S4x2048x8192, .f32⟩) main_call8_v2).ofBuf v = v := rfl
theorem toBuf_main_c_16 (v : (⟨S_, .i32⟩ : BufTy).Contents (Elt F)) :
    (TRef.of (sig := sig) (T := ⟨S_, .i32⟩) main_c_16).toBuf v = v := rfl
theorem ofBuf_main_c_16 (v : (⟨S_, .i32⟩ : BufTy).Contents (Elt F)) :
    (TRef.of (sig := sig) (T := ⟨S_, .i32⟩) main_c_16).ofBuf v = v := rfl
theorem toBuf_main_call8_v3 (v : (⟨S_, .f32⟩ : BufTy).Contents (Elt F)) :
    (TRef.of (sig := sig) (T := ⟨S_, .f32⟩) main_call8_v3).toBuf v = v := rfl
theorem ofBuf_main_call8_v3 (v : (⟨S_, .f32⟩ : BufTy).Contents (Elt F)) :
    (TRef.of (sig := sig) (T := ⟨S_, .f32⟩) main_call8_v3).ofBuf v = v := rfl
theorem toBuf_main_call8_v4 (v : (⟨S4x2048x8192, .f32⟩ : BufTy).Contents (Elt F)) :
    (TRef.of (sig := sig) (T := ⟨S4x2048x8192, .f32⟩) main_call8_v4).toBuf v = v := rfl
theorem ofBuf_main_call8_v4 (v : (⟨S4x2048x8192, .f32⟩ : BufTy).Contents (Elt F)) :
    (TRef.of (sig := sig) (T := ⟨S4x2048x8192, .f32⟩) main_call8_v4).ofBuf v = v := rfl
theorem toBuf_main_v57 (v : (⟨S4x2048x8192, .f32⟩ : BufTy).Contents (Elt F)) :
    (TRef.of (sig := sig) (T := ⟨S4x2048x8192, .f32⟩) main_v57).toBuf v = v := rfl
theorem ofBuf_main_v57 (v : (⟨S4x2048x8192, .f32⟩ : BufTy).Contents (Elt F)) :
    (TRef.of (sig := sig) (T := ⟨S4x2048x8192, .f32⟩) main_v57).ofBuf v = v := rfl
theorem toBuf_main_cst_19 (v : (⟨S_, .f32⟩ : BufTy).Contents (Elt F)) :
    (TRef.of (sig := sig) (T := ⟨S_, .f32⟩) main_cst_19).toBuf v = v := rfl
theorem ofBuf_main_cst_19 (v : (⟨S_, .f32⟩ : BufTy).Contents (Elt F)) :
    (TRef.of (sig := sig) (T := ⟨S_, .f32⟩) main_cst_19).ofBuf v = v := rfl
theorem toBuf_main_call9_v0 (v : (⟨S_, .f32⟩ : BufTy).Contents (Elt F)) :
    (TRef.of (sig := sig) (T := ⟨S_, .f32⟩) main_call9_v0).toBuf v = v := rfl
theorem ofBuf_main_call9_v0 (v : (⟨S_, .f32⟩ : BufTy).Contents (Elt F)) :
    (TRef.of (sig := sig) (T := ⟨S_, .f32⟩) main_call9_v0).ofBuf v = v := rfl
theorem toBuf_main_call9_v1 (v : (⟨S2048x1, .f32⟩ : BufTy).Contents (Elt F)) :
    (TRef.of (sig := sig) (T := ⟨S2048x1, .f32⟩) main_call9_v1).toBuf v = v := rfl
theorem ofBuf_main_call9_v1 (v : (⟨S2048x1, .f32⟩ : BufTy).Contents (Elt F)) :
    (TRef.of (sig := sig) (T := ⟨S2048x1, .f32⟩) main_call9_v1).ofBuf v = v := rfl
theorem toBuf_main_v66 (v : (⟨S2048x1, .f32⟩ : BufTy).Contents (Elt F)) :
    (TRef.of (sig := sig) (T := ⟨S2048x1, .f32⟩) main_v66).toBuf v = v := rfl
theorem ofBuf_main_v66 (v : (⟨S2048x1, .f32⟩ : BufTy).Contents (Elt F)) :
    (TRef.of (sig := sig) (T := ⟨S2048x1, .f32⟩) main_v66).ofBuf v = v := rfl
theorem toBuf_main_v67 (v : (⟨S2048x1, .f32⟩ : BufTy).Contents (Elt F)) :
    (TRef.of (sig := sig) (T := ⟨S2048x1, .f32⟩) main_v67).toBuf v = v := rfl
theorem ofBuf_main_v67 (v : (⟨S2048x1, .f32⟩ : BufTy).Contents (Elt F)) :
    (TRef.of (sig := sig) (T := ⟨S2048x1, .f32⟩) main_v67).ofBuf v = v := rfl
theorem toBuf_main_v69 (v : (⟨S2048x8192, .f32⟩ : BufTy).Contents (Elt F)) :
    (TRef.of (sig := sig) (T := ⟨S2048x8192, .f32⟩) main_v69).toBuf v = v := rfl
theorem ofBuf_main_v69 (v : (⟨S2048x8192, .f32⟩ : BufTy).Contents (Elt F)) :
    (TRef.of (sig := sig) (T := ⟨S2048x8192, .f32⟩) main_v69).ofBuf v = v := rfl
theorem toBuf_main_v70 (v : (⟨S2048x8192, .f32⟩ : BufTy).Contents (Elt F)) :
    (TRef.of (sig := sig) (T := ⟨S2048x8192, .f32⟩) main_v70).toBuf v = v := rfl
theorem ofBuf_main_v70 (v : (⟨S2048x8192, .f32⟩ : BufTy).Contents (Elt F)) :
    (TRef.of (sig := sig) (T := ⟨S2048x8192, .f32⟩) main_v70).ofBuf v = v := rfl
theorem toBuf_main_c_20 (v : (⟨S_, .i32⟩ : BufTy).Contents (Elt F)) :
    (TRef.of (sig := sig) (T := ⟨S_, .i32⟩) main_c_20).toBuf v = v := rfl
theorem ofBuf_main_c_20 (v : (⟨S_, .i32⟩ : BufTy).Contents (Elt F)) :
    (TRef.of (sig := sig) (T := ⟨S_, .i32⟩) main_c_20).ofBuf v = v := rfl
theorem toBuf_main_call11_v0 (v : (⟨S_, .f32⟩ : BufTy).Contents (Elt F)) :
    (TRef.of (sig := sig) (T := ⟨S_, .f32⟩) main_call11_v0).toBuf v = v := rfl
theorem ofBuf_main_call11_v0 (v : (⟨S_, .f32⟩ : BufTy).Contents (Elt F)) :
    (TRef.of (sig := sig) (T := ⟨S_, .f32⟩) main_call11_v0).ofBuf v = v := rfl
theorem toBuf_main_call11_v1 (v : (⟨S2048x8192, .f32⟩ : BufTy).Contents (Elt F)) :
    (TRef.of (sig := sig) (T := ⟨S2048x8192, .f32⟩) main_call11_v1).toBuf v = v := rfl
theorem ofBuf_main_call11_v1 (v : (⟨S2048x8192, .f32⟩ : BufTy).Contents (Elt F)) :
    (TRef.of (sig := sig) (T := ⟨S2048x8192, .f32⟩) main_call11_v1).ofBuf v = v := rfl
theorem toBuf_main_call11_v2 (v : (⟨S2048x8192, .f32⟩ : BufTy).Contents (Elt F)) :
    (TRef.of (sig := sig) (T := ⟨S2048x8192, .f32⟩) main_call11_v2).toBuf v = v := rfl
theorem ofBuf_main_call11_v2 (v : (⟨S2048x8192, .f32⟩ : BufTy).Contents (Elt F)) :
    (TRef.of (sig := sig) (T := ⟨S2048x8192, .f32⟩) main_call11_v2).ofBuf v = v := rfl
theorem toBuf_main_c_21 (v : (⟨S_, .i32⟩ : BufTy).Contents (Elt F)) :
    (TRef.of (sig := sig) (T := ⟨S_, .i32⟩) main_c_21).toBuf v = v := rfl
theorem ofBuf_main_c_21 (v : (⟨S_, .i32⟩ : BufTy).Contents (Elt F)) :
    (TRef.of (sig := sig) (T := ⟨S_, .i32⟩) main_c_21).ofBuf v = v := rfl
theorem toBuf_main_call11_v3 (v : (⟨S_, .f32⟩ : BufTy).Contents (Elt F)) :
    (TRef.of (sig := sig) (T := ⟨S_, .f32⟩) main_call11_v3).toBuf v = v := rfl
theorem ofBuf_main_call11_v3 (v : (⟨S_, .f32⟩ : BufTy).Contents (Elt F)) :
    (TRef.of (sig := sig) (T := ⟨S_, .f32⟩) main_call11_v3).ofBuf v = v := rfl
theorem toBuf_main_call11_v4 (v : (⟨S2048x8192, .f32⟩ : BufTy).Contents (Elt F)) :
    (TRef.of (sig := sig) (T := ⟨S2048x8192, .f32⟩) main_call11_v4).toBuf v = v := rfl
theorem ofBuf_main_call11_v4 (v : (⟨S2048x8192, .f32⟩ : BufTy).Contents (Elt F)) :
    (TRef.of (sig := sig) (T := ⟨S2048x8192, .f32⟩) main_call11_v4).ofBuf v = v := rfl
theorem toBuf_main_v71 (v : (⟨S2048x8192, .f32⟩ : BufTy).Contents (Elt F)) :
    (TRef.of (sig := sig) (T := ⟨S2048x8192, .f32⟩) main_v71).toBuf v = v := rfl
theorem ofBuf_main_v71 (v : (⟨S2048x8192, .f32⟩ : BufTy).Contents (Elt F)) :
    (TRef.of (sig := sig) (T := ⟨S2048x8192, .f32⟩) main_v71).ofBuf v = v := rfl

set_option maxRecDepth 8192 in
/-- The operation list is the four segments in order. -/
theorem ops_split : (ValueP.ops : List (HloOp τ sig (Elt F))) = seg1 ++ (seg2 ++ (seg3 ++ seg4)) := rfl

set_option maxRecDepth 8192 in
set_option maxHeartbeats 2000000 in
/-- After the first segment from contents whose two argument buffers hold `x0` and `x1`, the first layer's output
    buffer holds the stage `val_main_v34` of them. -/
theorem seg1_v34 (W : Valuation τ sig (Elt F)) (x0 : (⟨S4x2048x2048, .f32⟩ : BufTy).Contents (Elt F)) (x1 : (⟨S8192x2048, .f32⟩ : BufTy).Contents (Elt F))
    (h0 : W (Proc.devRef .tc main_arg0) = x0) (h1 : W (Proc.devRef .tc main_arg1) = x1) :
    after seg1 W (Proc.devRef .tc main_v34) = val_main_v34 (F := F) x0 x1 := by
  after_results_simp
  simp only [h0, h1, toBuf_main_cst_0, ofBuf_main_cst_0, toBuf_main_call0_v0, ofBuf_main_call0_v0, toBuf_main_call0_v1, ofBuf_main_call0_v1, toBuf_main_v2, ofBuf_main_v2, toBuf_main_v3, ofBuf_main_v3, toBuf_main_v7, ofBuf_main_v7, toBuf_main_v8, ofBuf_main_v8, toBuf_main_c, ofBuf_main_c, toBuf_main_call2_v0, ofBuf_main_call2_v0, toBuf_main_call2_v1, ofBuf_main_call2_v1, toBuf_main_call2_v2, ofBuf_main_call2_v2, toBuf_main_c_2, ofBuf_main_c_2, toBuf_main_call2_v3, ofBuf_main_call2_v3, toBuf_main_call2_v4, ofBuf_main_call2_v4, toBuf_main_v9, ofBuf_main_v9, toBuf_main_cst_5, ofBuf_main_cst_5, toBuf_main_call3_v0, ofBuf_main_call3_v0, toBuf_main_call3_v1, ofBuf_main_call3_v1, toBuf_main_v18, ofBuf_main_v18, toBuf_main_v19, ofBuf_main_v19, toBuf_main_v21, ofBuf_main_v21, toBuf_main_v22, ofBuf_main_v22, toBuf_main_c_6, ofBuf_main_c_6, toBuf_main_call5_v0, ofBuf_main_call5_v0, toBuf_main_call5_v1, ofBuf_main_call5_v1, toBuf_main_call5_v2, ofBuf_main_call5_v2, toBuf_main_c_7, ofBuf_main_c_7, toBuf_main_call5_v3, ofBuf_main_call5_v3, toBuf_main_call5_v4, ofBuf_main_call5_v4, toBuf_main_v23, ofBuf_main_v23]
  simp only [val_main_v0, val_main_cst, val_main_v1, val_main_v2, val_main_cst_0, val_main_call0_v0, val_main_call0_v1, val_main_v3, val_main_cst_1, val_main_v4, val_main_v5, val_main_v6, val_main_v7, val_main_v8, val_main_c, val_main_c_2, val_main_call2_v0, val_main_call2_v1, val_main_call2_v2, val_main_call2_v3, val_main_call2_v4, val_main_v9, val_main_v10, val_main_v11, val_main_v12, val_main_v13, val_main_v14, val_main_cst_3, val_main_v15, val_main_v16, val_main_cst_4, val_main_v17, val_main_v18, val_main_cst_5, val_main_call3_v0, val_main_call3_v1, val_main_v19, val_main_v20, val_main_v21, val_main_v22, val_main_c_6, val_main_c_7, val_main_call5_v0, val_main_call5_v1, val_main_call5_v2, val_main_call5_v3, val_main_call5_v4, val_main_v23, val_main_v24, val_main_v25, val_main_v26, val_main_v27, val_main_v28, val_main_v29, val_main_v30, val_main_v31, val_main_v32, val_main_v33, val_main_v34]

set_option maxRecDepth 8192 in
set_option maxHeartbeats 2000000 in
/-- The first segment does not write the second weights' buffer. -/
theorem seg1_arg2 (V : Valuation τ sig (Elt F)) :
    after seg1 V (Proc.devRef .tc main_arg2) = V (Proc.devRef .tc main_arg2) := by
  after_results_simp <;> rfl

set_option maxRecDepth 8192 in
/-- After the second segment from contents whose `main_v34` is the stage `val_main_v34`, the hidden activations'
    buffer holds the stage `val_main_v47`. -/
theorem seg2_v47 (W : Valuation τ sig (Elt F)) (x0 : (⟨S4x2048x2048, .f32⟩ : BufTy).Contents (Elt F)) (x1 : (⟨S8192x2048, .f32⟩ : BufTy).Contents (Elt F))
    (h34 : W (Proc.devRef .tc main_v34) = val_main_v34 (F := F) x0 x1) :
    after seg2 W (Proc.devRef .tc main_v47) = val_main_v47 (F := F) x0 x1 := by
  after_results_simp
  simp only [h34]
  rfl

set_option maxRecDepth 8192 in
/-- The second segment does not write the second weights' buffer. -/
theorem seg2_arg2 (W : Valuation τ sig (Elt F)) :
    after seg2 W (Proc.devRef .tc main_arg2) = W (Proc.devRef .tc main_arg2) := by
  after_results_simp <;> rfl

set_option maxRecDepth 8192 in
set_option maxHeartbeats 2000000 in
/-- After the third segment from contents whose `main_v47` is the stage `val_main_v47`, the quantized hidden
    activations' buffer holds the stage `val_main_v61`. -/
theorem seg3_v61 (W : Valuation τ sig (Elt F)) (x0 : (⟨S4x2048x2048, .f32⟩ : BufTy).Contents (Elt F)) (x1 : (⟨S8192x2048, .f32⟩ : BufTy).Contents (Elt F))
    (h47 : W (Proc.devRef .tc main_v47) = val_main_v47 (F := F) x0 x1) :
    after seg3 W (Proc.devRef .tc main_v61) = val_main_v61 (F := F) x0 x1 := by
  after_results_simp
  simp only [h47, toBuf_main_cst_13, ofBuf_main_cst_13, toBuf_main_call6_v0, ofBuf_main_call6_v0, toBuf_main_call6_v1, ofBuf_main_call6_v1, toBuf_main_v50, ofBuf_main_v50, toBuf_main_v51, ofBuf_main_v51, toBuf_main_v55, ofBuf_main_v55, toBuf_main_v56, ofBuf_main_v56, toBuf_main_c_15, ofBuf_main_c_15, toBuf_main_call8_v0, ofBuf_main_call8_v0, toBuf_main_call8_v1, ofBuf_main_call8_v1, toBuf_main_call8_v2, ofBuf_main_call8_v2, toBuf_main_c_16, ofBuf_main_c_16, toBuf_main_call8_v3, ofBuf_main_call8_v3, toBuf_main_call8_v4, ofBuf_main_call8_v4, toBuf_main_v57, ofBuf_main_v57]
  simp only [val_main_v48, val_main_cst_12, val_main_v49, val_main_v50, val_main_cst_13, val_main_call6_v0, val_main_call6_v1, val_main_v51, val_main_cst_14, val_main_v52, val_main_v53, val_main_v54, val_main_v55, val_main_v56, val_main_c_15, val_main_c_16, val_main_call8_v0, val_main_call8_v1, val_main_call8_v2, val_main_call8_v3, val_main_call8_v4, val_main_v57, val_main_v58, val_main_v59, val_main_v60, val_main_v61]

set_option maxRecDepth 8192 in
set_option maxHeartbeats 2000000 in
/-- After the third segment, the second layer's quantized weights are the stage `val_main_v77` of the third argument. -/
theorem seg3_v77 (W : Valuation τ sig (Elt F)) (x2 : (⟨S2048x8192, .f32⟩ : BufTy).Contents (Elt F)) (h2 : W (Proc.devRef .tc main_arg2) = x2) :
    after seg3 W (Proc.devRef .tc main_v77) = val_main_v77 (F := F) x2 := by
  subst h2
  after_results_simp <;> rfl

set_option maxRecDepth 8192 in
set_option maxHeartbeats 2000000 in
/-- After the third segment, the second layer's scale row is the stage `val_main_v78` of the third argument. -/
theorem seg3_v78 (W : Valuation τ sig (Elt F)) (x2 : (⟨S2048x8192, .f32⟩ : BufTy).Contents (Elt F)) (h2 : W (Proc.devRef .tc main_arg2) = x2) :
    after seg3 W (Proc.devRef .tc main_v78) = val_main_v78 (F := F) x2 := by
  subst h2
  after_results_simp <;> rfl

/-- After the last segment from contents whose `main_v61`, `main_v77`, `main_v78` are their stages, the result
    buffer holds the last stage. -/
theorem seg4_result (W : Valuation τ sig (Elt F)) (x0 : (⟨S4x2048x2048, .f32⟩ : BufTy).Contents (Elt F)) (x1 : (⟨S8192x2048, .f32⟩ : BufTy).Contents (Elt F)) (x2 : (⟨S2048x8192, .f32⟩ : BufTy).Contents (Elt F))
    (h61 : W (Proc.devRef .tc main_v61) = val_main_v61 (F := F) x0 x1)
    (h77 : W (Proc.devRef .tc main_v77) = val_main_v77 (F := F) x2)
    (h78 : W (Proc.devRef .tc main_v78) = val_main_v78 (F := F) x2) :
    after seg4 W (Proc.devRef .tc main_v82) = val_main_v82 (F := F) x0 x1 x2 := by
  after_results_simp
  simp only [h61, h77, h78]
  rfl

/-- From any contents `V`, the result buffer after all 135 operations holds the last stage of the read-back at
    `V`'s three argument buffers. -/
theorem after_ops_result_of (V : Valuation τ sig (Elt F)) :
    after (ValueP.ops (F := F)) V (Proc.devRef .tc main_v82)
      = val_main_v82 (F := F) (V (Proc.devRef .tc main_arg0)) (V (Proc.devRef .tc main_arg1)) (V (Proc.devRef .tc main_arg2)) := by
  rw [ops_split, after_append, after_append, after_append]
  exact seg4_result _ _ _ _
    (seg3_v61 _ _ _ (seg2_v47 _ _ _ (seg1_v34 V _ _ rfl rfl)))
    (seg3_v77 _ _ ((seg2_arg2 _).trans (seg1_arg2 V)))
    (seg3_v78 _ _ ((seg2_arg2 _).trans (seg1_arg2 V)))

/-- The same at a launch's contents on device `c`, the arguments spelt as the memory's buffers. -/
theorem after_ops_result (m : (ℓ : Loc nD τ sig) → Buf (Elt F) ℓ) (c : Dev nD) :
    after (ValueP.ops (F := F)) (launchContents m c) (Proc.devRef .tc main_v82)
      = val_main_v82 (F := F) (m ((c.tc : Thread nD τ).loc main_arg0)) (m ((c.tc : Thread nD τ).loc main_arg1))
          (m ((c.tc : Thread nD τ).loc main_arg2)) :=
  after_ops_result_of (launchContents m c)

end Cert.ReferenceIdeal.RefAfter

end
-- ==== Proof.RefSpec.lean ====
/-
  The network as the reference spells it: the quantizers in the straight-through form — an activation as
  `x + (q(x) - x)`, a ternary weight as `(w + (t(w)·σ - w)) / σ` — and the cubic of GELU as `((a·o)·o)·o`.
-/
import proofs.«169359_j2439541424639_1_alg».proof.Proof.Spec

noncomputable section

namespace BitMlp

open Idealize.ShloMosaic

/-! ## The reference's spelling -/

def actqRef {K : ℕ} (r : Fin K → EReal) (k : Fin K) : EReal := r k + (actq r k - r k)
def ternRef (σ w : EReal) : EReal := Ideal.div (w + (tern σ w * σ - w)) σ
def geluRef (o : EReal) : EReal :=
  (lit 0x3F000000#32 * o) * (lit 0x3F800000#32 + Ideal.tanh (lit 0x3F4C422A#32 * (o + ((lit 0x3D372713#32 * o) * o) * o)))
def linRef {M K N : ℕ} (A : Fin M → Fin K → EReal) (Wq : Fin N → Fin K → EReal) (S : Fin N → EReal)
    (r : Fin M) (n : Fin N) : EReal :=
  (∑ k, actqRef (A r) k * Wq n k) * S n
def w1qRef (W1 : Fin 8192 → Fin 2048 → EReal) (h : Fin 8192) (d : Fin 2048) : EReal := ternRef (s1 W1 h) (W1 h d)
def w2qRef (W2 : Fin 2048 → Fin 8192 → EReal) (n : Fin 2048) (h : Fin 8192) : EReal := ternRef (s2 W2 n) (W2 n h)
def hiddenRef (X : Fin 8192 → Fin 2048 → EReal) (W1 : Fin 8192 → Fin 2048 → EReal) (r : Fin 8192) (h : Fin 8192) : EReal :=
  geluRef (linRef X (w1qRef W1) (s1 W1) r h)
def mlpRef (X : Fin 8192 → Fin 2048 → EReal) (W1 : Fin 8192 → Fin 2048 → EReal) (W2 : Fin 2048 → Fin 8192 → EReal)
    (r : Fin 8192) (n : Fin 2048) : EReal :=
  linRef (hiddenRef X W1) (w2qRef W2) (s2 W2) r n

end BitMlp

end
-- ==== Proof.LibRealValued.lean ====
/-
  Extended reals that are real numbers.

  On the extended reals the laws that cancel or distribute fail at the infinities, so a value proof that needs one
  first shows that the quantities involved are real. This file has the predicate "is a real number", its closure under
  the operations float programs are read with (sum, product, negation, maximum, absolute value, finite sums, a quotient
  by a nonzero real), and two uses: adding a real v to (q − v) gives q, for every extended real q (a straight-through
  quantisation step "v + (q − v)" returns q); and an entry whose absolute value compares below +∞, as a finiteness
  precondition states it, is a real number.
-/
import Idealize.ShloMosaic.PureOps.Ideal

noncomputable section

namespace Cert.LibRealValued

open Idealize.ShloMosaic

/-- An extended real that is a real number. -/
def IsReal (a : EReal) : Prop := ∃ r : ℝ, a = (r : EReal)

/-- The inclusion of the reals preserves maxima. -/
theorem coe_max (r s : ℝ) : ((Max.max r s : ℝ) : EReal) = Max.max (r : EReal) (s : EReal) :=
  EReal.coe_strictMono.monotone.map_max

theorem IsReal.coe (r : ℝ) : IsReal (r : EReal) := ⟨r, rfl⟩

theorem IsReal.add {a b : EReal} : IsReal a → IsReal b → IsReal (a + b)
  | ⟨r, hr⟩, ⟨s, hs⟩ => ⟨r + s, by rw [hr, hs, EReal.coe_add]⟩

theorem IsReal.mul {a b : EReal} : IsReal a → IsReal b → IsReal (a * b)
  | ⟨r, hr⟩, ⟨s, hs⟩ => ⟨r * s, by rw [hr, hs, EReal.coe_mul]⟩

theorem IsReal.neg {a : EReal} : IsReal a → IsReal (-a)
  | ⟨r, hr⟩ => ⟨-r, by rw [hr, EReal.coe_neg]⟩

theorem IsReal.max {a b : EReal} : IsReal a → IsReal b → IsReal (Max.max a b)
  | ⟨r, hr⟩, ⟨s, hs⟩ => ⟨Max.max r s, by rw [hr, hs, coe_max]⟩

/-- The absolute value, as the ideal reading of a float absolute value spells it. -/
theorem IsReal.abs {a : EReal} (h : IsReal a) : IsReal (Max.max a (-a)) := h.max h.neg

/-- A finite sum of reals is real. -/
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.lt_top {a : EReal} : IsReal a → a < ⊤
  | ⟨r, hr⟩ => hr ▸ EReal.coe_lt_top r

/-- A quotient by a nonzero real is real. -/
theorem IsReal.div {a : EReal} {y : ℝ} (ha : IsReal a) (hy : y ≠ 0) : IsReal (Ideal.div a (y : EReal)) := by
  rw [Ideal.div_coe hy]; exact ha.mul ⟨_, rfl⟩

/-- Adding a real number to "q minus that number" gives q, for any extended real q. -/
theorem add_sub_cancel_real {a : EReal} (ha : IsReal a) (q : EReal) : a + (q - a) = q := by
  obtain ⟨r, rfl⟩ := ha
  induction q using EReal.rec with
  | bot => simp
  | top => simp
  | coe s => rw [← EReal.coe_sub, ← EReal.coe_add]; congr 1; ring

/-- An f32 entry whose absolute value compares below +∞ (the comparison a finiteness precondition makes, at the ideal
    values) is a real number. -/
theorem real_of_abs_lt_inf (a : Ideal .f32)
    (h : FloatOps.cmpf .olt (FloatOps.hostAbsf a) (FloatOps.ofBits (F := Ideal) .f32 0x7F800000#32) = 1#1) : IsReal a := by
  have htop : Ideal.ofBits .f32 0x7F800000#32 = ⊤ := by simp [Ideal.ofBits, Ideal.ieee]
  change Ideal.cmp .olt (Max.max (a : EReal) (-(a : EReal))) (Ideal.ofBits .f32 0x7F800000#32) = 1#1 at h
  rw [htop] at h
  unfold Ideal.cmp at h
  have hlt : Max.max (a : EReal) (-(a : EReal)) < ⊤ := by
    by_contra hn
    simp [hn] at h
  rw [max_lt_iff] at hlt
  induction a using EReal.rec with
  | bot => simp at hlt
  | top => simp at hlt
  | coe r => exact ⟨r, rfl⟩

end Cert.LibRealValued

end
-- ==== Proof.Algebra.lean ====
/-
  The reference spells the quantizers in the straight-through form: an activation as `x + (q(x) - x)`, a ternary
  weight as `(w + (t(w)·σ - w)) / σ`, and the cubic of GELU as `((a·o)·o)·o`.  On real inputs these are `q(x)`, `t(w)` and
  `a·((o·o)·o)`: `x + (y - x) = y` holds on the extended reals as soon as `x` is a real number (it fails at `x = ±∞`), and
  `(q·σ)/σ = q` as soon as `σ` is a nonzero real.  The first needs the HIDDEN activations to be real numbers too, so this
  module also shows that every intermediate value of the first layer is a real number when the inputs are.
-/
import proofs.«169359_j2439541424639_1_alg».proof.Proof.RefSpec
import proofs.«169359_j2439541424639_1_alg».proof.Proof.LibRealValued

noncomputable section

namespace BitMlp

open Idealize.ShloMosaic Cert.LibRealValued

/-! ## The constants -/

theorem lit_zero : lit 0x00000000#32 = 0 := Ideal.ofBits_zero_f32
theorem lit_ninf : lit 0xFF800000#32 = ⊥ := by simp [lit, Ideal.ofBits, Ideal.ieee]
theorem lit_127 : lit 0x42FE0000#32 = ((127 : ℝ) : EReal) := by
  simp [lit, Ideal.ofBits, Ideal.ieee, -EReal.coe_mul]; norm_num
theorem lit_m128 : lit 0xC3000000#32 = ((-128 : ℝ) : EReal) := by
  simp [lit, Ideal.ofBits, Ideal.ieee, -EReal.coe_mul]; norm_num
theorem lit_one : lit 0x3F800000#32 = ((1 : ℝ) : EReal) := by
  simp [lit, Ideal.ofBits, Ideal.ieee, -EReal.coe_mul]; norm_num
theorem lit_mone : lit 0xBF800000#32 = ((-1 : ℝ) : EReal) := by
  simp [lit, Ideal.ofBits, Ideal.ieee, -EReal.coe_mul]; norm_num
theorem lit_2048 : lit 0x45000000#32 = ((2048 : ℝ) : EReal) := by
  simp [lit, Ideal.ofBits, Ideal.ieee, -EReal.coe_mul]; norm_num
theorem lit_8192 : lit 0x46000000#32 = ((8192 : ℝ) : EReal) := by
  simp [lit, Ideal.ofBits, Ideal.ieee, -EReal.coe_mul]; norm_num
theorem lit_half : lit 0x3F000000#32 = ((1 / 2 : ℝ) : EReal) := by
  simp [lit, Ideal.ofBits, Ideal.ieee, -EReal.coe_mul]; norm_num

theorem lit_eps : lit 0x3727C5AC#32 = ((10995116 * (2 ^ 40)⁻¹ : ℝ) : EReal) := by
  simp [lit, Ideal.ofBits, Ideal.ieee, -EReal.coe_mul]
theorem lit_tanh_scale : lit 0x3F4C422A#32 = ((13386282 * (2 ^ 24)⁻¹ : ℝ) : EReal) := by
  simp [lit, Ideal.ofBits, Ideal.ieee, -EReal.coe_mul]
theorem lit_cubic : lit 0x3D372713#32 = ((12003091 * (2 ^ 28)⁻¹ : ℝ) : EReal) := by
  simp [lit, Ideal.ofBits, Ideal.ieee, -EReal.coe_mul]

/-- The floor `ε` is a positive real. -/
theorem lit_eps_pos : ∃ e : ℝ, 0 < e ∧ lit 0x3727C5AC#32 = (e : EReal) :=
  ⟨10995116 * (2 ^ 40)⁻¹, by positivity, lit_eps⟩

/-! ## Real values -/

theorem isReal_zero : IsReal (0 : EReal) := ⟨0, EReal.coe_zero.symm⟩

theorem isReal_min {a b : EReal} : IsReal a → IsReal b → IsReal (Min.min a b)
  | ⟨r, hr⟩, ⟨s, hs⟩ => ⟨Min.min r s, by rw [hr, hs]; exact (EReal.coe_strictMono.monotone.map_min).symm⟩

theorem isReal_tanh {a : EReal} : IsReal a → IsReal (Ideal.tanh a)
  | ⟨r, hr⟩ => ⟨Real.tanh r, by rw [hr]; rfl⟩

theorem isReal_absE {a : EReal} (h : IsReal a) : IsReal (absE a) := h.abs

/-- Rounding and clamping between two reals gives a real, whatever is rounded. -/
theorem rclamp_real {lo hi : EReal} (hlo : IsReal lo) (hhi : IsReal hi) (z : EReal) : IsReal (rclamp lo hi z) := by
  unfold rclamp
  induction z using EReal.rec with
  | bot => rw [Ideal.liftRound_bot, max_bot_right]; exact isReal_min hhi hlo
  | top => rw [Ideal.liftRound_top, max_top_right, min_top_right]; exact hhi
  | coe x => rw [Ideal.liftRound_coe]; exact isReal_min hhi (hlo.max (IsReal.coe _))

/-- A ternary weight is a real. -/
theorem tern_real (σ w : EReal) : IsReal (tern σ w) :=
  rclamp_real (lit_mone ▸ IsReal.coe _) (lit_one ▸ IsReal.coe _) _

/-- The mean magnitude of a real row, floored at `ε`, is a positive real. -/
theorem wstep_pos {K : ℕ} (n : BitVec 32) (r : Fin K → EReal) {y : ℝ} (hy : y ≠ 0) (hn : lit n = (y : EReal))
    (hr : ∀ k, IsReal (r k)) : ∃ s : ℝ, 0 < s ∧ wstep n r = (s : EReal) := by
  obtain ⟨e, he, hε⟩ := lit_eps_pos
  have h1 : IsReal (Ideal.div (lit 0x00000000#32 + ∑ k, absE (r k)) (lit n)) := by
    rw [hn, lit_zero]
    exact IsReal.div (isReal_zero.add (IsReal.sum _ _ (fun k => isReal_absE (hr k)))) hy
  obtain ⟨d, hd⟩ := h1
  refine ⟨Max.max e d, lt_max_of_lt_left he, ?_⟩
  unfold wstep
  rw [hε, hd, coe_max]

theorem s1_pos (W1 : Fin 8192 → Fin 2048 → EReal) (hW1 : ∀ h d, IsReal (W1 h d)) (h : Fin 8192) :
    ∃ s : ℝ, 0 < s ∧ s1 W1 h = (s : EReal) :=
  wstep_pos _ _ (by norm_num : (2048 : ℝ) ≠ 0) lit_2048 (hW1 h)

theorem s2_pos (W2 : Fin 2048 → Fin 8192 → EReal) (hW2 : ∀ n h, IsReal (W2 n h)) (n : Fin 2048) :
    ∃ s : ℝ, 0 < s ∧ s2 W2 n = (s : EReal) :=
  wstep_pos _ _ (by norm_num : (8192 : ℝ) ≠ 0) lit_8192 (hW2 n)

/-- The largest magnitude of a real row is below `+∞`. -/
theorem amax_lt_top {K : ℕ} (r : Fin K → EReal) (hr : ∀ k, IsReal (r k)) : amax r < ⊤ := by
  unfold amax
  rw [Finset.fold_max_lt]
  refine ⟨by rw [lit_ninf]; exact bot_lt_top, fun k _ => (isReal_absE (hr k)).lt_top⟩

/-- The step reciprocal `127 / max(ε, a)` is a nonzero real as soon as `a < +∞`. -/
theorem qstep_ne_zero {a : EReal} (ha : a < ⊤) : ∃ s : ℝ, s ≠ 0 ∧ qstep a = (s : EReal) := by
  obtain ⟨e, he, hε⟩ := lit_eps_pos
  have hm : ∃ m : ℝ, 0 < m ∧ Max.max (lit 0x3727C5AC#32) a = (m : EReal) := by
    rw [hε]
    induction a using EReal.rec with
    | bot => exact ⟨e, he, max_bot_right _⟩
    | top => exact absurd ha (lt_irrefl _)
    | coe x => exact ⟨Max.max e x, lt_max_of_lt_left he, (coe_max e x).symm⟩
  obtain ⟨m, hm0, hm⟩ := hm
  refine ⟨127 * (1 / m), by positivity, ?_⟩
  unfold qstep
  rw [hm, Ideal.div_coe hm0.ne', lit_127, EReal.coe_mul]

/-- A quantized activation is a real when the step reciprocal is a nonzero real. -/
theorem quant_real {s : ℝ} (hs : s ≠ 0) (x : EReal) : IsReal (quant (s : EReal) x) := by
  unfold quant
  exact IsReal.div (rclamp_real (lit_m128 ▸ IsReal.coe _) (lit_127 ▸ IsReal.coe _) _) hs

theorem actq_real {K : ℕ} (r : Fin K → EReal) (hr : ∀ k, IsReal (r k)) (k : Fin K) : IsReal (actq r k) := by
  obtain ⟨s, hs, h⟩ := qstep_ne_zero (amax_lt_top r hr)
  unfold actq
  rw [h]
  exact quant_real hs _

/-- A layer's output is real when its input rows and scales are real and its weights are real. -/
theorem lin_real {M K N : ℕ} (A : Fin M → Fin K → EReal) (Wq : Fin N → Fin K → EReal) (S : Fin N → EReal)
    (r : Fin M) (n : Fin N) (hA : ∀ k, IsReal (A r k)) (hW : ∀ k, IsReal (Wq n k)) (hS : IsReal (S n)) :
    IsReal (lin A Wq S r n) := by
  unfold lin
  exact (IsReal.sum _ _ (fun k => (actq_real (A r) hA k).mul (hW k))).mul hS

/-- GELU of a real is real. -/
theorem gelu_real {o : EReal} (ho : IsReal o) : IsReal (gelu o) := by
  unfold gelu
  have hc : IsReal (lit 0x3F4C422A#32) := lit_tanh_scale ▸ IsReal.coe _
  have ha : IsReal (lit 0x3D372713#32) := lit_cubic ▸ IsReal.coe _
  have hh : IsReal (lit 0x3F000000#32) := lit_half ▸ IsReal.coe _
  have h1 : IsReal (lit 0x3F800000#32) := lit_one ▸ IsReal.coe _
  exact (hh.mul ho).mul (h1.add (isReal_tanh (hc.mul (ho.add (ha.mul ((ho.mul ho).mul ho))))))

theorem hidden_real (X : Fin 8192 → Fin 2048 → EReal) (W1 : Fin 8192 → Fin 2048 → EReal)
    (hX : ∀ r d, IsReal (X r d)) (hW1 : ∀ h d, IsReal (W1 h d)) (r : Fin 8192) (h : Fin 8192) :
    IsReal (hidden X W1 r h) := by
  unfold hidden
  obtain ⟨s, _, hs⟩ := s1_pos W1 hW1 h
  exact gelu_real (lin_real X (w1q W1) (s1 W1) r h (hX r) (fun d => tern_real _ _) (hs ▸ IsReal.coe s))

/-! ## The reference's spelling is the specification's, on real inputs -/

theorem actqRef_eq {K : ℕ} (r : Fin K → EReal) (k : Fin K) (h : IsReal (r k)) : actqRef r k = actq r k :=
  add_sub_cancel_real h _

/-- `(q·σ)/σ = q` for a nonzero real `σ` and any extended real `q`. -/
theorem div_mul_cancel_real (q : EReal) {s : ℝ} (hs : s ≠ 0) : Ideal.div (q * (s : EReal)) (s : EReal) = q := by
  rw [Ideal.div_coe hs, mul_assoc, ← EReal.coe_mul, mul_one_div_cancel hs, EReal.coe_one, mul_one]

theorem ternRef_eq {σ w : EReal} {s : ℝ} (hs : s ≠ 0) (hσ : σ = (s : EReal)) (hw : IsReal w) :
    ternRef σ w = tern σ w := by
  unfold ternRef
  rw [add_sub_cancel_real hw]
  subst hσ
  exact div_mul_cancel_real _ hs

theorem geluRef_eq (o : EReal) : geluRef o = gelu o := by
  unfold geluRef gelu
  have h : ((lit 0x3D372713#32 * o) * o) * o = lit 0x3D372713#32 * ((o * o) * o) := by
    rw [mul_assoc, mul_assoc, mul_assoc]
  rw [h]

theorem linRef_eq {M K N : ℕ} (A : Fin M → Fin K → EReal) (Wq' Wq : Fin N → Fin K → EReal) (S : Fin N → EReal)
    (r : Fin M) (n : Fin N) (hA : ∀ k, IsReal (A r k)) (hW : ∀ k, Wq' n k = Wq n k) :
    linRef A Wq' S r n = lin A Wq S r n := by
  unfold linRef lin
  congr 1
  exact Finset.sum_congr rfl (fun k _ => by rw [actqRef_eq _ _ (hA k), hW k])

theorem hiddenRef_eq (X : Fin 8192 → Fin 2048 → EReal) (W1 : Fin 8192 → Fin 2048 → EReal)
    (hX : ∀ r d, IsReal (X r d)) (hW1 : ∀ h d, IsReal (W1 h d)) : hiddenRef X W1 = hidden X W1 := by
  funext r h
  unfold hiddenRef hidden
  rw [geluRef_eq]
  congr 1
  obtain ⟨s, hs0, hs⟩ := s1_pos W1 hW1 h
  exact linRef_eq X (w1qRef W1) (w1q W1) (s1 W1) r h (hX r) (fun d => ternRef_eq hs0.ne' hs (hW1 h d))

/-- On real inputs the reference's network is the specification's. -/
theorem mlpRef_eq_mlp (X : Fin 8192 → Fin 2048 → EReal) (W1 : Fin 8192 → Fin 2048 → EReal)
    (W2 : Fin 2048 → Fin 8192 → EReal) (hX : ∀ r d, IsReal (X r d)) (hW1 : ∀ h d, IsReal (W1 h d))
    (hW2 : ∀ n h, IsReal (W2 n h)) (r : Fin 8192) (n : Fin 2048) : mlpRef X W1 W2 r n = mlp X W1 W2 r n := by
  unfold mlpRef mlp
  rw [hiddenRef_eq X W1 hX hW1]
  obtain ⟨s, hs0, hs⟩ := s2_pos W2 hW2 n
  exact linRef_eq (hidden X W1) (w2qRef W2) (w2q W2) (s2 W2) r n (hidden_real X W1 hX hW1 r)
    (fun h => ternRef_eq hs0.ne' hs (hW2 n h))

end BitMlp

end
-- ==== Proof.RefLayer1.lean ====
/-
  The first layer of the reference, read at an index at the ideal values.

  The weight scale of hidden unit h is the mean magnitude of row h of the first weights, floored at ε; the ternary weight
  (h, d) is the straight-through form of the rounded, clamped quotient by that scale; the activation (b, s, d) is the
  straight-through form of the row's quantization against its largest magnitude; the linear layer at (b, s, h) is the
  sum over d of activation times ternary weight, times the scale; and the hidden value is the tanh form of GELU of it.
-/
import proofs.«169359_j2439541424639_1_alg».proof.Proof.RefRead
import proofs.«169359_j2439541424639_1_alg».proof.Proof.RefSpec
import proofs.«169359_j2439541424639_1_alg».proof.Proof.Index
import proofs.«169359_j2439541424639_1_alg».proof.Proof.Algebra
import proofs.«169359_j2439541424639_1_alg».proof.Proof.LibRowMax

noncomputable section

namespace Cert.ReferenceIdeal.RefLayer1

open Cert.ReferenceIdeal Cert.ReferenceIdeal.Gen Idealize.ShloMosaic Idealize.ShloMosaic.ValueIdx

/-! ## The weight scale -/

/-- The scale column at row h: the mean magnitude of weight row h, floored at ε. -/
theorem scale1_apply (x1 : (⟨S8192x2048, .f32⟩ : BufTy).Contents (Elt Ideal)) (h : Fin 8192) :
    ReadP.val_main_v19 (F := Ideal) x1 (ix2 h (0 : Fin 1)) = BitMlp.s1 (BitMlp.matOf x1) h := by
  rw [ReadP.val_main_v19_apply, ReadP.val_main_call3_v1_apply, ReadP.val_main_call3_v0_apply,
    ReadP.val_main_cst_5_apply, ReadP.val_main_v18_apply, ReadP.val_main_v16_apply, ReadP.val_main_v15_apply,
    ReadP.val_main_v17_apply, ReadP.val_main_cst_4_apply, ReadP.val_main_cst_3_apply]
  have e : ∀ k : Fin 2048, ReadP.val_main_v14 (F := Ideal) x1
      (ReadP.idx_main_v15 (ReadP.idx_main_v16 (ix2 h (0 : Fin 1))) k) = BitMlp.absE (BitMlp.matOf x1 h k) := fun k => by
    have ei : ReadP.idx_main_v15 (ReadP.idx_main_v16 (ix2 h (0 : Fin 1))) k = ix2 h k :=
      funext fun a => Fin.ext (by match a with | ⟨0, _⟩ => rfl | ⟨1, _⟩ => rfl)
    rw [ReadP.val_main_v14_apply, ei]
    rfl
  rw [Finset.sum_congr rfl fun k _ => e k]
  rfl

/-! ## The ternary weight -/

/-- The integer 1 converted is the value of the pattern of 1.0. -/
theorem sitofp_one : FloatOps.sitofp (F := Ideal) .f32 (1#32 : BitVec 32) = BitMlp.lit 0x3F800000#32 := by
  have e : (1#32 : BitVec 32).toInt = 1 := by decide
  rw [BitMlp.lit_one]
  show (((1#32 : BitVec 32).toInt : ℝ) : EReal) = _
  rw [e]; norm_num

/-- The integer -1 converted is the value of the pattern of -1.0. -/
theorem sitofp_mone : FloatOps.sitofp (F := Ideal) .f32 (4294967295#32 : BitVec 32) = BitMlp.lit 0xBF800000#32 := by
  have e : (4294967295#32 : BitVec 32).toInt = -1 := by decide
  rw [BitMlp.lit_mone]
  show (((4294967295#32 : BitVec 32).toInt : ℝ) : EReal) = _
  rw [e]; norm_num

/-- The reference's ternary weight at (h, d): the straight-through form of the rounded, clamped quotient by the scale. -/
theorem w1q_apply (x1 : (⟨S8192x2048, .f32⟩ : BufTy).Contents (Elt Ideal)) (h : Fin 8192) (d : Fin 2048) :
    ReadP.val_main_v29 (F := Ideal) x1 (ix2 h d) = BitMlp.w1qRef (BitMlp.matOf x1) h d := by
  have e20 : ReadP.idx_main_v20 (ix2 h d) = ix2 h (0 : Fin 1) :=
    funext fun a => Fin.ext (by match a with | ⟨0, _⟩ => rfl | ⟨1, _⟩ => rfl)
  have e24 : ReadP.idx_main_v24 (ix2 h d) = ix2 h (0 : Fin 1) :=
    funext fun a => Fin.ext (by match a with | ⟨0, _⟩ => rfl | ⟨1, _⟩ => rfl)
  have e28 : ReadP.idx_main_v28 (ix2 h d) = ix2 h (0 : Fin 1) :=
    funext fun a => Fin.ext (by match a with | ⟨0, _⟩ => rfl | ⟨1, _⟩ => rfl)
  rw [ReadP.val_main_v29_apply, ReadP.val_main_v28_apply, e28, ReadP.val_main_v27_apply, ReadP.val_main_v26_apply,
    ReadP.val_main_v25_apply, ReadP.val_main_v24_apply, e24, ReadP.val_main_v23_apply, ReadP.val_main_call5_v4_apply,
    ReadP.val_main_call5_v3_apply, ReadP.val_main_c_7_apply, sitofp_one, ReadP.val_main_call5_v2_apply,
    ReadP.val_main_call5_v1_apply, ReadP.val_main_call5_v0_apply, ReadP.val_main_c_6_apply, sitofp_mone,
    ReadP.val_main_v22_apply, ReadP.val_main_v21_apply, ReadP.val_main_v20_apply, e20, scale1_apply]
  rfl

/-! ## The activation -/

theorem reduces_last : (⟨3, ![4, 2048, 2048]⟩ : Shape).Reduces [2] ⟨2, ![4, 2048]⟩ := by decide

/-- The largest magnitude of the feature row at batch b, position s. -/
theorem rowmax_apply (x0 : (⟨S4x2048x2048, .f32⟩ : BufTy).Contents (Elt Ideal)) (b : Fin 4) (s : Fin 2048) :
    ReadP.val_main_v1 (F := Ideal) x0 (ix2 b s) = BitMlp.amax fun d => x0 (ix3 b s d) := by
  unfold ReadP.val_main_v1
  refine (Cert.LibRowMax.hostReduce_maximumf_last_apply _ _ reducesTo_S4x2048x2048_S4x2048_d2 reduces_last h_S_ b s).trans ?_
  rfl

/-- The activation step's reciprocal at batch b, position s: 127 over the row's largest magnitude floored at ε. -/
theorem qstep_apply (x0 : (⟨S4x2048x2048, .f32⟩ : BufTy).Contents (Elt Ideal)) (b : Fin 4) (s : Fin 2048) :
    ReadP.val_main_v5 (F := Ideal) x0 (ix3 b s (0 : Fin 1)) = BitMlp.qstep (BitMlp.amax fun d => x0 (ix3 b s d)) := by
  have e2 : ReadP.idx_main_v2 (ix3 b s (0 : Fin 1)) = ix2 b s :=
    funext fun a => Fin.ext (by match a with | ⟨0, _⟩ => rfl | ⟨1, _⟩ => rfl)
  rw [ReadP.val_main_v5_apply, ReadP.val_main_v4_apply, ReadP.val_main_cst_1_apply, ReadP.val_main_v3_apply,
    ReadP.val_main_call0_v1_apply, ReadP.val_main_call0_v0_apply, ReadP.val_main_cst_0_apply, ReadP.val_main_v2_apply,
    e2, rowmax_apply]
  rfl

/-- The integer 127 converted is the value of the pattern of 127.0. -/
theorem sitofp_127 : FloatOps.sitofp (F := Ideal) .f32 (127#32 : BitVec 32) = BitMlp.lit 0x42FE0000#32 := by
  have e : (127#32 : BitVec 32).toInt = 127 := by decide
  rw [BitMlp.lit_127]
  show (((127#32 : BitVec 32).toInt : ℝ) : EReal) = _
  rw [e]; norm_num

/-- The integer -128 converted is the value of the pattern of -128.0. -/
theorem sitofp_m128 : FloatOps.sitofp (F := Ideal) .f32 (4294967168#32 : BitVec 32) = BitMlp.lit 0xC3000000#32 := by
  have e : (4294967168#32 : BitVec 32).toInt = -128 := by decide
  rw [BitMlp.lit_m128]
  show (((4294967168#32 : BitVec 32).toInt : ℝ) : EReal) = _
  rw [e]; norm_num

/-- The reference's activation at (b, s, d): the straight-through form of the row's quantization. -/
theorem actq_apply (x0 : (⟨S4x2048x2048, .f32⟩ : BufTy).Contents (Elt Ideal)) (b : Fin 4) (s : Fin 2048) (d : Fin 2048) :
    ReadP.val_main_v13 (F := Ideal) x0 (ix3 b s d) = BitMlp.actqRef (fun d => x0 (ix3 b s d)) d := by
  have e6 : ReadP.idx_main_v6 (ix3 b s d) = ix3 b s (0 : Fin 1) :=
    funext fun a => Fin.ext (by match a with | ⟨0, _⟩ => rfl | ⟨1, _⟩ => rfl | ⟨2, _⟩ => rfl)
  have e10 : ReadP.idx_main_v10 (ix3 b s d) = ix3 b s (0 : Fin 1) :=
    funext fun a => Fin.ext (by match a with | ⟨0, _⟩ => rfl | ⟨1, _⟩ => rfl | ⟨2, _⟩ => rfl)
  rw [ReadP.val_main_v13_apply, ReadP.val_main_v12_apply, ReadP.val_main_v11_apply, ReadP.val_main_v10_apply, e10,
    ReadP.val_main_v9_apply, ReadP.val_main_call2_v4_apply, ReadP.val_main_call2_v3_apply, ReadP.val_main_c_2_apply,
    sitofp_127, ReadP.val_main_call2_v2_apply, ReadP.val_main_call2_v1_apply, ReadP.val_main_call2_v0_apply,
    ReadP.val_main_c_apply, sitofp_m128, ReadP.val_main_v8_apply, ReadP.val_main_v7_apply, ReadP.val_main_v6_apply, e6,
    qstep_apply]
  rfl

/-! ## The linear layer and the hidden activations -/

/-- The first linear layer at (b, s, h): the sum over features of activation times ternary weight, times the scale. -/
theorem lin1_apply (x0 : (⟨S4x2048x2048, .f32⟩ : BufTy).Contents (Elt Ideal))
    (x1 : (⟨S8192x2048, .f32⟩ : BufTy).Contents (Elt Ideal)) (b : Fin 4) (s : Fin 2048) (h : Fin 8192) :
    ReadP.val_main_v34 (F := Ideal) x0 x1 (ix3 b s h)
      = BitMlp.linRef (BitMlp.rowsOf x0) (BitMlp.w1qRef (BitMlp.matOf x1)) (BitMlp.s1 (BitMlp.matOf x1))
          (BitMlp.flatRow b s) h := by
  have e33 : ReadP.idx_main_v30 (ReadP.idx_main_v32 (ReadP.idx_main_v33 (ix3 b s h))) = ix2 h (0 : Fin 1) :=
    funext fun a => Fin.ext (by match a with | ⟨0, _⟩ => rfl | ⟨1, _⟩ => rfl)
  have el : ∀ k : Fin 2048, ReadP.lidx_main_v31 (ix3 b s h) k = ix3 b s k := fun k =>
    funext fun a => Fin.ext (by match a with | ⟨0, _⟩ => rfl | ⟨1, _⟩ => rfl | ⟨2, _⟩ => rfl)
  have er : ∀ k : Fin 2048, ReadP.ridx_main_v31 (ix3 b s h) k = ix2 h k := fun k =>
    funext fun a => Fin.ext (by match a with | ⟨0, _⟩ => rfl | ⟨1, _⟩ => rfl)
  have et : ∀ k : Fin 2048,
      ReadP.val_main_v13 (F := Ideal) x0 (ReadP.lidx_main_v31 (ix3 b s h) k)
          * ReadP.val_main_v29 (F := Ideal) x1 (ReadP.ridx_main_v31 (ix3 b s h) k)
        = BitMlp.actqRef (BitMlp.rowsOf x0 (BitMlp.flatRow b s)) k * BitMlp.w1qRef (BitMlp.matOf x1) h k := fun k => by
    rw [el, er, actq_apply, w1q_apply, BitMlp.rowsOf_flatRow]
  rw [ReadP.val_main_v34_apply, ReadP.val_main_v33_apply, ReadP.val_main_v32_apply, ReadP.val_main_v30_apply, e33,
    scale1_apply, ReadP.val_main_v31_apply, Finset.sum_congr rfl fun k _ => et k]
  rfl

/-- The hidden activation at (b, s, h): the tanh form of GELU, with the reference's cubic, of the first linear layer. -/
theorem hidden_apply (x0 : (⟨S4x2048x2048, .f32⟩ : BufTy).Contents (Elt Ideal))
    (x1 : (⟨S8192x2048, .f32⟩ : BufTy).Contents (Elt Ideal)) (b : Fin 4) (s : Fin 2048) (h : Fin 8192) :
    ReadP.val_main_v47 (F := Ideal) x0 x1 (ix3 b s h)
      = BitMlp.hiddenRef (BitMlp.rowsOf x0) (BitMlp.matOf x1) (BitMlp.flatRow b s) h := by
  rw [ReadP.val_main_v47_apply, ReadP.val_main_v36_apply, ReadP.val_main_v35_apply, ReadP.val_main_cst_8_apply,
    ReadP.val_main_v46_apply, ReadP.val_main_v45_apply, ReadP.val_main_cst_11_apply, ReadP.val_main_v44_apply,
    ReadP.val_main_v43_apply, ReadP.val_main_v42_apply, ReadP.val_main_cst_10_apply, ReadP.val_main_v41_apply,
    ReadP.val_main_v40_apply, ReadP.val_main_v39_apply, ReadP.val_main_v38_apply, ReadP.val_main_v37_apply,
    ReadP.val_main_cst_9_apply, lin1_apply]
  rfl

end Cert.ReferenceIdeal.RefLayer1

end
-- ==== Proof.RefLayer2.lean ====
/-
  The second layer of the reference, read at an index, at the ideal values.

  With the hidden activations H (an array [4, 2048, 8192]) left as they stand, the reference's last stages compute, at
  batch b, position s, output feature n:  (Σₖ a(H b s)ₖ · t(W₂ n)ₖ) · σₙ,  where σₙ = max(ε, (0 + Σₖ |W₂ n k|) / 8192) is the
  mean magnitude of the weight row, t is the ternary weight in the straight-through form (w + (t·σ - w)) / σ, and a is the
  row quantizer in the straight-through form x + (q(x) - x).  Each lemma below reads one group of stages.
-/
import proofs.«169359_j2439541424639_1_alg».proof.Proof.RefRead
import proofs.«169359_j2439541424639_1_alg».proof.Proof.RefSpec
import proofs.«169359_j2439541424639_1_alg».proof.Proof.Index
import proofs.«169359_j2439541424639_1_alg».proof.Proof.LibRowMax
import proofs.«169359_j2439541424639_1_alg».proof.Proof.Algebra

noncomputable section

namespace Cert.ReferenceIdeal.RefLayer2

open Cert.ReferenceIdeal Cert.ReferenceIdeal.Gen Idealize.ShloMosaic Idealize.ShloMosaic.ValueIdx Idealize.SL.Sem Idealize.ShloMosaic.StableHlo

/-! ## The weight scale column -/

/-- The mean magnitude of weight row n, floored at ε: stages 62–67 at (n, 0). -/
theorem scale_apply (x2 : (⟨S2048x8192, .f32⟩ : BufTy).Contents (Elt Ideal)) (n : Fin 2048) :
    ReadP.val_main_v67 (F := Ideal) x2 (ix2 n (0 : Fin 1)) = BitMlp.s2 (BitMlp.matOf x2) n := by
  rw [ReadP.val_main_v67_apply, ReadP.val_main_call9_v1_apply, ReadP.val_main_call9_v0_apply,
    ReadP.val_main_cst_19_apply, ReadP.val_main_v66_apply, ReadP.val_main_v64_apply, ReadP.val_main_v65_apply,
    ReadP.val_main_cst_18_apply, ReadP.val_main_v63_apply, ReadP.val_main_cst_17_apply]
  show max _ (Ideal.div (_ + ∑ k, _) _) = _
  unfold BitMlp.s2 BitMlp.wstep
  refine congrArg (max _) (congrArg (fun t => Ideal.div (_ + t) _) (Finset.sum_congr rfl fun k _ => ?_))
  rw [ReadP.val_main_v62_apply]
  have e : ReadP.idx_main_v63 (ReadP.idx_main_v64 (ix2 n (0 : Fin 1))) k = ix2 n k :=
    funext fun a => Fin.ext (by match a with | ⟨0, _⟩ => rfl | ⟨1, _⟩ => rfl)
  rw [e]
  rfl

/-! ## The clamp bounds

The reference converts the integer words -1, 1, -128, 127 to floats; these are the values of the binary32 patterns the
target function names. -/

theorem sitofp_m1 : (FloatOps.sitofp (F := Ideal) .f32 (4294967295#32 : BitVec 32)) = BitMlp.lit 0xBF800000#32 := by
  rw [BitMlp.lit_mone]
  show (((4294967295#32 : BitVec 32).toInt : ℝ) : EReal) = _
  have h : (4294967295#32 : BitVec 32).toInt = -1 := by decide
  rw [h]; norm_num

theorem sitofp_1 : (FloatOps.sitofp (F := Ideal) .f32 (1#32 : BitVec 32)) = BitMlp.lit 0x3F800000#32 := by
  rw [BitMlp.lit_one]
  show (((1#32 : BitVec 32).toInt : ℝ) : EReal) = _
  have h : (1#32 : BitVec 32).toInt = 1 := by decide
  rw [h]; norm_num

theorem sitofp_m128 : (FloatOps.sitofp (F := Ideal) .f32 (4294967168#32 : BitVec 32)) = BitMlp.lit 0xC3000000#32 := by
  rw [BitMlp.lit_m128]
  show (((4294967168#32 : BitVec 32).toInt : ℝ) : EReal) = _
  have h : (4294967168#32 : BitVec 32).toInt = -128 := by decide
  rw [h]; norm_num

theorem sitofp_127 : (FloatOps.sitofp (F := Ideal) .f32 (127#32 : BitVec 32)) = BitMlp.lit 0x42FE0000#32 := by
  rw [BitMlp.lit_127]
  show (((127#32 : BitVec 32).toInt : ℝ) : EReal) = _
  have h : (127#32 : BitVec 32).toInt = 127 := by decide
  rw [h]; norm_num

/-! ## The ternary weight -/

/-- The rounded, clamped quotient of a weight by its row's scale: stages 68–71 at (n, h). -/
theorem tern_apply (x2 : (⟨S2048x8192, .f32⟩ : BufTy).Contents (Elt Ideal)) (n : Fin 2048) (h : Fin 8192) :
    ReadP.val_main_v71 (F := Ideal) x2 (ix2 n h)
      = BitMlp.tern (BitMlp.s2 (BitMlp.matOf x2) n) (BitMlp.matOf x2 n h) := by
  rw [ReadP.val_main_v71_apply, ReadP.val_main_call11_v4_apply, ReadP.val_main_call11_v3_apply,
    ReadP.val_main_c_21_apply, ReadP.val_main_call11_v2_apply, ReadP.val_main_call11_v1_apply,
    ReadP.val_main_call11_v0_apply, ReadP.val_main_c_20_apply, ReadP.val_main_v70_apply, ReadP.val_main_v69_apply,
    ReadP.val_main_v68_apply]
  have e : ReadP.idx_main_v68 (ix2 n h) = ix2 n (0 : Fin 1) :=
    funext fun a => Fin.ext (by match a with | ⟨0, _⟩ => rfl | ⟨1, _⟩ => rfl)
  rw [e, scale_apply, sitofp_m1, sitofp_1]
  rfl

/-- The reference's ternary weight, in the straight-through form: stages 68–77 at (n, h). -/
theorem w2q_apply (x2 : (⟨S2048x8192, .f32⟩ : BufTy).Contents (Elt Ideal)) (n : Fin 2048) (h : Fin 8192) :
    ReadP.val_main_v77 (F := Ideal) x2 (ix2 n h) = BitMlp.w2qRef (BitMlp.matOf x2) n h := by
  rw [ReadP.val_main_v77_apply, ReadP.val_main_v75_apply, ReadP.val_main_v74_apply, ReadP.val_main_v73_apply,
    ReadP.val_main_v72_apply, ReadP.val_main_v76_apply, tern_apply]
  have e2 : ReadP.idx_main_v72 (ix2 n h) = ix2 n (0 : Fin 1) :=
    funext fun a => Fin.ext (by match a with | ⟨0, _⟩ => rfl | ⟨1, _⟩ => rfl)
  have e6 : ReadP.idx_main_v76 (ix2 n h) = ix2 n (0 : Fin 1) :=
    funext fun a => Fin.ext (by match a with | ⟨0, _⟩ => rfl | ⟨1, _⟩ => rfl)
  rw [e2, e6, scale_apply]
  rfl

/-! ## The activation quantizer -/

/-- The largest magnitude of the hidden row at (b, s): stages 48–49 at (b, s). -/
theorem amax_apply (x0 : (⟨S4x2048x2048, .f32⟩ : BufTy).Contents (Elt Ideal)) (x1 : (⟨S8192x2048, .f32⟩ : BufTy).Contents (Elt Ideal))
    (b : Fin 4) (s : Fin 2048) :
    ReadP.val_main_v49 (F := Ideal) x0 x1 (ix2 b s)
      = BitMlp.amax fun h : Fin 8192 => ReadP.val_main_v47 (F := Ideal) x0 x1 (ix3 b s h) := by
  unfold ReadP.val_main_v49
  refine (Cert.LibRowMax.hostReduce_maximumf_last_apply (ReadP.val_main_v48 (F := Ideal) x0 x1)
    (ReadP.val_main_cst_12 (F := Ideal)) reducesTo_S4x2048x8192_S4x2048_d2 (by decide) h_S_ b s).trans ?_
  rfl

/-- The reciprocal of the activation step of the hidden row at (b, s): stages 48–53 at (b, s, 0). -/
theorem qstep_apply (x0 : (⟨S4x2048x2048, .f32⟩ : BufTy).Contents (Elt Ideal)) (x1 : (⟨S8192x2048, .f32⟩ : BufTy).Contents (Elt Ideal))
    (b : Fin 4) (s : Fin 2048) :
    ReadP.val_main_v53 (F := Ideal) x0 x1 (ix3 b s (0 : Fin 1))
      = BitMlp.qstep (BitMlp.amax fun h : Fin 8192 => ReadP.val_main_v47 (F := Ideal) x0 x1 (ix3 b s h)) := by
  rw [ReadP.val_main_v53_apply, ReadP.val_main_v52_apply, ReadP.val_main_cst_14_apply, ReadP.val_main_v51_apply,
    ReadP.val_main_call6_v1_apply, ReadP.val_main_call6_v0_apply, ReadP.val_main_cst_13_apply, ReadP.val_main_v50_apply]
  have e : ReadP.idx_main_v50 (ix3 b s (0 : Fin 1)) = ix2 b s :=
    funext fun a => Fin.ext (by match a with | ⟨0, _⟩ => rfl | ⟨1, _⟩ => rfl)
  rw [e, amax_apply]
  rfl

/-- The quantized hidden activation, in the straight-through form: stages 54–61 at (b, s, h). -/
theorem actq_apply (x0 : (⟨S4x2048x2048, .f32⟩ : BufTy).Contents (Elt Ideal)) (x1 : (⟨S8192x2048, .f32⟩ : BufTy).Contents (Elt Ideal))
    (b : Fin 4) (s : Fin 2048) (h : Fin 8192) :
    ReadP.val_main_v61 (F := Ideal) x0 x1 (ix3 b s h)
      = BitMlp.actqRef (fun h : Fin 8192 => ReadP.val_main_v47 (F := Ideal) x0 x1 (ix3 b s h)) h := by
  rw [ReadP.val_main_v61_apply, ReadP.val_main_v60_apply, ReadP.val_main_v59_apply, ReadP.val_main_v58_apply,
    ReadP.val_main_v57_apply, ReadP.val_main_call8_v4_apply, ReadP.val_main_call8_v3_apply, ReadP.val_main_c_16_apply,
    ReadP.val_main_call8_v2_apply, ReadP.val_main_call8_v1_apply, ReadP.val_main_call8_v0_apply,
    ReadP.val_main_c_15_apply, ReadP.val_main_v56_apply, ReadP.val_main_v55_apply, ReadP.val_main_v54_apply]
  have e4 : ReadP.idx_main_v54 (ix3 b s h) = ix3 b s (0 : Fin 1) :=
    funext fun a => Fin.ext (by match a with | ⟨0, _⟩ => rfl | ⟨1, _⟩ => rfl | ⟨2, _⟩ => rfl)
  have e8 : ReadP.idx_main_v58 (ix3 b s h) = ix3 b s (0 : Fin 1) :=
    funext fun a => Fin.ext (by match a with | ⟨0, _⟩ => rfl | ⟨1, _⟩ => rfl | ⟨2, _⟩ => rfl)
  rw [e4, e8, qstep_apply, sitofp_m128, sitofp_127]
  rfl

/-! ## The second layer -/

/-- The reference's output at (b, s, n): the second quantized linear layer applied to the hidden activations. -/
theorem out_apply (x0 : (⟨S4x2048x2048, .f32⟩ : BufTy).Contents (Elt Ideal)) (x1 : (⟨S8192x2048, .f32⟩ : BufTy).Contents (Elt Ideal))
    (x2 : (⟨S2048x8192, .f32⟩ : BufTy).Contents (Elt Ideal)) (b : Fin 4) (s : Fin 2048) (n : Fin 2048) :
    ReadP.val_main_v82 (F := Ideal) x0 x1 x2 (ix3 b s n)
      = BitMlp.linRef (BitMlp.rowsOf (ReadP.val_main_v47 (F := Ideal) x0 x1)) (BitMlp.w2qRef (BitMlp.matOf x2))
          (BitMlp.s2 (BitMlp.matOf x2)) (BitMlp.flatRow b s) n := by
  rw [ReadP.val_main_v82_apply, ReadP.val_main_v81_apply, ReadP.val_main_v80_apply, ReadP.val_main_v78_apply,
    ReadP.val_main_v79_apply]
  have e1 : ReadP.idx_main_v78 (ReadP.idx_main_v80 (ReadP.idx_main_v81 (ix3 b s n))) = ix2 n (0 : Fin 1) :=
    funext fun a => Fin.ext (by match a with | ⟨0, _⟩ => rfl | ⟨1, _⟩ => rfl)
  rw [e1, scale_apply]
  unfold BitMlp.linRef
  rw [BitMlp.rowsOf_flatRow]
  show (∑ k : Fin 8192, _) * _ = (∑ k : Fin 8192, _) * _
  refine congrArg (· * _) (Finset.sum_congr rfl fun k _ => ?_)
  have el : ReadP.lidx_main_v79 (ix3 b s n) k = ix3 b s k :=
    funext fun a => Fin.ext (by match a with | ⟨0, _⟩ => rfl | ⟨1, _⟩ => rfl | ⟨2, _⟩ => rfl)
  have er : ReadP.ridx_main_v79 (ix3 b s n) k = ix2 n k :=
    funext fun a => Fin.ext (by match a with | ⟨0, _⟩ => rfl | ⟨1, _⟩ => rfl)
  rw [el, er, actq_apply, w2q_apply]

end Cert.ReferenceIdeal.RefLayer2

end
-- ==== Proof.RefValue.lean ====
/-
  The reference's output as the network in the reference's spelling, given the hidden activations.

  The last stage of the reference at (b, s, n) is the second quantized linear layer applied to the hidden activations;
  a linear layer reads its rows only at the row it is asked for, so once the hidden stage at (b, s, ·) is the network's
  hidden row b·2048 + s, the output is the two-layer network at that row and feature n.
-/
import proofs.«169359_j2439541424639_1_alg».proof.Proof.RefLayer2
import proofs.«169359_j2439541424639_1_alg».proof.Proof.RefSpec
import proofs.«169359_j2439541424639_1_alg».proof.Proof.Index

noncomputable section

namespace Cert.ReferenceIdeal.RefValue

open Cert.ReferenceIdeal Cert.ReferenceIdeal.Gen Idealize.ShloMosaic Idealize.ShloMosaic.ValueIdx Idealize.SL.Sem Idealize.ShloMosaic.StableHlo

/-- If the hidden stage reads as the network's hidden activations at every (b, s, h), the reference's output at
    (b, s, n) is the network, in the reference's spelling, at row b·2048 + s and feature n. -/
theorem ref_apply_of (x0 : (⟨S4x2048x2048, .f32⟩ : BufTy).Contents (Elt Ideal)) (x1 : (⟨S8192x2048, .f32⟩ : BufTy).Contents (Elt Ideal))
    (x2 : (⟨S2048x8192, .f32⟩ : BufTy).Contents (Elt Ideal))
    (hid : ∀ (b : Fin 4) (s : Fin 2048) (h : Fin 8192), ReadP.val_main_v47 (F := Ideal) x0 x1 (ix3 b s h)
      = BitMlp.hiddenRef (BitMlp.rowsOf x0) (BitMlp.matOf x1) (BitMlp.flatRow b s) h)
    (b : Fin 4) (s : Fin 2048) (n : Fin 2048) :
    ReadP.val_main_v82 (F := Ideal) x0 x1 x2 (ix3 b s n)
      = BitMlp.mlpRef (BitMlp.rowsOf x0) (BitMlp.matOf x1) (BitMlp.matOf x2) (BitMlp.flatRow b s) n := by
  have hr : BitMlp.rowsOf (ReadP.val_main_v47 (F := Ideal) x0 x1) (BitMlp.flatRow b s)
      = BitMlp.hiddenRef (BitMlp.rowsOf x0) (BitMlp.matOf x1) (BitMlp.flatRow b s) := by
    rw [BitMlp.rowsOf_flatRow]
    exact funext fun h => hid b s h
  refine (RefLayer2.out_apply x0 x1 x2 b s n).trans ?_
  unfold BitMlp.mlpRef BitMlp.linRef
  rw [hr]

end Cert.ReferenceIdeal.RefValue

end
-- ==== Proof.RefOut.lean ====
/-
  The reference's last stage is the network's output array, when the inputs are real numbers: index by index it is the
  network in the reference's straight-through spelling (the two layers read at an index), and on real inputs that
  spelling is the network itself.
-/
import proofs.«169359_j2439541424639_1_alg».proof.Proof.RefLayer1
import proofs.«169359_j2439541424639_1_alg».proof.Proof.RefValue
import proofs.«169359_j2439541424639_1_alg».proof.Proof.Algebra
import proofs.«169359_j2439541424639_1_alg».proof.Proof.Out

noncomputable section

namespace Cert.ReferenceIdeal.RefOut

open Cert.ReferenceIdeal Idealize.ShloMosaic Idealize.ShloMosaic.ValueIdx BitMlp Cert.LibRealValued

theorem val_eq_out (x0 : (⟨S4x2048x2048, .f32⟩ : BufTy).Contents (Elt Ideal)) (x1 : (⟨S8192x2048, .f32⟩ : BufTy).Contents (Elt Ideal))
    (x2 : (⟨S2048x8192, .f32⟩ : BufTy).Contents (Elt Ideal))
    (h0 : ∀ i, IsReal (x0 i)) (h1 : ∀ i, IsReal (x1 i)) (h2 : ∀ i, IsReal (x2 i)) :
    ReadP.val_main_v82 (F := Ideal) x0 x1 x2 = outArr x0 x1 x2 := by
  funext i
  obtain ⟨b, s, n, rfl⟩ : ∃ (b : Fin 4) (s : Fin 2048) (n : Fin 2048), i = ix3 b s n := ⟨i 0, i 1, i 2, eq_ix3 i⟩
  rw [outArr_ix3]
  refine (Cert.ReferenceIdeal.RefValue.ref_apply_of x0 x1 x2 (Cert.ReferenceIdeal.RefLayer1.hidden_apply x0 x1) b s n).trans ?_
  exact mlpRef_eq_mlp _ _ _ (fun r d => h0 _) (fun h d => h1 _) (fun n h => h2 _) _ _

end Cert.ReferenceIdeal.RefOut

end
-- ==== Proof.Finite.lean ====
/-
  From the precondition to real inputs.  The precondition states that `|x| < +∞` holds at every entry of the three
  argument arrays (three `all`s, joined by `and`); at the ideal values that comparison holds exactly when the entry is a
  real number.
-/
import proofs.«169359_j2439541424639_1_alg».proof.Defs
import proofs.«169359_j2439541424639_1_alg».proof.Proof.LibRealValued
import Idealize.ShloMosaic.Lib.ReduceAll

noncomputable section

namespace Cert.KernelIdeal.Finite

open Idealize.ShloMosaic Idealize.SL.Sem Cert.LibRealValued

/-- A rank-0 shape has one index. -/
instance : Subsingleton Cert.Pre_finite_inputs.S_.Idx := ⟨fun a b => funext fun d => d.elim0⟩

/-- Under the precondition every entry of the three argument arrays is a real number. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg2) i)) := by
  have h0 := congrFun (h c) (fun a => a.elim0)
  dsimp only [Cert.Pre_finite_inputs.fn] at h0
  -- the predicate is `(all₀ ∧ all₁) ∧ all₂` at the one index of the result
  change IntOp.andi (IntOp.andi _ _) _ = 1#1 at h0
  obtain ⟨h01, h2⟩ := IntOp.andi_eq_one.1 h0
  obtain ⟨h0', h1⟩ := IntOp.andi_eq_one.1 h01
  refine ⟨fun i => ?_, fun i => ?_, fun i => ?_⟩
  · exact real_of_abs_lt_inf _ (Host.reduce_andi_all _ _ _ _ _ h0' i)
  · exact real_of_abs_lt_inf _ (Host.reduce_andi_all _ _ _ _ _ h1 i)
  · exact real_of_abs_lt_inf _ (Host.reduce_andi_all _ _ _ _ _ h2 i)

end Cert.KernelIdeal.Finite

end
-- ==== Proof.lean ====
/-
  The certificate: a two-layer quantized MLP (ternary weights, int8-style activations, tanh GELU) computed by two fused
  kernels equals its plain reference over the extended reals, under finite inputs.

  * The three frames: the two kernel programs by their frame modules; the reference by its run with the result dropped.
  * The idealization rewrote nothing, so it is preserved trivially.
  * The value claim.  The idealized kernel's result array is the network's output array `outArr` of the three argument
    arrays: the blocks of its two regions are restrictions of one whole-array function each, and the host operations
    around them make the weights ternary and flatten the rows.  The reference's result is the same network in the
    straight-through spelling (`x + (q(x) - x)`, `(w + (t(w)·σ - w)) / σ`), which is `outArr` as soon as the inputs — and
    with them every hidden activation — are real numbers; finite inputs say exactly that.
-/
import proofs.«169359_j2439541424639_1_alg».proof.Defs
import proofs.«169359_j2439541424639_1_alg».proof.Proof.Gen.Kernel
import proofs.«169359_j2439541424639_1_alg».proof.Proof.Gen.Kernel.Skeleton
import proofs.«169359_j2439541424639_1_alg».proof.Proof.Gen.Kernel.Launch
import proofs.«169359_j2439541424639_1_alg».proof.Proof.Gen.Kernel.Points
import proofs.«169359_j2439541424639_1_alg».proof.Proof.Gen.Kernel.Frame
import proofs.«169359_j2439541424639_1_alg».proof.Proof.Gen.KernelIdeal
import proofs.«169359_j2439541424639_1_alg».proof.Proof.Gen.KernelIdeal.Skeleton
import proofs.«169359_j2439541424639_1_alg».proof.Proof.Gen.KernelIdeal.Launch
import proofs.«169359_j2439541424639_1_alg».proof.Proof.Gen.KernelIdeal.Points
import proofs.«169359_j2439541424639_1_alg».proof.Proof.Gen.KernelIdeal.Frame
import proofs.«169359_j2439541424639_1_alg».proof.Proof.Gen.ReferenceIdeal
import proofs.«169359_j2439541424639_1_alg».proof.Proof.Gen.Pre_finite_inputs
import proofs.«169359_j2439541424639_1_alg».proof.Proof.KOut
import proofs.«169359_j2439541424639_1_alg».proof.Proof.RefOps
import proofs.«169359_j2439541424639_1_alg».proof.Proof.RefAfter
import proofs.«169359_j2439541424639_1_alg».proof.Proof.RefOut
import proofs.«169359_j2439541424639_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the network's output of the (agreeing, finite) argument arrays. -/
theorem algebraic : Cert.algebraic_KernelIdeal_ReferenceIdeal := by
  intro m ρ m' ρ' hpre hagree
  refine ⟨_, Cert.KernelIdeal.KOut.run m ρ, ?_⟩
  refine (θ_run Cert.ReferenceIdeal.defs _ _).mono (fun r h c => ⟨(h c).1.trans ?_, (h c).2⟩)
    (Cert.ReferenceIdeal.ValueP.run (F := Ideal) m' ρ')
  obtain ⟨r0, r1, r2⟩ := Cert.KernelIdeal.Finite.real_of_pre m hpre c
  refine (Cert.ReferenceIdeal.RefAfter.after_ops_result m' c).trans ?_
  rw [(hagree c).1, (hagree c).2.1, (hagree c).2.2]
  exact Cert.ReferenceIdeal.RefOut.val_eq_out _ _ _ r0 r1 r2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
